-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1500000 : Shape := ⟨1, ![1500000]⟩
abbrev S100000x100 : Shape := ⟨2, ![100000, 100]⟩
abbrev S50000x100 : Shape := ⟨2, ![50000, 100]⟩
abbrev S100x80 : Shape := ⟨2, ![100, 80]⟩
abbrev S80 : Shape := ⟨1, ![80]⟩
abbrev S80x50 : Shape := ⟨2, ![80, 50]⟩
abbrev S50 : Shape := ⟨1, ![50]⟩
abbrev S460x64 : Shape := ⟨2, ![460, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1500000 : S_.BroadcastsInDim S1500000 (![] : Fin 0 → Fin S1500000.rank)
  reducesTo_S1500000_S_d0 : S1500000.ReducesTo [0] S_
  h_S_ : 0 < S_.numel
  bcast_S_S100000x100 : S_.BroadcastsInDim S100000x100 (![] : Fin 0 → Fin S100000x100.rank)
  reducesTo_S100000x100_S_d0_1 : S100000x100.ReducesTo [0, 1] S_
  bcast_S_S50000x100 : S_.BroadcastsInDim S50000x100 (![] : Fin 0 → Fin S50000x100.rank)
  reducesTo_S50000x100_S_d0_1 : S50000x100.ReducesTo [0, 1] S_
  bcast_S_S100x80 : S_.BroadcastsInDim S100x80 (![] : Fin 0 → Fin S100x80.rank)
  reducesTo_S100x80_S_d0_1 : S100x80.ReducesTo [0, 1] S_
  bcast_S_S80 : S_.BroadcastsInDim S80 (![] : Fin 0 → Fin S80.rank)
  reducesTo_S80_S_d0 : S80.ReducesTo [0] S_
  bcast_S_S80x50 : S_.BroadcastsInDim S80x50 (![] : Fin 0 → Fin S80x50.rank)
  reducesTo_S80x50_S_d0_1 : S80x50.ReducesTo [0, 1] S_
  bcast_S_S50 : S_.BroadcastsInDim S50 (![] : Fin 0 → Fin S50.rank)
  reducesTo_S50_S_d0 : S50.ReducesTo [0] S_
  bcast_S_S460x64 : S_.BroadcastsInDim S460x64 (![] : Fin 0 → Fin S460x64.rank)
  reducesTo_S460x64_S_d0_1 : S460x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S32 .f32) (main_arg19 : FVec F S32x1 .f32) (main_arg20 : FVec F S1 .f32) (main_v63 : IVec S_ 1) (main_v67 : IVec S_ 1) : IVec S_ 1 :=
  let main_v68 : IVec S_ 1 := andi main_v63 main_v67
  let main_v69 : FVec F S32 .f32 := Host.absf main_arg18
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg19
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg20
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg15 : FVec F S460x64 .f32) (main_arg16 : FVec F S64 .f32) (main_arg17 : FVec F S64x32 .f32) (main_arg18 : FVec F S32 .f32) (main_arg19 : FVec F S32x1 .f32) (main_arg20 : FVec F S1 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S460x64 .f32 := Host.absf main_arg15
  let main_cst_20 : FVec F S_ .f32 := constant S_ .f32 0x7F800000#32
  let main_v55 : FVec F S460x64 .f32 := broadcastInDim S460x64 ![] bcast_S_S460x64 main_cst_20
  let main_v56 : IVec S460x64 1 := cmpf .olt main_v54 main_v55
  let main_c_21 : IVec S_ 1 := constantI S_ 1 1#1
  let main_v57 : IVec S_ 1 := (fun x v => Host.reduce IntOp.andi x v reducesTo_S460x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg17
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg18 main_arg19 main_arg20 main_v63 main_v67

def fn_part2 {F : FTy → Type} [FloatOps F] (main_arg11 : FVec F S80x50 .f32) (main_arg12 : FVec F S50 .f32) (main_arg13 : FVec F S80x50 .f32) (main_arg14 : FVec F S50 .f32) (main_arg15 : FVec F S460x64 .f32) (main_arg16 : FVec F S64 .f32) (main_arg17 : FVec F S64x32 .f32) (main_arg18 : FVec F S32 .f32) (main_arg19 : FVec F S32x1 .f32) (main_arg20 : FVec F S1 .f32) (main_v33 : IVec S_ 1) : IVec S_ 1 :=
  let main_v34 : FVec F S80x50 .f32 := Host.absf main_arg11
  let main_cst_12 : FVec F S_ .f32 := constant S_ .f32 0x7F800000#32
  let main_v35 : FVec F S80x50 .f32 := broadcastInDim S80x50 ![] bcast_S_S80x50 main_cst_12
  let main_v36 : IVec S80x50 1 := cmpf .olt main_v34 main_v35
  let main_c_13 : IVec S_ 1 := constantI S_ 1 1#1
  let main_v37 : IVec S_ 1 := (fun x v => Host.reduce IntOp.andi x v reducesTo_S80x50_S_d0_1 h_S_) main_v36 main_c_13
  let main_v38 : IVec S_ 1 := andi main_v33 main_v37
  let main_v39 : FVec F S50 .f32 := Host.absf main_arg12
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S80x50 .f32 := Host.absf main_arg13
  let main_cst_16 : FVec F S_ .f32 := constant S_ .f32 0x7F800000#32
  let main_v45 : FVec F S80x50 .f32 := broadcastInDim S80x50 ![] bcast_S_S80x50 main_cst_16
  let main_v46 : IVec S80x50 1 := cmpf .olt main_v44 main_v45
  let main_c_17 : IVec S_ 1 := constantI S_ 1 1#1
  let main_v47 : IVec S_ 1 := (fun x v => Host.reduce IntOp.andi x v reducesTo_S80x50_S_d0_1 h_S_) main_v46 main_c_17
  let main_v48 : IVec S_ 1 := andi main_v43 main_v47
  let main_v49 : FVec F S50 .f32 := Host.absf main_arg14
  let main_cst_18 : FVec F S_ .f32 := constant S_ .f32 0x7F800000#32
  let main_v50 : FVec F S50 .f32 := broadcastInDim S50 ![] bcast_S_S50 main_cst_18
  fn_part3 (F := F) main_arg15 main_arg16 main_arg17 main_arg18 main_arg19 main_arg20 main_v48 main_v49 main_v50

def fn_part1 {F : FTy → Type} [FloatOps F] (main_arg8 : FVec F S80 .f32) (main_arg9 : FVec F S100x80 .f32) (main_arg10 : FVec F S80 .f32) (main_arg11 : FVec F S80x50 .f32) (main_arg12 : FVec F S50 .f32) (main_arg13 : FVec F S80x50 .f32) (main_arg14 : FVec F S50 .f32) (main_arg15 : FVec F S460x64 .f32) (main_arg16 : FVec F S64 .f32) (main_arg17 : FVec F S64x32 .f32) (main_arg18 : FVec F S32 .f32) (main_arg19 : FVec F S32x1 .f32) (main_arg20 : FVec F S1 .f32) (main_v13 : IVec S_ 1) (main_v16 : IVec S100x80 1) : IVec S_ 1 :=
  let main_c_5 : IVec S_ 1 := constantI S_ 1 1#1
  let main_v17 : IVec S_ 1 := (fun x v => Host.reduce IntOp.andi x v reducesTo_S100x80_S_d0_1 h_S_) main_v16 main_c_5
  let main_v18 : IVec S_ 1 := andi main_v13 main_v17
  let main_v19 : FVec F S80 .f32 := Host.absf main_arg8
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S100x80 .f32 := Host.absf main_arg9
  let main_cst_8 : FVec F S_ .f32 := constant S_ .f32 0x7F800000#32
  let main_v25 : FVec F S100x80 .f32 := broadcastInDim S100x80 ![] bcast_S_S100x80 main_cst_8
  let main_v26 : IVec S100x80 1 := cmpf .olt main_v24 main_v25
  let main_c_9 : IVec S_ 1 := constantI S_ 1 1#1
  let main_v27 : IVec S_ 1 := (fun x v => Host.reduce IntOp.andi x v reducesTo_S100x80_S_d0_1 h_S_) main_v26 main_c_9
  let main_v28 : IVec S_ 1 := andi main_v23 main_v27
  let main_v29 : FVec F S80 .f32 := Host.absf main_arg10
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : IVec S4096 32) (main_arg1 : IVec S4096 32) (main_arg2 : IVec S1500000 32) (main_arg3 : IVec S1500000 32) (main_arg4 : FVec F S1500000 .f32) (main_arg5 : FVec F S100000x100 .f32) (main_arg6 : FVec F S50000x100 .f32) (main_arg7 : FVec F S100x80 .f32) (main_arg8 : FVec F S80 .f32) (main_arg9 : FVec F S100x80 .f32) (main_arg10 : FVec F S80 .f32) (main_arg11 : FVec F S80x50 .f32) (main_arg12 : FVec F S50 .f32) (main_arg13 : FVec F S80x50 .f32) (main_arg14 : FVec F S50 .f32) (main_arg15 : FVec F S460x64 .f32) (main_arg16 : FVec F S64 .f32) (main_arg17 : FVec F S64x32 .f32) (main_arg18 : FVec F S32 .f32) (main_arg19 : FVec F S32x1 .f32) (main_arg20 : FVec F S1 .f32) : IVec S_ 1 :=
  let main_v0 : FVec F S1500000 .f32 := Host.absf main_arg4
  let main_cst : FVec F S_ .f32 := constant S_ .f32 0x7F800000#32
  let main_v1 : FVec F S1500000 .f32 := broadcastInDim S1500000 ![] bcast_S_S1500000 main_cst
  let main_v2 : IVec S1500000 1 := cmpf .olt main_v0 main_v1
  let main_c : IVec S_ 1 := constantI S_ 1 1#1
  let main_v3 : IVec S_ 1 := (fun x v => Host.reduce IntOp.andi x v reducesTo_S1500000_S_d0 h_S_) main_v2 main_c
  let main_v4 : FVec F S100000x100 .f32 := Host.absf main_arg5
  let main_cst_0 : FVec F S_ .f32 := constant S_ .f32 0x7F800000#32
  let main_v5 : FVec F S100000x100 .f32 := broadcastInDim S100000x100 ![] bcast_S_S100000x100 main_cst_0
  let main_v6 : IVec S100000x100 1 := cmpf .olt main_v4 main_v5
  let main_c_1 : IVec S_ 1 := constantI S_ 1 1#1
  let main_v7 : IVec S_ 1 := (fun x v => Host.reduce IntOp.andi x v reducesTo_S100000x100_S_d0_1 h_S_) main_v6 main_c_1
  let main_v8 : IVec S_ 1 := andi main_v3 main_v7
  let main_v9 : FVec F S50000x100 .f32 := Host.absf main_arg6
  let main_cst_2 : FVec F S_ .f32 := constant S_ .f32 0x7F800000#32
  let main_v10 : FVec F S50000x100 .f32 := broadcastInDim S50000x100 ![] bcast_S_S50000x100 main_cst_2
  let main_v11 : IVec S50000x100 1 := cmpf .olt main_v9 main_v10
  let main_c_3 : IVec S_ 1 := constantI S_ 1 1#1
  let main_v12 : IVec S_ 1 := (fun x v => Host.reduce IntOp.andi x v reducesTo_S50000x100_S_d0_1 h_S_) main_v11 main_c_3
  let main_v13 : IVec S_ 1 := andi main_v8 main_v12
  let main_v14 : FVec F S100x80 .f32 := Host.absf main_arg7
  let main_cst_4 : FVec F S_ .f32 := constant S_ .f32 0x7F800000#32
  let main_v15 : FVec F S100x80 .f32 := broadcastInDim S100x80 ![] bcast_S_S100x80 main_cst_4
  let main_v16 : IVec S100x80 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S4096 : Shape := ⟨1, ![4096]⟩
abbrev S1500000 : Shape := ⟨1, ![1500000]⟩
abbrev S100000x100 : Shape := ⟨2, ![100000, 100]⟩
abbrev S50000x100 : Shape := ⟨2, ![50000, 100]⟩
abbrev S100x80 : Shape := ⟨2, ![100, 80]⟩
abbrev S80 : Shape := ⟨1, ![80]⟩
abbrev S80x50 : Shape := ⟨2, ![80, 50]⟩
abbrev S50 : Shape := ⟨1, ![50]⟩
abbrev S460x64 : Shape := ⟨2, ![460, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S150000x100 : Shape := ⟨2, ![150000, 100]⟩
abbrev S1500000x1 : Shape := ⟨2, ![1500000, 1]⟩
abbrev S_ : Shape := ⟨0, ![]⟩
abbrev S1500000x100 : Shape := ⟨2, ![1500000, 100]⟩
abbrev S1000x100 : Shape := ⟨2, ![1000, 100]⟩
abbrev S1x80 : Shape := ⟨2, ![1, 80]⟩
abbrev S150000x80 : Shape := ⟨2, ![150000, 80]⟩
abbrev S1000x80 : Shape := ⟨2, ![1000, 80]⟩
abbrev S150000x180 : Shape := ⟨2, ![150000, 180]⟩
abbrev S1500000x80 : Shape := ⟨2, ![1500000, 80]⟩
abbrev S1x50 : Shape := ⟨2, ![1, 50]⟩
abbrev S150000x50 : Shape := ⟨2, ![150000, 50]⟩
abbrev S1000x50 : Shape := ⟨2, ![1000, 50]⟩
abbrev S150000x230 : Shape := ⟨2, ![150000, 230]⟩
abbrev S4096x1 : Shape := ⟨2, ![4096, 1]⟩
abbrev S4096x230 : Shape := ⟨2, ![4096, 230]⟩
abbrev S4096x460 : Shape := ⟨2, ![4096, 460]⟩
abbrev S1x64 : Shape := ⟨2, ![1, 64]⟩
abbrev S1x32 : Shape := ⟨2, ![1, 32]⟩
abbrev S1x1 : Shape := ⟨2, ![1, 1]⟩
abbrev S512x460 : Shape := ⟨2, ![512, 460]⟩
abbrev S512x1 : Shape := ⟨2, ![512, 1]⟩
abbrev S512x64 : Shape := ⟨2, ![512, 64]⟩
abbrev S512x32 : Shape := ⟨2, ![512, 32]⟩

abbrev nBuf : Space → Nat
  | .hbm => 122
  | .vmem => 46
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S1500000, .i32⟩
  | .hbm, ⟨3, _⟩ => ⟨S1500000, .i32⟩
  | .hbm, ⟨4, _⟩ => ⟨S1500000, .f32⟩
  | .hbm, ⟨5, _⟩ => ⟨S100000x100, .f32⟩
  | .hbm, ⟨6, _⟩ => ⟨S50000x100, .f32⟩
  | .hbm, ⟨7, _⟩ => ⟨S100x80, .f32⟩
  | .hbm, ⟨8, _⟩ => ⟨S80, .f32⟩
  | .hbm, ⟨9, _⟩ => ⟨S100x80, .f32⟩
  | .hbm, ⟨10, _⟩ => ⟨S80, .f32⟩
  | .hbm, ⟨11, _⟩ => ⟨S80x50, .f32⟩
  | .hbm, ⟨12, _⟩ => ⟨S50, .f32⟩
  | .hbm, ⟨13, _⟩ => ⟨S80x50, .f32⟩
  | .hbm, ⟨14, _⟩ => ⟨S50, .f32⟩
  | .hbm, ⟨15, _⟩ => ⟨S460x64, .f32⟩
  | .hbm, ⟨16, _⟩ => ⟨S64, .f32⟩
  | .hbm, ⟨17, _⟩ => ⟨S64x32, .f32⟩
  | .hbm, ⟨18, _⟩ => ⟨S32, .f32⟩
  | .hbm, ⟨19, _⟩ => ⟨S32x1, .f32⟩
  | .hbm, ⟨20, _⟩ => ⟨S1, .f32⟩
  | .hbm, ⟨21, _⟩ => ⟨S150000x100, .f32⟩
  | .hbm, ⟨22, _⟩ => ⟨S1500000x1, .f32⟩
  | .hbm, ⟨23, _⟩ => ⟨S_, .i32⟩
  | .hbm, ⟨24, _⟩ => ⟨S1500000, .i32⟩
  | .hbm, ⟨25, _⟩ => ⟨S1500000, .i1⟩
  | .hbm, ⟨26, _⟩ => ⟨S_, .i32⟩
  | .hbm, ⟨27, _⟩ => ⟨S1500000, .i32⟩
  | .hbm, ⟨28, _⟩ => ⟨S1500000, .i32⟩
  | .hbm, ⟨29, _⟩ => ⟨S1500000, .i32⟩
  | .hbm, ⟨30, _⟩ => ⟨S1500000x1, .i32⟩
  | .hbm, ⟨31, _⟩ => ⟨S1500000x100, .f32⟩
  | .hbm, ⟨32, _⟩ => ⟨S1500000x100, .f32⟩
  | .hbm, ⟨33, _⟩ => ⟨S1500000x100, .f32⟩
  | .hbm, ⟨34, _⟩ => ⟨S_, .f32⟩
  | .hbm, ⟨35, _⟩ => ⟨S150000x100, .f32⟩
  | .hbm, ⟨36, _⟩ => ⟨S1500000x1, .i32⟩
  | .hbm, ⟨37, _⟩ => ⟨S150000x100, .f32⟩
  | .hbm, ⟨38, _⟩ => ⟨S150000x100, .f32⟩
  | .hbm, ⟨39, _⟩ => ⟨S150000x100, .f32⟩
  | .hbm, ⟨40, _⟩ => ⟨S1500000x1, .f32⟩
  | .hbm, ⟨41, _⟩ => ⟨S_, .i32⟩
  | .hbm, ⟨42, _⟩ => ⟨S1500000, .i32⟩
  | .hbm, ⟨43, _⟩ => ⟨S1500000, .i1⟩
  | .hbm, ⟨44, _⟩ => ⟨S_, .i32⟩
  | .hbm, ⟨45, _⟩ => ⟨S1500000, .i32⟩
  | .hbm, ⟨46, _⟩ => ⟨S1500000, .i32⟩
  | .hbm, ⟨47, _⟩ => ⟨S1500000, .i32⟩
  | .hbm, ⟨48, _⟩ => ⟨S1500000x1, .i32⟩
  | .hbm, ⟨49, _⟩ => ⟨S1500000x100, .f32⟩
  | .hbm, ⟨50, _⟩ => ⟨S1500000x100, .f32⟩
  | .hbm, ⟨51, _⟩ => ⟨S1500000x100, .f32⟩
  | .hbm, ⟨52, _⟩ => ⟨S_, .f32⟩
  | .hbm, ⟨53, _⟩ => ⟨S150000x100, .f32⟩
  | .hbm, ⟨54, _⟩ => ⟨S1500000x1, .i32⟩
  | .hbm, ⟨55, _⟩ => ⟨S150000x100, .f32⟩
  | .hbm, ⟨56, _⟩ => ⟨S1x80, .f32⟩
  | .hbm, ⟨57, _⟩ => ⟨S1x80, .f32⟩
  | .hbm, ⟨58, _⟩ => ⟨S150000x80, .f32⟩
  | .hbm, ⟨59, _⟩ => ⟨S150000x180, .f32⟩
  | .hbm, ⟨60, _⟩ => ⟨S1500000x1, .f32⟩
  | .hbm, ⟨61, _⟩ => ⟨S_, .i32⟩
  | .hbm, ⟨62, _⟩ => ⟨S1500000, .i32⟩
  | .hbm, ⟨63, _⟩ => ⟨S1500000, .i1⟩
  | .hbm, ⟨64, _⟩ => ⟨S_, .i32⟩
  | .hbm, ⟨65, _⟩ => ⟨S1500000, .i32⟩
  | .hbm, ⟨66, _⟩ => ⟨S1500000, .i32⟩
  | .hbm, ⟨67, _⟩ => ⟨S1500000, .i32⟩
  | .hbm, ⟨68, _⟩ => ⟨S1500000x1, .i32⟩
  | .hbm, ⟨69, _⟩ => ⟨S1500000x80, .f32⟩
  | .hbm, ⟨70, _⟩ => ⟨S1500000x80, .f32⟩
  | .hbm, ⟨71, _⟩ => ⟨S1500000x80, .f32⟩
  | .hbm, ⟨72, _⟩ => ⟨S_, .f32⟩
  | .hbm, ⟨73, _⟩ => ⟨S150000x80, .f32⟩
  | .hbm, ⟨74, _⟩ => ⟨S1500000x1, .i32⟩
  | .hbm, ⟨75, _⟩ => ⟨S150000x80, .f32⟩
  | .hbm, ⟨76, _⟩ => ⟨S150000x80, .f32⟩
  | .hbm, ⟨77, _⟩ => ⟨S150000x80, .f32⟩
  | .hbm, ⟨78, _⟩ => ⟨S1500000x1, .f32⟩
  | .hbm, ⟨79, _⟩ => ⟨S_, .i32⟩
  | .hbm, ⟨80, _⟩ => ⟨S1500000, .i32⟩
  | .hbm, ⟨81, _⟩ => ⟨S1500000, .i1⟩
  | .hbm, ⟨82, _⟩ => ⟨S_, .i32⟩
  | .hbm, ⟨83, _⟩ => ⟨S1500000, .i32⟩
  | .hbm, ⟨84, _⟩ => ⟨S1500000, .i32⟩
  | .hbm, ⟨85, _⟩ => ⟨S1500000, .i32⟩
  | .hbm, ⟨86, _⟩ => ⟨S1500000x1, .i32⟩
  | .hbm, ⟨87, _⟩ => ⟨S1500000x80, .f32⟩
  | .hbm, ⟨88, _⟩ => ⟨S1500000x80, .f32⟩
  | .hbm, ⟨89, _⟩ => ⟨S1500000x80, .f32⟩
  | .hbm, ⟨90, _⟩ => ⟨S_, .f32⟩
  | .hbm, ⟨91, _⟩ => ⟨S150000x80, .f32⟩
  | .hbm, ⟨92, _⟩ => ⟨S1500000x1, .i32⟩
  | .hbm, ⟨93, _⟩ => ⟨S150000x80, .f32⟩
  | .hbm, ⟨94, _⟩ => ⟨S1x50, .f32⟩
  | .hbm, ⟨95, _⟩ => ⟨S1x50, .f32⟩
  | .hbm, ⟨96, _⟩ => ⟨S150000x50, .f32⟩
  | .hbm, ⟨97, _⟩ => ⟨S150000x230, .f32⟩
  | .hbm, ⟨98, _⟩ => ⟨S_, .i32⟩
  | .hbm, ⟨99, _⟩ => ⟨S4096, .i32⟩
  | .hbm, ⟨100, _⟩ => ⟨S4096, .i1⟩
  | .hbm, ⟨101, _⟩ => ⟨S_, .i32⟩
  | .hbm, ⟨102, _⟩ => ⟨S4096, .i32⟩
  | .hbm, ⟨103, _⟩ => ⟨S4096, .i32⟩
  | .hbm, ⟨104, _⟩ => ⟨S4096, .i32⟩
  | .hbm, ⟨105, _⟩ => ⟨S4096x1, .i32⟩
  | .hbm, ⟨106, _⟩ => ⟨S4096x230, .f32⟩
  | .hbm, ⟨107, _⟩ => ⟨S_, .i32⟩
  | .hbm, ⟨108, _⟩ => ⟨S4096, .i32⟩
  | .hbm, ⟨109, _⟩ => ⟨S4096, .i1⟩
  | .hbm, ⟨110, _⟩ => ⟨S_, .i32⟩
  | .hbm, ⟨111, _⟩ => ⟨S4096, .i32⟩
  | .hbm, ⟨112, _⟩ => ⟨S4096, .i32⟩
  | .hbm, ⟨113, _⟩ => ⟨S4096, .i32⟩
  | .hbm, ⟨114, _⟩ => ⟨S4096x1, .i32⟩
  | .hbm, ⟨115, _⟩ => ⟨S4096x230, .f32⟩
  | .hbm, ⟨116, _⟩ => ⟨S4096x460, .f32⟩
  | .hbm, ⟨117, _⟩ => ⟨S1x64, .f32⟩
  | .hbm, ⟨118, _⟩ => ⟨S1x32, .f32⟩
  | .hbm, ⟨119, _⟩ => ⟨S1x1, .f32⟩
  | .hbm, ⟨120, _⟩ => ⟨S4096x1, .f32⟩
  | .hbm, ⟨121, _⟩ => ⟨S4096, .f32⟩
  | .local _ .vmem, ⟨0, _⟩ => ⟨S1000x100, .f32⟩
  | .local _ .vmem, ⟨1, _⟩ => ⟨S1000x100, .f32⟩
  | .local _ .vmem, ⟨2, _⟩ => ⟨S1000x100, .f32⟩
  | .local _ .vmem, ⟨3, _⟩ => ⟨S1000x100, .f32⟩
  | .local _ .vmem, ⟨4, _⟩ => ⟨S1000x100, .f32⟩
  | .local _ .vmem, ⟨5, _⟩ => ⟨S1000x100, .f32⟩
  | .local _ .vmem, ⟨6, _⟩ => ⟨S1000x100, .f32⟩
  | .local _ .vmem, ⟨7, _⟩ => ⟨S1000x100, .f32⟩
  | .local _ .vmem, ⟨8, _⟩ => ⟨S1000x100, .f32⟩
  | .local _ .vmem, ⟨9, _⟩ => ⟨S1000x100, .f32⟩
  | .local _ .vmem, ⟨10, _⟩ => ⟨S1000x100, .f32⟩
  | .local _ .vmem, ⟨11, _⟩ => ⟨S1000x100, .f32⟩
  | .local _ .vmem, ⟨12, _⟩ => ⟨S100x80, .f32⟩
  | .local _ .vmem, ⟨13, _⟩ => ⟨S1x80, .f32⟩
  | .local _ .vmem, ⟨14, _⟩ => ⟨S100x80, .f32⟩
  | .local _ .vmem, ⟨15, _⟩ => ⟨S1x80, .f32⟩
  | .local _ .vmem, ⟨16, _⟩ => ⟨S1000x80, .f32⟩
  | .local _ .vmem, ⟨17, _⟩ => ⟨S1000x80, .f32⟩
  | .local _ .vmem, ⟨18, _⟩ => ⟨S1000x80, .f32⟩
  | .local _ .vmem, ⟨19, _⟩ => ⟨S1000x80, .f32⟩
  | .local _ .vmem, ⟨20, _⟩ => ⟨S1000x80, .f32⟩
  | .local _ .vmem, ⟨21, _⟩ => ⟨S1000x80, .f32⟩
  | .local _ .vmem, ⟨22, _⟩ => ⟨S1000x80, .f32⟩
  | .local _ .vmem, ⟨23, _⟩ => ⟨S1000x80, .f32⟩
  | .local _ .vmem, ⟨24, _⟩ => ⟨S1000x80, .f32⟩
  | .local _ .vmem, ⟨25, _⟩ => ⟨S1000x80, .f32⟩
  | .local _ .vmem, ⟨26, _⟩ => ⟨S1000x80, .f32⟩
  | .local _ .vmem, ⟨27, _⟩ => ⟨S1000x80, .f32⟩
  | .local _ .vmem, ⟨28, _⟩ => ⟨S1000x80, .f32⟩
  | .local _ .vmem, ⟨29, _⟩ => ⟨S1000x80, .f32⟩
  | .local _ .vmem, ⟨30, _⟩ => ⟨S80x50, .f32⟩
  | .local _ .vmem, ⟨31, _⟩ => ⟨S1x50, .f32⟩
  | .local _ .vmem, ⟨32, _⟩ => ⟨S80x50, .f32⟩
  | .local _ .vmem, ⟨33, _⟩ => ⟨S1x50, .f32⟩
  | .local _ .vmem, ⟨34, _⟩ => ⟨S1000x50, .f32⟩
  | .local _ .vmem, ⟨35, _⟩ => ⟨S1000x50, .f32⟩
  | .local _ .vmem, ⟨36, _⟩ => ⟨S512x460, .f32⟩
  | .local _ .vmem, ⟨37, _⟩ => ⟨S512x460, .f32⟩
  | .local _ .vmem, ⟨38, _⟩ => ⟨S460x64, .f32⟩
  | .local _ .vmem, ⟨39, _⟩ => ⟨S1x64, .f32⟩
  | .local _ .vmem, ⟨40, _⟩ => ⟨S64x32, .f32⟩
  | .local _ .vmem, ⟨41, _⟩ => ⟨S1x32, .f32⟩
  | .local _ .vmem, ⟨42, _⟩ => ⟨S32x1, .f32⟩
  | .local _ .vmem, ⟨43, _⟩ => ⟨S1x1, .f32⟩
  | .local _ .vmem, ⟨44, _⟩ => ⟨S512x1, .f32⟩
  | .local _ .vmem, ⟨45, _⟩ => ⟨S512x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14_0 : Ref sig .tc := ⟨.hbm, 38, rfl⟩
abbrev main_v14_1 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_4 : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v46 : Ref sig .tc := ⟨.hbm, 78, rfl⟩
abbrev main_c_7 : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_10 : Ref sig .tc := ⟨.hbm, 98, rfl⟩
abbrev main_v63 : Ref sig .tc := ⟨.hbm, 99, rfl⟩
abbrev main_v64 : Ref sig .tc := ⟨.hbm, 100, rfl⟩
abbrev main_c_11 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_12 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x80 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![150], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x80 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x80 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x80 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x80 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S80x50 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x50 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S80x50 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x50 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x50 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x460 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S460x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  concatenates_S100000x100_S50000x100_S150000x100_d0 : Shape.Concatenates [S100000x100, S50000x100] S150000x100 0
  bcast_S1500000_S1500000x1_0 : S1500000.BroadcastsInDim S1500000x1 (![0] : Fin 1 → Fin S1500000x1.rank)
  bcast_S_S1500000 : S_.BroadcastsInDim S1500000 (![] : Fin 0 → Fin S1500000.rank)
  bcast_S1500000x1_S1500000x100_0_1 : S1500000x1.BroadcastsInDim S1500000x100 (![0, 1] : Fin 2 → Fin S1500000x100.rank)
  bcast_S_S150000x100 : S_.BroadcastsInDim S150000x100 (![] : Fin 0 → Fin S150000x100.rank)
  inb_S1000x100_S1000x100_0_0 : ∀ a, (![0, 0] : Fin 2 → Nat) a + S1000x100.size a ≤ S1000x100.size a
  h_S1000x100 : 0 < S1000x100.numel
  shapeCasts_S1000x100_S1000x100 : S1000x100.ShapeCasts S1000x100
  shapeCasts_S80_S1x80 : S80.ShapeCasts S1x80
  bitsLt_bf16_f32 : FTy.bits .bf16 < FTy.bits .f32
  inb_S100x80_S100x80_0_0 : ∀ a, (![0, 0] : Fin 2 → Nat) a + S100x80.size a ≤ S100x80.size a
  h_S100x80 : 0 < S100x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S1000x80 : S1x80.Broadcasts S1000x80
  inb_S1000x80_S1000x80_0_0 : ∀ a, (![0, 0] : Fin 2 → Nat) a + S1000x80.size a ≤ S1000x80.size a
  h_S1000x80 : 0 < S1000x80.numel
  concatenates_S150000x100_S150000x80_S150000x180_d1 : Shape.Concatenates [S150000x100, S150000x80] S150000x180 1
  bcast_S1500000x1_S1500000x80_0_1 : S1500000x1.BroadcastsInDim S1500000x80 (![0, 1] : Fin 2 → Fin S1500000x80.rank)
  bcast_S_S150000x80 : S_.BroadcastsInDim S150000x80 (![] : Fin 0 → Fin S150000x80.rank)
  shapeCasts_S1000x80_S1000x80 : S1000x80.ShapeCasts S1000x80
  shapeCasts_S50_S1x50 : S50.ShapeCasts S1x50
  inb_S80x50_S80x50_0_0 : ∀ a, (![0, 0] : Fin 2 → Nat) a + S80x50.size a ≤ S80x50.size a
  h_S80x50 : 0 < S80x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S1000x50 : S1x50.Broadcasts S1000x50
  inb_S1000x50_S1000x50_0_0 : ∀ a, (![0, 0] : Fin 2 → Nat) a + S1000x50.size a ≤ S1000x50.size a
  h_S1000x50 : 0 < S1000x50.numel
  concatenates_S150000x180_S150000x50_S150000x230_d1 : Shape.Concatenates [S150000x180, S150000x50] S150000x230 1
  bcast_S_S4096 : S_.BroadcastsInDim S4096 (![] : Fin 0 → Fin S4096.rank)
  bcast_S4096_S4096x1_0 : S4096.BroadcastsInDim S4096x1 (![0] : Fin 1 → Fin S4096x1.rank)
  concatenates_S4096x230_S4096x230_S4096x460_d1 : Shape.Concatenates [S4096x230, S4096x230] S4096x460 1
  shapeCasts_S64_S1x64 : S64.ShapeCasts S1x64
  shapeCasts_S32_S1x32 : S32.ShapeCasts S1x32
  shapeCasts_S1_S1x1 : S1.ShapeCasts S1x1
  inb_S512x460_S512x460_0_0 : ∀ a, (![0, 0] : Fin 2 → Nat) a + S512x460.size a ≤ S512x460.size a
  h_S512x460 : 0 < S512x460.numel
  shapeCasts_S512x460_S512x460 : S512x460.ShapeCasts S512x460
  inb_S460x64_S460x64_0_0 : ∀ a, (![0, 0] : Fin 2 → Nat) a + S460x64.size a ≤ S460x64.size a
  h_S460x64 : 0 < S460x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  gather_S150000x100_S1500000x1_S1500000x100_1_0_n_n_0_1_1100_wf : GatherDims.WF S150000x100 S1500000x1 S1500000x100 [1] [0] [] [0] [] 1 ![1, 100]
  scatter_S150000x100_S1500000x1_S1500000x100_1_0_0_1_wf : ScatterDims.WF S150000x100 S1500000x1 S1500000x100 [1] [0] [0] 1
  dot_S1000x100_S100x80_S1000x80_1_0_0_1_n_n_wf : DotDims.WF S1000x100 S100x80 S1000x80 [1] [0] [0] [1] [] []
  gather_S150000x80_S1500000x1_S1500000x80_1_0_n_n_0_1_180_wf : GatherDims.WF S150000x80 S1500000x1 S1500000x80 [1] [0] [] [0] [] 1 ![1, 80]
  scatter_S150000x80_S1500000x1_S1500000x80_1_0_0_1_wf : ScatterDims.WF S150000x80 S1500000x1 S1500000x80 [1] [0] [0] 1
  dot_S1000x80_S80x50_S1000x50_1_0_0_1_n_n_wf : DotDims.WF S1000x80 S80x50 S1000x50 [1] [0] [0] [1] [] []
  gather_S150000x230_S4096x1_S4096x230_1_0_n_n_0_1_1230_wf : GatherDims.WF S150000x230 S4096x1 S4096x230 [1] [0] [] [0] [] 1 ![1, 230]
  dot_S512x460_S460x64_S512x64_1_0_0_1_n_n_wf : DotDims.WF S512x460 S460x64 S512x64 [1] [0] [0] [1] [] []
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x100.size a ≤ S150000x100.size a
  hwx0_0 : ∀ i : grid0.Coords, EltTy.bits .f32 = 32 ∨ (Rect.block (s := S150000x100) S1000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x100.size a ≤ S150000x100.size a
  hwx0_1 : ∀ i : grid0.Coords, EltTy.bits .f32 = 32 ∨ (Rect.block (s := S150000x100) S1000x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x100.size a ≤ S150000x100.size a
  hwx0_2 : ∀ i : grid0.Coords, EltTy.bits .f32 = 32 ∨ (Rect.block (s := S150000x100) S1000x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x100.size a ≤ S150000x100.size a
  hwx0_3 : ∀ i : grid0.Coords, EltTy.bits .f32 = 32 ∨ (Rect.block (s := S150000x100) S1000x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x100.size a ≤ S150000x100.size a
  hwx1_0 : ∀ i : grid1.Coords, EltTy.bits .f32 = 32 ∨ (Rect.block (s := S150000x100) S1000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x100.size a ≤ S150000x100.size a
  hwx1_1 : ∀ i : grid1.Coords, EltTy.bits .f32 = 32 ∨ (Rect.block (s := S150000x100) S1000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x80.size a ≤ S100x80.size a
  hwx1_2 : ∀ i : grid1.Coords, EltTy.bits .f32 = 32 ∨ (Rect.block (s := S100x80) S100x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x80.size a ≤ S100x80.size a
  hwx1_4 : ∀ i : grid1.Coords, EltTy.bits .f32 = 32 ∨ (Rect.block (s := S100x80) S100x80.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x80.size a ≤ S1x80.size a
  hwx1_5 : ∀ i : grid1.Coords, EltTy.bits .f32 = 32 ∨ (Rect.block (s := S1x80) S1x80.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x80.size a ≤ S150000x80.size a
  hwx1_6 : ∀ i : grid1.Coords, EltTy.bits .f32 = 32 ∨ (Rect.block (s := S150000x80) S1000x80.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x80.size a ≤ S150000x80.size a
  hwx2_0 : ∀ i : grid2.Coords, EltTy.bits .f32 = 32 ∨ (Rect.block (s := S150000x80) S1000x80.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x80.size a ≤ S150000x80.size a
  hwx2_1 : ∀ i : grid2.Coords, EltTy.bits .f32 = 32 ∨ (Rect.block (s := S150000x80) S1000x80.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x80.size a ≤ S150000x80.size a
  hwx2_2 : ∀ i : grid2.Coords, EltTy.bits .f32 = 32 ∨ (Rect.block (s := S150000x80) S1000x80.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x80.size a ≤ S150000x80.size a
  hwx2_3 : ∀ i : grid2.Coords, EltTy.bits .f32 = 32 ∨ (Rect.block (s := S150000x80) S1000x80.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x80.size a ≤ S150000x80.size a
  hwx3_0 : ∀ i : grid3.Coords, EltTy.bits .f32 = 32 ∨ (Rect.block (s := S150000x80) S1000x80.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x80.size a ≤ S150000x80.size a
  hwx3_1 : ∀ i : grid3.Coords, EltTy.bits .f32 = 32 ∨ (Rect.block (s := S150000x80) S1000x80.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S80x50.size a ≤ S80x50.size a
  hwx3_2 : ∀ i : grid3.Coords, EltTy.bits .f32 = 32 ∨ (Rect.block (s := S80x50) S80x50.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x50.size a ≤ S1x50.size a
  hwx3_3 : ∀ i : grid3.Coords, EltTy.bits .f32 = 32 ∨ (Rect.block (s := S1x50) S1x50.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S80x50.size a ≤ S80x50.size a
  hwx3_4 : ∀ i : grid3.Coords, EltTy.bits .f32 = 32 ∨ (Rect.block (s := S80x50) S80x50.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x50.size a ≤ S1x50.size a
  hwx3_5 : ∀ i : grid3.Coords, EltTy.bits .f32 = 32 ∨ (Rect.block (s := S1x50) S1x50.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x50.size a ≤ S150000x50.size a
  hwx3_6 : ∀ i : grid3.Coords, EltTy.bits .f32 = 32 ∨ (Rect.block (s := S150000x50) S1000x50.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x460.size a ≤ S4096x460.size a
  hwx4_0 : ∀ i : grid4.Coords, EltTy.bits .f32 = 32 ∨ (Rect.block (s := S4096x460) S512x460.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S460x64.size a ≤ S460x64.size a
  hwx4_1 : ∀ i : grid4.Coords, EltTy.bits .f32 = 32 ∨ (Rect.block (s := S460x64) S460x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x1.size a ≤ S32x1.size a
  hwx4_5 : ∀ i : grid4.Coords, EltTy.bits .f32 = 32 ∨ (Rect.block (s := S32x1) S32x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x1.size a ≤ S4096x1.size a
  hwx4_7 : ∀ i : grid4.Coords, EltTy.bits .f32 = 32 ∨ (Rect.block (s := S4096x1) S512x1.size (cc4_transform_7 i) (hinb4_7 i)).WholeWords (EltTy.packing .f32)

variable [Facts₀]

def gather_S150000x100_S1500000x1_S1500000x100_1_0_n_n_0_1_1100 : GatherDims S150000x100 S1500000x1 S1500000x100 where
  offsetDims := [1]
  collapsedSliceDims := [0]
  operandBatchingDims := []
  startIndicesBatchingDims := []
  startIndexMap := [0]
  indexVectorDim := 1
  sliceSizes := ![1, 100]
  wf := gather_S150000x100_S1500000x1_S1500000x100_1_0_n_n_0_1_1100_wf
def scatter_S150000x100_S1500000x1_S1500000x100_1_0_0_1 : ScatterDims S150000x100 S1500000x1 S1500000x100 where
  updateWindowDims := [1]
  insertedWindowDims := [0]
  scatterDimsToOperandDims := [0]
  indexVectorDim := 1
  wf := scatter_S150000x100_S1500000x1_S1500000x100_1_0_0_1_wf
def dot_S1000x100_S100x80_S1000x80_1_0_0_1_n_n : DotDims S1000x100 S100x80 S1000x80 where
  lhsContracting := [1]
  rhsContracting := [0]
  lhsNonContracting := [0]
  rhsNonContracting := [1]
  lhsBatch := []
  rhsBatch := []
  wf := dot_S1000x100_S100x80_S1000x80_1_0_0_1_n_n_wf
def gather_S150000x80_S1500000x1_S1500000x80_1_0_n_n_0_1_180 : GatherDims S150000x80 S1500000x1 S1500000x80 where
  offsetDims := [1]
  collapsedSliceDims := [0]
  operandBatchingDims := []
  startIndicesBatchingDims := []
  startIndexMap := [0]
  indexVectorDim := 1
  sliceSizes := ![1, 80]
  wf := gather_S150000x80_S1500000x1_S1500000x80_1_0_n_n_0_1_180_wf
def scatter_S150000x80_S1500000x1_S1500000x80_1_0_0_1 : ScatterDims S150000x80 S1500000x1 S1500000x80 where
  updateWindowDims := [1]
  insertedWindowDims := [0]
  scatterDimsToOperandDims := [0]
  indexVectorDim := 1
  wf := scatter_S150000x80_S1500000x1_S1500000x80_1_0_0_1_wf
def dot_S1000x80_S80x50_S1000x50_1_0_0_1_n_n : DotDims S1000x80 S80x50 S1000x50 where
  lhsContracting := [1]
  rhsContracting := [0]
  lhsNonContracting := [0]
  rhsNonContracting := [1]
  lhsBatch := []
  rhsBatch := []
  wf := dot_S1000x80_S80x50_S1000x50_1_0_0_1_n_n_wf
def gather_S150000x230_S4096x1_S4096x230_1_0_n_n_0_1_1230 : GatherDims S150000x230 S4096x1 S4096x230 where
  offsetDims := [1]
  collapsedSliceDims := [0]
  operandBatchingDims := []
  startIndicesBatchingDims := []
  startIndexMap := [0]
  indexVectorDim := 1
  sliceSizes := ![1, 230]
  wf := gather_S150000x230_S4096x1_S4096x230_1_0_n_n_0_1_1230_wf
def dot_S512x460_S460x64_S512x64_1_0_0_1_n_n : DotDims S512x460 S460x64 S512x64 where
  lhsContracting := [1]
  rhsContracting := [0]
  lhsNonContracting := [0]
  rhsNonContracting := [1]
  lhsBatch := []
  rhsBatch := []
  wf := dot_S512x460_S460x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v13) S1000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S1000x100.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S1000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14_1) S1000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S100x80.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S100x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x80.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1000x80.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S1000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1000x80.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S1000x80.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45_1) S1000x80.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45_1) S1000x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1000x80.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S80x50.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x50.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S80x50.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S1x50.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1000x50.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v77) S512x460.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S460x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S32x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v81) S512x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S4096 : Shape := ⟨1, ![4096]⟩
abbrev S1500000 : Shape := ⟨1, ![1500000]⟩
abbrev S100000x100 : Shape := ⟨2, ![100000, 100]⟩
abbrev S50000x100 : Shape := ⟨2, ![50000, 100]⟩
abbrev S100x80 : Shape := ⟨2, ![100, 80]⟩
abbrev S80 : Shape := ⟨1, ![80]⟩
abbrev S80x50 : Shape := ⟨2, ![80, 50]⟩
abbrev S50 : Shape := ⟨1, ![50]⟩
abbrev S460x64 : Shape := ⟨2, ![460, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S150000x100 : Shape := ⟨2, ![150000, 100]⟩
abbrev S1500000x1 : Shape := ⟨2, ![1500000, 1]⟩
abbrev S_ : Shape := ⟨0, ![]⟩
abbrev S1500000x100 : Shape := ⟨2, ![1500000, 100]⟩
abbrev S150000x80 : Shape := ⟨2, ![150000, 80]⟩
abbrev S1x80 : Shape := ⟨2, ![1, 80]⟩
abbrev S150000x180 : Shape := ⟨2, ![150000, 180]⟩
abbrev S1500000x80 : Shape := ⟨2, ![1500000, 80]⟩
abbrev S150000x50 : Shape := ⟨2, ![150000, 50]⟩
abbrev S1x50 : Shape := ⟨2, ![1, 50]⟩
abbrev S150000x230 : Shape := ⟨2, ![150000, 230]⟩
abbrev S4096x1 : Shape := ⟨2, ![4096, 1]⟩
abbrev S4096x230 : Shape := ⟨2, ![4096, 230]⟩
abbrev S4096x460 : Shape := ⟨2, ![4096, 460]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S4096, .i32⟩
  | 1 => ⟨S4096, .i32⟩
  | 2 => ⟨S1500000, .i32⟩
  | 3 => ⟨S1500000, .i32⟩
  | 4 => ⟨S1500000, .f32⟩
  | 5 => ⟨S100000x100, .f32⟩
  | 6 => ⟨S50000x100, .f32⟩
  | 7 => ⟨S100x80, .f32⟩
  | 8 => ⟨S80, .f32⟩
  | 9 => ⟨S100x80, .f32⟩
  | 10 => ⟨S80, .f32⟩
  | 11 => ⟨S80x50, .f32⟩
  | 12 => ⟨S50, .f32⟩
  | 13 => ⟨S80x50, .f32⟩
  | 14 => ⟨S50, .f32⟩
  | 15 => ⟨S460x64, .f32⟩
  | 16 => ⟨S64, .f32⟩
  | 17 => ⟨S64x32, .f32⟩
  | 18 => ⟨S32, .f32⟩
  | 19 => ⟨S32x1, .f32⟩
  | 20 => ⟨S1, .f32⟩
  | 21 => ⟨S150000x100, .f32⟩
  | 22 => ⟨S1500000x1, .f32⟩
  | 23 => ⟨S_, .i32⟩
  | 24 => ⟨S1500000, .i32⟩
  | 25 => ⟨S1500000, .i1⟩
  | 26 => ⟨S_, .i32⟩
  | 27 => ⟨S1500000, .i32⟩
  | 28 => ⟨S1500000, .i32⟩
  | 29 => ⟨S1500000, .i32⟩
  | 30 => ⟨S1500000x1, .i32⟩
  | 31 => ⟨S1500000x100, .f32⟩
  | 32 => ⟨S1500000x100, .f32⟩
  | 33 => ⟨S1500000x100, .f32⟩
  | 34 => ⟨S_, .f32⟩
  | 35 => ⟨S150000x100, .f32⟩
  | 36 => ⟨S1500000x1, .i32⟩
  | 37 => ⟨S150000x100, .f32⟩
  | 38 => ⟨S150000x100, .f32⟩
  | 39 => ⟨S150000x100, .f32⟩
  | 40 => ⟨S150000x80, .f32⟩
  | 41 => ⟨S1x80, .f32⟩
  | 42 => ⟨S150000x80, .f32⟩
  | 43 => ⟨S150000x80, .f32⟩
  | 44 => ⟨S1500000x1, .f32⟩
  | 45 => ⟨S_, .i32⟩
  | 46 => ⟨S1500000, .i32⟩
  | 47 => ⟨S1500000, .i1⟩
  | 48 => ⟨S_, .i32⟩
  | 49 => ⟨S1500000, .i32⟩
  | 50 => ⟨S1500000, .i32⟩
  | 51 => ⟨S1500000, .i32⟩
  | 52 => ⟨S1500000x1, .i32⟩
  | 53 => ⟨S1500000x100, .f32⟩
  | 54 => ⟨S1500000x100, .f32⟩
  | 55 => ⟨S1500000x100, .f32⟩
  | 56 => ⟨S_, .f32⟩
  | 57 => ⟨S150000x100, .f32⟩
  | 58 => ⟨S1500000x1, .i32⟩
  | 59 => ⟨S150000x100, .f32⟩
  | 60 => ⟨S150000x80, .f32⟩
  | 61 => ⟨S1x80, .f32⟩
  | 62 => ⟨S150000x80, .f32⟩
  | 63 => ⟨S150000x80, .f32⟩
  | 64 => ⟨S150000x80, .f32⟩
  | 65 => ⟨S_, .f32⟩
  | 66 => ⟨S150000x80, .f32⟩
  | 67 => ⟨S150000x80, .f32⟩
  | 68 => ⟨S150000x180, .f32⟩
  | 69 => ⟨S1500000x1, .f32⟩
  | 70 => ⟨S_, .i32⟩
  | 71 => ⟨S1500000, .i32⟩
  | 72 => ⟨S1500000, .i1⟩
  | 73 => ⟨S_, .i32⟩
  | 74 => ⟨S1500000, .i32⟩
  | 75 => ⟨S1500000, .i32⟩
  | 76 => ⟨S1500000, .i32⟩
  | 77 => ⟨S1500000x1, .i32⟩
  | 78 => ⟨S1500000x80, .f32⟩
  | 79 => ⟨S1500000x80, .f32⟩
  | 80 => ⟨S1500000x80, .f32⟩
  | 81 => ⟨S_, .f32⟩
  | 82 => ⟨S150000x80, .f32⟩
  | 83 => ⟨S1500000x1, .i32⟩
  | 84 => ⟨S150000x80, .f32⟩
  | 85 => ⟨S150000x80, .f32⟩
  | 86 => ⟨S150000x80, .f32⟩
  | 87 => ⟨S150000x50, .f32⟩
  | 88 => ⟨S1x50, .f32⟩
  | 89 => ⟨S150000x50, .f32⟩
  | 90 => ⟨S150000x50, .f32⟩
  | 91 => ⟨S1500000x1, .f32⟩
  | 92 => ⟨S_, .i32⟩
  | 93 => ⟨S1500000, .i32⟩
  | 94 => ⟨S1500000, .i1⟩
  | 95 => ⟨S_, .i32⟩
  | 96 => ⟨S1500000, .i32⟩
  | 97 => ⟨S1500000, .i32⟩
  | 98 => ⟨S1500000, .i32⟩
  | 99 => ⟨S1500000x1, .i32⟩
  | 100 => ⟨S1500000x80, .f32⟩
  | 101 => ⟨S1500000x80, .f32⟩
  | 102 => ⟨S1500000x80, .f32⟩
  | 103 => ⟨S_, .f32⟩
  | 104 => ⟨S150000x80, .f32⟩
  | 105 => ⟨S1500000x1, .i32⟩
  | 106 => ⟨S150000x80, .f32⟩
  | 107 => ⟨S150000x50, .f32⟩
  | 108 => ⟨S1x50, .f32⟩
  | 109 => ⟨S150000x50, .f32⟩
  | 110 => ⟨S150000x50, .f32⟩
  | 111 => ⟨S150000x50, .f32⟩
  | 112 => ⟨S_, .f32⟩
  | 113 => ⟨S150000x50, .f32⟩
  | 114 => ⟨S150000x50, .f32⟩
  | 115 => ⟨S150000x230, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x230, .f32⟩
  | 125 => ⟨S_, .i32⟩
  | 126 => ⟨S4096, .i32⟩
  | 127 => ⟨S4096, .i1⟩
  | _ => ⟨S4096, .i32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x230, .f32⟩
  | 6 => ⟨S4096x460, .f32⟩
  | 7 => ⟨S4096x64, .f32⟩
  | 8 => ⟨S1x64, .f32⟩
  | 9 => ⟨S4096x64, .f32⟩
  | 10 => ⟨S4096x64, .f32⟩
  | 11 => ⟨S_, .f32⟩
  | 12 => ⟨S4096x64, .f32⟩
  | 13 => ⟨S4096x64, .f32⟩
  | 14 => ⟨S4096x32, .f32⟩
  | 15 => ⟨S1x32, .f32⟩
  | 16 => ⟨S4096x32, .f32⟩
  | 17 => ⟨S4096x32, .f32⟩
  | 18 => ⟨S4096x1, .f32⟩
  | 19 => ⟨S1x1, .f32⟩
  | 20 => ⟨S4096x1, .f32⟩
  | 21 => ⟨S4096x1, .f32⟩
  | 22 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call0_cst : Ref sig .tc := ⟨.hbm, 65, rfl⟩
abbrev main_call0_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_4 : Ref sig .tc := ⟨.hbm, 70, rfl⟩
abbrev main_v41 : Ref sig .tc := ⟨.hbm, 71, rfl⟩
abbrev main_v42 : Ref sig .tc := ⟨.hbm, 72, rfl⟩
abbrev main_c_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_7 : Ref sig .tc := ⟨.hbm, 92, rfl⟩
abbrev main_v60 : Ref sig .tc := ⟨.hbm, 93, rfl⟩
abbrev main_v61 : Ref sig .tc := ⟨.hbm, 94, rfl⟩
abbrev main_c_8 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_9 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call1_cst : Ref sig .tc := ⟨.hbm, 112, rfl⟩
abbrev main_call1_v0 : Ref sig .tc := ⟨.hbm, 113, rfl⟩
abbrev main_v77 : Ref sig .tc := ⟨.hbm, 114, rfl⟩
abbrev main_v78 : Ref sig .tc := ⟨.hbm, 115, rfl⟩
abbrev main_c_10 : Ref sig .tc := ⟨.hbm, 116, rfl⟩
abbrev main_v79 : Ref sig .tc := ⟨.hbm, 117, rfl⟩
abbrev main_v80 : Ref sig .tc := ⟨.hbm, 118, rfl⟩
abbrev main_c_11 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_12 : Ref sig .tc := ⟨.hbm, 125, rfl⟩
abbrev main_v86 : Ref sig .tc := ⟨.hbm, 126, rfl⟩
abbrev main_v87 : Ref sig .tc := ⟨.hbm, 127, rfl⟩
abbrev main_c_13 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call2_cst : Ref sig .tc := ⟨.hbm, 139, rfl⟩
abbrev main_call2_v0 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  concatenates_S100000x100_S50000x100_S150000x100_d0 : Shape.Concatenates [S100000x100, S50000x100] S150000x100 0
  bcast_S1500000_S1500000x1_0 : S1500000.BroadcastsInDim S1500000x1 (![0] : Fin 1 → Fin S1500000x1.rank)
  bcast_S_S1500000 : S_.BroadcastsInDim S1500000 (![] : Fin 0 → Fin S1500000.rank)
  bcast_S1500000x1_S1500000x100_0_1 : S1500000x1.BroadcastsInDim S1500000x100 (![0, 1] : Fin 2 → Fin S1500000x100.rank)
  bcast_S_S150000x100 : S_.BroadcastsInDim S150000x100 (![] : Fin 0 → Fin S150000x100.rank)
  bcast_S80_S1x80_1 : S80.BroadcastsInDim S1x80 (![1] : Fin 1 → Fin S1x80.rank)
  bcast_S1x80_S150000x80_0_1 : S1x80.BroadcastsInDim S150000x80 (![0, 1] : Fin 2 → Fin S150000x80.rank)
  bcast_S_S150000x80 : S_.BroadcastsInDim S150000x80 (![] : Fin 0 → Fin S150000x80.rank)
  concatenates_S150000x100_S150000x80_S150000x180_d1 : Shape.Concatenates [S150000x100, S150000x80] S150000x180 1
  bcast_S1500000x1_S1500000x80_0_1 : S1500000x1.BroadcastsInDim S1500000x80 (![0, 1] : Fin 2 → Fin S1500000x80.rank)
  bcast_S50_S1x50_1 : S50.BroadcastsInDim S1x50 (![1] : Fin 1 → Fin S1x50.rank)
  bcast_S1x50_S150000x50_0_1 : S1x50.BroadcastsInDim S150000x50 (![0, 1] : Fin 2 → Fin S150000x50.rank)
  bcast_S_S150000x50 : S_.BroadcastsInDim S150000x50 (![] : Fin 0 → Fin S150000x50.rank)
  concatenates_S150000x180_S150000x50_S150000x230_d1 : Shape.Concatenates [S150000x180, S150000x50] S150000x230 1
  bcast_S_S4096 : S_.BroadcastsInDim S4096 (![] : Fin 0 → Fin S4096.rank)
  bcast_S4096_S4096x1_0 : S4096.BroadcastsInDim S4096x1 (![0] : Fin 1 → Fin S4096x1.rank)
  concatenates_S4096x230_S4096x230_S4096x460_d1 : Shape.Concatenates [S4096x230, S4096x230] S4096x460 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  gather_S150000x100_S1500000x1_S1500000x100_1_0_n_n_0_1_1100_wf : GatherDims.WF S150000x100 S1500000x1 S1500000x100 [1] [0] [] [0] [] 1 ![1, 100]
  scatter_S150000x100_S1500000x1_S1500000x100_1_0_0_1_wf : ScatterDims.WF S150000x100 S1500000x1 S1500000x100 [1] [0] [0] 1
  dot_S150000x100_S100x80_S150000x80_1_0_0_1_n_n_wf : DotDims.WF S150000x100 S100x80 S150000x80 [1] [0] [0] [1] [] []
  gather_S150000x80_S1500000x1_S1500000x80_1_0_n_n_0_1_180_wf : GatherDims.WF S150000x80 S1500000x1 S1500000x80 [1] [0] [] [0] [] 1 ![1, 80]
  scatter_S150000x80_S1500000x1_S1500000x80_1_0_0_1_wf : ScatterDims.WF S150000x80 S1500000x1 S1500000x80 [1] [0] [0] 1
  dot_S150000x80_S80x50_S150000x50_1_0_0_1_n_n_wf : DotDims.WF S150000x80 S80x50 S150000x50 [1] [0] [0] [1] [] []
  gather_S150000x230_S4096x1_S4096x230_1_0_n_n_0_1_1230_wf : GatherDims.WF S150000x230 S4096x1 S4096x230 [1] [0] [] [0] [] 1 ![1, 230]
  dot_S4096x460_S460x64_S4096x64_1_0_0_1_n_n_wf : DotDims.WF S4096x460 S460x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []

variable [Facts₀]

def gather_S150000x100_S1500000x1_S1500000x100_1_0_n_n_0_1_1100 : GatherDims S150000x100 S1500000x1 S1500000x100 where
  offsetDims := [1]
  collapsedSliceDims := [0]
  operandBatchingDims := []
  startIndicesBatchingDims := []
  startIndexMap := [0]
  indexVectorDim := 1
  sliceSizes := ![1, 100]
  wf := gather_S150000x100_S1500000x1_S1500000x100_1_0_n_n_0_1_1100_wf
def scatter_S150000x100_S1500000x1_S1500000x100_1_0_0_1 : ScatterDims S150000x100 S1500000x1 S1500000x100 where
  updateWindowDims := [1]
  insertedWindowDims := [0]
  scatterDimsToOperandDims := [0]
  indexVectorDim := 1
  wf := scatter_S150000x100_S1500000x1_S1500000x100_1_0_0_1_wf
def dot_S150000x100_S100x80_S150000x80_1_0_0_1_n_n : DotDims S150000x100 S100x80 S150000x80 where
  lhsContracting := [1]
  rhsContracting := [0]
  lhsNonContracting := [0]
  rhsNonContracting := [1]
  lhsBatch := []
  rhsBatch := []
  wf := dot_S150000x100_S100x80_S150000x80_1_0_0_1_n_n_wf
def gather_S150000x80_S1500000x1_S1500000x80_1_0_n_n_0_1_180 : GatherDims S150000x80 S1500000x1 S1500000x80 where
  offsetDims := [1]
  collapsedSliceDims := [0]
  operandBatchingDims := []
  startIndicesBatchingDims := []
  startIndexMap := [0]
  indexVectorDim := 1
  sliceSizes := ![1, 80]
  wf := gather_S150000x80_S1500000x1_S1500000x80_1_0_n_n_0_1_180_wf
def scatter_S150000x80_S1500000x1_S1500000x80_1_0_0_1 : ScatterDims S150000x80 S1500000x1 S1500000x80 where
  updateWindowDims := [1]
  insertedWindowDims := [0]
  scatterDimsToOperandDims := [0]
  indexVectorDim := 1
  wf := scatter_S150000x80_S1500000x1_S1500000x80_1_0_0_1_wf
def dot_S150000x80_S80x50_S150000x50_1_0_0_1_n_n : DotDims S150000x80 S80x50 S150000x50 where
  lhsContracting := [1]
  rhsContracting := [0]
  lhsNonContracting := [0]
  rhsNonContracting := [1]
  lhsBatch := []
  rhsBatch := []
  wf := dot_S150000x80_S80x50_S150000x50_1_0_0_1_n_n_wf
def gather_S150000x230_S4096x1_S4096x230_1_0_n_n_0_1_1230 : GatherDims S150000x230 S4096x1 S4096x230 where
  offsetDims := [1]
  collapsedSliceDims := [0]
  operandBatchingDims := []
  startIndicesBatchingDims := []
  startIndexMap := [0]
  indexVectorDim := 1
  sliceSizes := ![1, 230]
  wf := gather_S150000x230_S4096x1_S4096x230_1_0_n_n_0_1_1230_wf
def dot_S4096x460_S460x64_S4096x64_1_0_0_1_n_n : DotDims S4096x460 S460x64 S4096x64 where
  lhsContracting := [1]
  rhsContracting := [0]
  lhsNonContracting := [0]
  rhsNonContracting := [1]
  lhsBatch := []
  rhsBatch := []
  wf := dot_S4096x460_S460x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.RefOps.lean ====
/-
  The reference computation as a list of array operations, and what running the list leaves in each array.

  The reference is a straight line of 130 operations, each writing one array from earlier ones. Run from any launch
  memory it ends with every array holding the fold of the operations' results over the launch contents. An array no
  operation writes — every argument — ends as it was launched. The line is also cut into ten consecutive pieces, one
  per stage of the network, so that the fold can be read piece by piece: the fold over a concatenation is the fold
  over the second part of the fold over the first.
-/
import proofs.«133995_j16355235463443_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The reference's 130 operations, in order (the three positive-part steps stand in place as three operations each). -/
abbrev ops : List (HloOp τ sig (Elt F)) :=
  [ binary main_arg5 main_arg6 main_v0 ((fun a b => concatenate S150000x100 0 [⟨S100000x100, a⟩, ⟨S50000x100, b⟩] concatenates_S100000x100_S50000x100_S150000x100_d0) : (⟨S100000x100, .f32⟩ : BufTy).Contents (Elt F) → (⟨S50000x100, .f32⟩ : BufTy).Contents (Elt F) → (⟨S150000x100, .f32⟩ : BufTy).Contents (Elt F)),
    unary main_arg4 main_v1 (broadcastInDim S1500000x1 ![0] bcast_S1500000_S1500000x1_0 : (⟨S1500000, .f32⟩ : BufTy).Contents (Elt F) → (⟨S1500000x1, .f32⟩ : BufTy).Contents (Elt F)),
    nullary main_c (constantI S_ 32 0#32),
    unary main_c main_v2 (broadcastInDim S1500000 ![] bcast_S_S1500000 : (⟨S_, .i32⟩ : BufTy).Contents (Elt F) → (⟨S1500000, .i32⟩ : BufTy).Contents (Elt F)),
    binary main_arg3 main_v2 main_v3 (cmpi .slt : (⟨S1500000, .i32⟩ : BufTy).Contents (Elt F) → (⟨S1500000, .i32⟩ : BufTy).Contents (Elt F) → (⟨S1500000, .i1⟩ : BufTy).Contents (Elt F)),
    nullary main_c_0 (constantI S_ 32 150000#32),
    unary main_c_0 main_v4 (broadcastInDim S1500000 ![] bcast_S_S1500000 : (⟨S_, .i32⟩ : BufTy).Contents (Elt F) → (⟨S1500000, .i32⟩ : BufTy).Contents (Elt F)),
    binary main_arg3 main_v4 main_v5 (addi : (⟨S1500000, .i32⟩ : BufTy).Contents (Elt F) → (⟨S1500000, .i32⟩ : BufTy).Contents (Elt F) → (⟨S1500000, .i32⟩ : BufTy).Contents (Elt F)),
    ternary main_v3 main_v5 main_arg3 main_v6 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v6 main_v7 (broadcastInDim S1500000x1 ![0] bcast_S1500000_S1500000x1_0 : (⟨S1500000, .i32⟩ : BufTy).Contents (Elt F) → (⟨S1500000x1, .i32⟩ : BufTy).Contents (Elt F)),
    binary main_v0 main_v7 main_v8 ((fun x i => Host.gather gather_S150000x100_S1500000x1_S1500000x100_1_0_n_n_0_1_1100 x i) : (⟨S150000x100, .f32⟩ : BufTy).Contents (Elt F) → (⟨S1500000x1, .i32⟩ : BufTy).Contents (Elt F) → (⟨S1500000x100, .f32⟩ : BufTy).Contents (Elt F)),
    unary main_v1 main_v9 (broadcastInDim S1500000x100 ![0, 1] bcast_S1500000x1_S1500000x100_0_1 : (⟨S1500000x1, .f32⟩ : BufTy).Contents (Elt F) → (⟨S1500000x100, .f32⟩ : BufTy).Contents (Elt F)),
    binary main_v9 main_v8 main_v10 (mulf : (⟨S1500000x100, .f32⟩ : BufTy).Contents (Elt F) → (⟨S1500000x100, .f32⟩ : BufTy).Contents (Elt F) → (⟨S1500000x100, .f32⟩ : BufTy).Contents (Elt F)),
    nullary main_cst (constant S_ .f32 0x00000000#32),
    unary main_cst main_v11 (broadcastInDim S150000x100 ![] bcast_S_S150000x100 : (⟨S_, .f32⟩ : BufTy).Contents (Elt F) → (⟨S150000x100, .f32⟩ : BufTy).Contents (Elt F)),
    unary main_arg2 main_v12 (broadcastInDim S1500000x1 ![0] bcast_S1500000_S1500000x1_0 : (⟨S1500000, .i32⟩ : BufTy).Contents (Elt F) → (⟨S1500000x1, .i32⟩ : BufTy).Contents (Elt F)),
    ternary main_v11 main_v12 main_v10 main_v13 ((fun x i u => Host.scatterAdd scatter_S150000x100_S1500000x1_S1500000x100_1_0_0_1 x i u) : (⟨S150000x100, .f32⟩ : BufTy).Contents (Elt F) → (⟨S1500000x1, .i32⟩ : BufTy).Contents (Elt F) → (⟨S1500000x100, .f32⟩ : BufTy).Contents (Elt F) → (⟨S150000x100, .f32⟩ : BufTy).Contents (Elt F)),
    binary main_v13 main_v0 main_v14 (mulf : (⟨S150000x100, .f32⟩ : BufTy).Contents (Elt F) → (⟨S150000x100, .f32⟩ : BufTy).Contents (Elt F) → (⟨S150000x100, .f32⟩ : BufTy).Contents (Elt F)),
    binary main_v13 main_v0 main_v15 (addf : (⟨S150000x100, .f32⟩ : BufTy).Contents (Elt F) → (⟨S150000x100, .f32⟩ : BufTy).Contents (Elt F) → (⟨S150000x100, .f32⟩ : BufTy).Contents (Elt F)),
    binary main_v15 main_arg7 main_v16 ((fun l r => Host.dotGeneral dot_S150000x100_S100x80_S150000x80_1_0_0_1_n_n none l r) : (⟨S150000x100, .f32⟩ : BufTy).Contents (Elt F) → (⟨S100x80, .f32⟩ : BufTy).Contents (Elt F) → (⟨S150000x80, .f32⟩ : BufTy).Contents (Elt F)),
    unary main_arg8 main_v17 (broadcastInDim S1x80 ![1] bcast_S80_S1x80_1 : (⟨S80, .f32⟩ : BufTy).Contents (Elt F) → (⟨S1x80, .f32⟩ : BufTy).Contents (Elt F)),
    unary main_v17 main_v18 (broadcastInDim S150000x80 ![0, 1] bcast_S1x80_S150000x80_0_1 : (⟨S1x80, .f32⟩ : BufTy).Contents (Elt F) → (⟨S150000x80, .f32⟩ : BufTy).Contents (Elt F)),
    binary main_v16 main_v18 main_v19 (addf : (⟨S150000x80, .f32⟩ : BufTy).Contents (Elt F) → (⟨S150000x80, .f32⟩ : BufTy).Contents (Elt F) → (⟨S150000x80, .f32⟩ : BufTy).Contents (Elt F)),
    unary main_arg4 main_v20 (broadcastInDim S1500000x1 ![0] bcast_S1500000_S1500000x1_0 : (⟨S1500000, .f32⟩ : BufTy).Contents (Elt F) → (⟨S1500000x1, .f32⟩ : BufTy).Contents (Elt F)),
    nullary main_c_1 (constantI S_ 32 0#32),
    unary main_c_1 main_v21 (broadcastInDim S1500000 ![] bcast_S_S1500000 : (⟨S_, .i32⟩ : BufTy).Contents (Elt F) → (⟨S1500000, .i32⟩ : BufTy).Contents (Elt F)),
    binary main_arg3 main_v21 main_v22 (cmpi .slt : (⟨S1500000, .i32⟩ : BufTy).Contents (Elt F) → (⟨S1500000, .i32⟩ : BufTy).Contents (Elt F) → (⟨S1500000, .i1⟩ : BufTy).Contents (Elt F)),
    nullary main_c_2 (constantI S_ 32 150000#32),
    unary main_c_2 main_v23 (broadcastInDim S1500000 ![] bcast_S_S1500000 : (⟨S_, .i32⟩ : BufTy).Contents (Elt F) → (⟨S1500000, .i32⟩ : BufTy).Contents (Elt F)),
    binary main_arg3 main_v23 main_v24 (addi : (⟨S1500000, .i32⟩ : BufTy).Contents (Elt F) → (⟨S1500000, .i32⟩ : BufTy).Contents (Elt F) → (⟨S1500000, .i32⟩ : BufTy).Contents (Elt F)),
    ternary main_v22 main_v24 main_arg3 main_v25 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v25 main_v26 (broadcastInDim S1500000x1 ![0] bcast_S1500000_S1500000x1_0 : (⟨S1500000, .i32⟩ : BufTy).Contents (Elt F) → (⟨S1500000x1, .i32⟩ : BufTy).Contents (Elt F)),
    binary main_v14 main_v26 main_v27 ((fun x i => Host.gather gather_S150000x100_S1500000x1_S1500000x100_1_0_n_n_0_1_1100 x i) : (⟨S150000x100, .f32⟩ : BufTy).Contents (Elt F) → (⟨S1500000x1, .i32⟩ : BufTy).Contents (Elt F) → (⟨S1500000x100, .f32⟩ : BufTy).Contents (Elt F)),
    unary main_v20 main_v28 (broadcastInDim S1500000x100 ![0, 1] bcast_S1500000x1_S1500000x100_0_1 : (⟨S1500000x1, .f32⟩ : BufTy).Contents (Elt F) → (⟨S1500000x100, .f32⟩ : BufTy).Contents (Elt F)),
    binary main_v28 main_v27 main_v29 (mulf : (⟨S1500000x100, .f32⟩ : BufTy).Contents (Elt F) → (⟨S1500000x100, .f32⟩ : BufTy).Contents (Elt F) → (⟨S1500000x100, .f32⟩ : BufTy).Contents (Elt F)),
    nullary main_cst_3 (constant S_ .f32 0x00000000#32),
    unary main_cst_3 main_v30 (broadcastInDim S150000x100 ![] bcast_S_S150000x100 : (⟨S_, .f32⟩ : BufTy).Contents (Elt F) → (⟨S150000x100, .f32⟩ : BufTy).Contents (Elt F)),
    unary main_arg2 main_v31 (broadcastInDim S1500000x1 ![0] bcast_S1500000_S1500000x1_0 : (⟨S1500000, .i32⟩ : BufTy).Contents (Elt F) → (⟨S1500000x1, .i32⟩ : BufTy).Contents (Elt F)),
    ternary main_v30 main_v31 main_v29 main_v32 ((fun x i u => Host.scatterAdd scatter_S150000x100_S1500000x1_S1500000x100_1_0_0_1 x i u) : (⟨S150000x100, .f32⟩ : BufTy).Contents (Elt F) → (⟨S1500000x1, .i32⟩ : BufTy).Contents (Elt F) → (⟨S1500000x100, .f32⟩ : BufTy).Contents (Elt F) → (⟨S150000x100, .f32⟩ : BufTy).Contents (Elt F)),
    binary main_v32 main_arg9 main_v33 ((fun l r => Host.dotGeneral dot_S150000x100_S100x80_S150000x80_1_0_0_1_n_n none l r) : (⟨S150000x100, .f32⟩ : BufTy).Contents (Elt F) → (⟨S100x80, .f32⟩ : BufTy).Contents (Elt F) → (⟨S150000x80, .f32⟩ : BufTy).Contents (Elt F)),
    unary main_arg10 main_v34 (broadcastInDim S1x80 ![1] bcast_S80_S1x80_1 : (⟨S80, .f32⟩ : BufTy).Contents (Elt F) → (⟨S1x80, .f32⟩ : BufTy).Contents (Elt F)),
    unary main_v34 main_v35 (broadcastInDim S150000x80 ![0, 1] bcast_S1x80_S150000x80_0_1 : (⟨S1x80, .f32⟩ : BufTy).Contents (Elt F) → (⟨S150000x80, .f32⟩ : BufTy).Contents (Elt F)),
    binary main_v33 main_v35 main_v36 (addf : (⟨S150000x80, .f32⟩ : BufTy).Contents (Elt F) → (⟨S150000x80, .f32⟩ : BufTy).Contents (Elt F) → (⟨S150000x80, .f32⟩ : BufTy).Contents (Elt F)),
    binary main_v19 main_v36 main_v37 (addf : (⟨S150000x80, .f32⟩ : BufTy).Contents (Elt F) → (⟨S150000x80, .f32⟩ : BufTy).Contents (Elt F) → (⟨S150000x80, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S150000x80, .f32⟩) main_call0_v0) (broadcastInDim S150000x80 ![] bcast_S_S150000x80),
    TRef.binary (TRef.of (T := ⟨S150000x80, .f32⟩) main_v37) (TRef.of (T := ⟨S150000x80, .f32⟩) main_call0_v0) (TRef.of (T := ⟨S150000x80, .f32⟩) main_v38) maximumf,
    binary main_v0 main_v38 main_v39 ((fun a b => concatenate S150000x180 1 [⟨S150000x100, a⟩, ⟨S150000x80, b⟩] concatenates_S150000x100_S150000x80_S150000x180_d1) : (⟨S150000x100, .f32⟩ : BufTy).Contents (Elt F) → (⟨S150000x80, .f32⟩ : BufTy).Contents (Elt F) → (⟨S150000x180, .f32⟩ : BufTy).Contents (Elt F)),
    unary main_arg4 main_v40 (broadcastInDim S1500000x1 ![0] bcast_S1500000_S1500000x1_0 : (⟨S1500000, .f32⟩ : BufTy).Contents (Elt F) → (⟨S1500000x1, .f32⟩ : BufTy).Contents (Elt F)),
    nullary main_c_4 (constantI S_ 32 0#32),
    unary main_c_4 main_v41 (broadcastInDim S1500000 ![] bcast_S_S1500000 : (⟨S_, .i32⟩ : BufTy).Contents (Elt F) → (⟨S1500000, .i32⟩ : BufTy).Contents (Elt F)),
    binary main_arg3 main_v41 main_v42 (cmpi .slt : (⟨S1500000, .i32⟩ : BufTy).Contents (Elt F) → (⟨S1500000, .i32⟩ : BufTy).Contents (Elt F) → (⟨S1500000, .i1⟩ : BufTy).Contents (Elt F)),
    nullary main_c_5 (constantI S_ 32 150000#32),
    unary main_c_5 main_v43 (broadcastInDim S1500000 ![] bcast_S_S1500000 : (⟨S_, .i32⟩ : BufTy).Contents (Elt F) → (⟨S1500000, .i32⟩ : BufTy).Contents (Elt F)),
    binary main_arg3 main_v43 main_v44 (addi : (⟨S1500000, .i32⟩ : BufTy).Contents (Elt F) → (⟨S1500000, .i32⟩ : BufTy).Contents (Elt F) → (⟨S1500000, .i32⟩ : BufTy).Contents (Elt F)),
    ternary main_v42 main_v44 main_arg3 main_v45 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v45 main_v46 (broadcastInDim S1500000x1 ![0] bcast_S1500000_S1500000x1_0 : (⟨S1500000, .i32⟩ : BufTy).Contents (Elt F) → (⟨S1500000x1, .i32⟩ : BufTy).Contents (Elt F)),
    binary main_v38 main_v46 main_v47 ((fun x i => Host.gather gather_S150000x80_S1500000x1_S1500000x80_1_0_n_n_0_1_180 x i) : (⟨S150000x80, .f32⟩ : BufTy).Contents (Elt F) → (⟨S1500000x1, .i32⟩ : BufTy).Contents (Elt F) → (⟨S1500000x80, .f32⟩ : BufTy).Contents (Elt F)),
    unary main_v40 main_v48 (broadcastInDim S1500000x80 ![0, 1] bcast_S1500000x1_S1500000x80_0_1 : (⟨S1500000x1, .f32⟩ : BufTy).Contents (Elt F) → (⟨S1500000x80, .f32⟩ : BufTy).Contents (Elt F)),
    binary main_v48 main_v47 main_v49 (mulf : (⟨S1500000x80, .f32⟩ : BufTy).Contents (Elt F) → (⟨S1500000x80, .f32⟩ : BufTy).Contents (Elt F) → (⟨S1500000x80, .f32⟩ : BufTy).Contents (Elt F)),
    nullary main_cst_6 (constant S_ .f32 0x00000000#32),
    unary main_cst_6 main_v50 (broadcastInDim S150000x80 ![] bcast_S_S150000x80 : (⟨S_, .f32⟩ : BufTy).Contents (Elt F) → (⟨S150000x80, .f32⟩ : BufTy).Contents (Elt F)),
    unary main_arg2 main_v51 (broadcastInDim S1500000x1 ![0] bcast_S1500000_S1500000x1_0 : (⟨S1500000, .i32⟩ : BufTy).Contents (Elt F) → (⟨S1500000x1, .i32⟩ : BufTy).Contents (Elt F)),
    ternary main_v50 main_v51 main_v49 main_v52 ((fun x i u => Host.scatterAdd scatter_S150000x80_S1500000x1_S1500000x80_1_0_0_1 x i u) : (⟨S150000x80, .f32⟩ : BufTy).Contents (Elt F) → (⟨S1500000x1, .i32⟩ : BufTy).Contents (Elt F) → (⟨S1500000x80, .f32⟩ : BufTy).Contents (Elt F) → (⟨S150000x80, .f32⟩ : BufTy).Contents (Elt F)),
    binary main_v52 main_v38 main_v53 (mulf : (⟨S150000x80, .f32⟩ : BufTy).Contents (Elt F) → (⟨S150000x80, .f32⟩ : BufTy).Contents (Elt F) → (⟨S150000x80, .f32⟩ : BufTy).Contents (Elt F)),
    binary main_v52 main_v38 main_v54 (addf : (⟨S150000x80, .f32⟩ : BufTy).Contents (Elt F) → (⟨S150000x80, .f32⟩ : BufTy).Contents (Elt F) → (⟨S150000x80, .f32⟩ : BufTy).Contents (Elt F)),
    binary main_v54 main_arg11 main_v55 ((fun l r => Host.dotGeneral dot_S150000x80_S80x50_S150000x50_1_0_0_1_n_n none l r) : (⟨S150000x80, .f32⟩ : BufTy).Contents (Elt F) → (⟨S80x50, .f32⟩ : BufTy).Contents (Elt F) → (⟨S150000x50, .f32⟩ : BufTy).Contents (Elt F)),
    unary main_arg12 main_v56 (broadcastInDim S1x50 ![1] bcast_S50_S1x50_1 : (⟨S50, .f32⟩ : BufTy).Contents (Elt F) → (⟨S1x50, .f32⟩ : BufTy).Contents (Elt F)),
    unary main_v56 main_v57 (broadcastInDim S150000x50 ![0, 1] bcast_S1x50_S150000x50_0_1 : (⟨S1x50, .f32⟩ : BufTy).Contents (Elt F) → (⟨S150000x50, .f32⟩ : BufTy).Contents (Elt F)),
    binary main_v55 main_v57 main_v58 (addf : (⟨S150000x50, .f32⟩ : BufTy).Contents (Elt F) → (⟨S150000x50, .f32⟩ : BufTy).Contents (Elt F) → (⟨S150000x50, .f32⟩ : BufTy).Contents (Elt F)),
    unary main_arg4 main_v59 (broadcastInDim S1500000x1 ![0] bcast_S1500000_S1500000x1_0 : (⟨S1500000, .f32⟩ : BufTy).Contents (Elt F) → (⟨S1500000x1, .f32⟩ : BufTy).Contents (Elt F)),
    nullary main_c_7 (constantI S_ 32 0#32),
    unary main_c_7 main_v60 (broadcastInDim S1500000 ![] bcast_S_S1500000 : (⟨S_, .i32⟩ : BufTy).Contents (Elt F) → (⟨S1500000, .i32⟩ : BufTy).Contents (Elt F)),
    binary main_arg3 main_v60 main_v61 (cmpi .slt : (⟨S1500000, .i32⟩ : BufTy).Contents (Elt F) → (⟨S1500000, .i32⟩ : BufTy).Contents (Elt F) → (⟨S1500000, .i1⟩ : BufTy).Contents (Elt F)),
    nullary main_c_8 (constantI S_ 32 150000#32),
    unary main_c_8 main_v62 (broadcastInDim S1500000 ![] bcast_S_S1500000 : (⟨S_, .i32⟩ : BufTy).Contents (Elt F) → (⟨S1500000, .i32⟩ : BufTy).Contents (Elt F)),
    binary main_arg3 main_v62 main_v63 (addi : (⟨S1500000, .i32⟩ : BufTy).Contents (Elt F) → (⟨S1500000, .i32⟩ : BufTy).Contents (Elt F) → (⟨S1500000, .i32⟩ : BufTy).Contents (Elt F)),
    ternary main_v61 main_v63 main_arg3 main_v64 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v64 main_v65 (broadcastInDim S1500000x1 ![0] bcast_S1500000_S1500000x1_0 : (⟨S1500000, .i32⟩ : BufTy).Contents (Elt F) → (⟨S1500000x1, .i32⟩ : BufTy).Contents (Elt F)),
    binary main_v53 main_v65 main_v66 ((fun x i => Host.gather gather_S150000x80_S1500000x1_S1500000x80_1_0_n_n_0_1_180 x i) : (⟨S150000x80, .f32⟩ : BufTy).Contents (Elt F) → (⟨S1500000x1, .i32⟩ : BufTy).Contents (Elt F) → (⟨S1500000x80, .f32⟩ : BufTy).Contents (Elt F)),
    unary main_v59 main_v67 (broadcastInDim S1500000x80 ![0, 1] bcast_S1500000x1_S1500000x80_0_1 : (⟨S1500000x1, .f32⟩ : BufTy).Contents (Elt F) → (⟨S1500000x80, .f32⟩ : BufTy).Contents (Elt F)),
    binary main_v67 main_v66 main_v68 (mulf : (⟨S1500000x80, .f32⟩ : BufTy).Contents (Elt F) → (⟨S1500000x80, .f32⟩ : BufTy).Contents (Elt F) → (⟨S1500000x80, .f32⟩ : BufTy).Contents (Elt F)),
    nullary main_cst_9 (constant S_ .f32 0x00000000#32),
    unary main_cst_9 main_v69 (broadcastInDim S150000x80 ![] bcast_S_S150000x80 : (⟨S_, .f32⟩ : BufTy).Contents (Elt F) → (⟨S150000x80, .f32⟩ : BufTy).Contents (Elt F)),
    unary main_arg2 main_v70 (broadcastInDim S1500000x1 ![0] bcast_S1500000_S1500000x1_0 : (⟨S1500000, .i32⟩ : BufTy).Contents (Elt F) → (⟨S1500000x1, .i32⟩ : BufTy).Contents (Elt F)),
    ternary main_v69 main_v70 main_v68 main_v71 ((fun x i u => Host.scatterAdd scatter_S150000x80_S1500000x1_S1500000x80_1_0_0_1 x i u) : (⟨S150000x80, .f32⟩ : BufTy).Contents (Elt F) → (⟨S1500000x1, .i32⟩ : BufTy).Contents (Elt F) → (⟨S1500000x80, .f32⟩ : BufTy).Contents (Elt F) → (⟨S150000x80, .f32⟩ : BufTy).Contents (Elt F)),
    binary main_v71 main_arg13 main_v72 ((fun l r => Host.dotGeneral dot_S150000x80_S80x50_S150000x50_1_0_0_1_n_n none l r) : (⟨S150000x80, .f32⟩ : BufTy).Contents (Elt F) → (⟨S80x50, .f32⟩ : BufTy).Contents (Elt F) → (⟨S150000x50, .f32⟩ : BufTy).Contents (Elt F)),
    unary main_arg14 main_v73 (broadcastInDim S1x50 ![1] bcast_S50_S1x50_1 : (⟨S50, .f32⟩ : BufTy).Contents (Elt F) → (⟨S1x50, .f32⟩ : BufTy).Contents (Elt F)),
    unary main_v73 main_v74 (broadcastInDim S150000x50 ![0, 1] bcast_S1x50_S150000x50_0_1 : (⟨S1x50, .f32⟩ : BufTy).Contents (Elt F) → (⟨S150000x50, .f32⟩ : BufTy).Contents (Elt F)),
    binary main_v72 main_v74 main_v75 (addf : (⟨S150000x50, .f32⟩ : BufTy).Contents (Elt F) → (⟨S150000x50, .f32⟩ : BufTy).Contents (Elt F) → (⟨S150000x50, .f32⟩ : BufTy).Contents (Elt F)),
    binary main_v58 main_v75 main_v76 (addf : (⟨S150000x50, .f32⟩ : BufTy).Contents (Elt F) → (⟨S150000x50, .f32⟩ : BufTy).Contents (Elt F) → (⟨S150000x50, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x50, .f32⟩) main_call1_v0) (broadcastInDim S150000x50 ![] bcast_S_S150000x50),
    TRef.binary (TRef.of (T := ⟨S150000x50, .f32⟩) main_v76) (TRef.of (T := ⟨S150000x50, .f32⟩) main_call1_v0) (TRef.of (T := ⟨S150000x50, .f32⟩) main_v77) maximumf,
    binary main_v39 main_v77 main_v78 ((fun a b => concatenate S150000x230 1 [⟨S150000x180, a⟩, ⟨S150000x50, b⟩] concatenates_S150000x180_S150000x50_S150000x230_d1) : (⟨S150000x180, .f32⟩ : BufTy).Contents (Elt F) → (⟨S150000x50, .f32⟩ : BufTy).Contents (Elt F) → (⟨S150000x230, .f32⟩ : BufTy).Contents (Elt F)),
    nullary main_c_10 (constantI S_ 32 0#32),
    unary main_c_10 main_v79 (broadcastInDim S4096 ![] bcast_S_S4096 : (⟨S_, .i32⟩ : BufTy).Contents (Elt F) → (⟨S4096, .i32⟩ : BufTy).Contents (Elt F)),
    binary main_arg0 main_v79 main_v80 (cmpi .slt : (⟨S4096, .i32⟩ : BufTy).Contents (Elt F) → (⟨S4096, .i32⟩ : BufTy).Contents (Elt F) → (⟨S4096, .i1⟩ : BufTy).Contents (Elt F)),
    nullary main_c_11 (constantI S_ 32 150000#32),
    unary main_c_11 main_v81 (broadcastInDim S4096 ![] bcast_S_S4096 : (⟨S_, .i32⟩ : BufTy).Contents (Elt F) → (⟨S4096, .i32⟩ : BufTy).Contents (Elt F)),
    binary main_arg0 main_v81 main_v82 (addi : (⟨S4096, .i32⟩ : BufTy).Contents (Elt F) → (⟨S4096, .i32⟩ : BufTy).Contents (Elt F) → (⟨S4096, .i32⟩ : BufTy).Contents (Elt F)),
    ternary main_v80 main_v82 main_arg0 main_v83 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v83 main_v84 (broadcastInDim S4096x1 ![0] bcast_S4096_S4096x1_0 : (⟨S4096, .i32⟩ : BufTy).Contents (Elt F) → (⟨S4096x1, .i32⟩ : BufTy).Contents (Elt F)),
    binary main_v78 main_v84 main_v85 ((fun x i => Host.gather gather_S150000x230_S4096x1_S4096x230_1_0_n_n_0_1_1230 x i) : (⟨S150000x230, .f32⟩ : BufTy).Contents (Elt F) → (⟨S4096x1, .i32⟩ : BufTy).Contents (Elt F) → (⟨S4096x230, .f32⟩ : BufTy).Contents (Elt F)),
    nullary main_c_12 (constantI S_ 32 0#32),
    unary main_c_12 main_v86 (broadcastInDim S4096 ![] bcast_S_S4096 : (⟨S_, .i32⟩ : BufTy).Contents (Elt F) → (⟨S4096, .i32⟩ : BufTy).Contents (Elt F)),
    binary main_arg1 main_v86 main_v87 (cmpi .slt : (⟨S4096, .i32⟩ : BufTy).Contents (Elt F) → (⟨S4096, .i32⟩ : BufTy).Contents (Elt F) → (⟨S4096, .i1⟩ : BufTy).Contents (Elt F)),
    nullary main_c_13 (constantI S_ 32 150000#32),
    unary main_c_13 main_v88 (broadcastInDim S4096 ![] bcast_S_S4096 : (⟨S_, .i32⟩ : BufTy).Contents (Elt F) → (⟨S4096, .i32⟩ : BufTy).Contents (Elt F)),
    binary main_arg1 main_v88 main_v89 (addi : (⟨S4096, .i32⟩ : BufTy).Contents (Elt F) → (⟨S4096, .i32⟩ : BufTy).Contents (Elt F) → (⟨S4096, .i32⟩ : BufTy).Contents (Elt F)),
    ternary main_v87 main_v89 main_arg1 main_v90 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v90 main_v91 (broadcastInDim S4096x1 ![0] bcast_S4096_S4096x1_0 : (⟨S4096, .i32⟩ : BufTy).Contents (Elt F) → (⟨S4096x1, .i32⟩ : BufTy).Contents (Elt F)),
    binary main_v78 main_v91 main_v92 ((fun x i => Host.gather gather_S150000x230_S4096x1_S4096x230_1_0_n_n_0_1_1230 x i) : (⟨S150000x230, .f32⟩ : BufTy).Contents (Elt F) → (⟨S4096x1, .i32⟩ : BufTy).Contents (Elt F) → (⟨S4096x230, .f32⟩ : BufTy).Contents (Elt F)),
    binary main_v85 main_v92 main_v93 ((fun a b => concatenate S4096x460 1 [⟨S4096x230, a⟩, ⟨S4096x230, b⟩] concatenates_S4096x230_S4096x230_S4096x460_d1) : (⟨S4096x230, .f32⟩ : BufTy).Contents (Elt F) → (⟨S4096x230, .f32⟩ : BufTy).Contents (Elt F) → (⟨S4096x460, .f32⟩ : BufTy).Contents (Elt F)),
    binary main_v93 main_arg15 main_v94 ((fun l r => Host.dotGeneral dot_S4096x460_S460x64_S4096x64_1_0_0_1_n_n none l r) : (⟨S4096x460, .f32⟩ : BufTy).Contents (Elt F) → (⟨S460x64, .f32⟩ : BufTy).Contents (Elt F) → (⟨S4096x64, .f32⟩ : BufTy).Contents (Elt F)),
    unary main_arg16 main_v95 (broadcastInDim S1x64 ![1] bcast_S64_S1x64_1 : (⟨S64, .f32⟩ : BufTy).Contents (Elt F) → (⟨S1x64, .f32⟩ : BufTy).Contents (Elt F)),
    unary main_v95 main_v96 (broadcastInDim S4096x64 ![0, 1] bcast_S1x64_S4096x64_0_1 : (⟨S1x64, .f32⟩ : BufTy).Contents (Elt F) → (⟨S4096x64, .f32⟩ : BufTy).Contents (Elt F)),
    binary main_v94 main_v96 main_v97 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x64, .f32⟩) main_call2_v0) (broadcastInDim S4096x64 ![] bcast_S_S4096x64),
    TRef.binary (TRef.of (T := ⟨S4096x64, .f32⟩) main_v97) (TRef.of (T := ⟨S4096x64, .f32⟩) main_call2_v0) (TRef.of (T := ⟨S4096x64, .f32⟩) main_v98) maximumf,
    binary main_v98 main_arg17 main_v99 ((fun l r => Host.dotGeneral dot_S4096x64_S64x32_S4096x32_1_0_0_1_n_n none l r) : (⟨S4096x64, .f32⟩ : BufTy).Contents (Elt F) → (⟨S64x32, .f32⟩ : BufTy).Contents (Elt F) → (⟨S4096x32, .f32⟩ : BufTy).Contents (Elt F)),
    unary main_arg18 main_v100 (broadcastInDim S1x32 ![1] bcast_S32_S1x32_1 : (⟨S32, .f32⟩ : BufTy).Contents (Elt F) → (⟨S1x32, .f32⟩ : BufTy).Contents (Elt F)),
    unary main_v100 main_v101 (broadcastInDim S4096x32 ![0, 1] bcast_S1x32_S4096x32_0_1 : (⟨S1x32, .f32⟩ : BufTy).Contents (Elt F) → (⟨S4096x32, .f32⟩ : BufTy).Contents (Elt F)),
    binary main_v99 main_v101 main_v102 (addf : (⟨S4096x32, .f32⟩ : BufTy).Contents (Elt F) → (⟨S4096x32, .f32⟩ : BufTy).Contents (Elt F) → (⟨S4096x32, .f32⟩ : BufTy).Contents (Elt F)),
    binary main_v102 main_arg19 main_v103 ((fun l r => Host.dotGeneral dot_S4096x32_S32x1_S4096x1_1_0_0_1_n_n none l r) : (⟨S4096x32, .f32⟩ : BufTy).Contents (Elt F) → (⟨S32x1, .f32⟩ : BufTy).Contents (Elt F) → (⟨S4096x1, .f32⟩ : BufTy).Contents (Elt F)),
    unary main_arg20 main_v104 (broadcastInDim S1x1 ![1] bcast_S1_S1x1_1 : (⟨S1, .f32⟩ : BufTy).Contents (Elt F) → (⟨S1x1, .f32⟩ : BufTy).Contents (Elt F)),
    unary main_v104 main_v105 (broadcastInDim S4096x1 ![0, 1] bcast_S1x1_S4096x1_0_1 : (⟨S1x1, .f32⟩ : BufTy).Contents (Elt F) → (⟨S4096x1, .f32⟩ : BufTy).Contents (Elt F)),
    binary main_v103 main_v105 main_v106 (addf : (⟨S4096x1, .f32⟩ : BufTy).Contents (Elt F) → (⟨S4096x1, .f32⟩ : BufTy).Contents (Elt F) → (⟨S4096x1, .f32⟩ : BufTy).Contents (Elt F)),
    reshape main_v106 main_v107 rfl shapeCasts_S4096x1_S4096 ]

set_option maxRecDepth 8192 in
set_option maxHeartbeats 4000000 in
/-- The program is the list run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches only arrays of the program. -/
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub ..⟩

/-! ## The ten stages -/

/-- Operations 1–17: the stacked embeddings and the first propagation, up to the scattered sums (the last writes `main_v13`). -/
abbrev opsA : List (HloOp τ sig (Elt F)) :=
  [ binary main_arg5 main_arg6 main_v0 ((fun a b => concatenate S150000x100 0 [⟨S100000x100, a⟩, ⟨S50000x100, b⟩] concatenates_S100000x100_S50000x100_S150000x100_d0) : (⟨S100000x100, .f32⟩ : BufTy).Contents (Elt F) → (⟨S50000x100, .f32⟩ : BufTy).Contents (Elt F) → (⟨S150000x100, .f32⟩ : BufTy).Contents (Elt F)),
    unary main_arg4 main_v1 (broadcastInDim S1500000x1 ![0] bcast_S1500000_S1500000x1_0 : (⟨S1500000, .f32⟩ : BufTy).Contents (Elt F) → (⟨S1500000x1, .f32⟩ : BufTy).Contents (Elt F)),
    nullary main_c (constantI S_ 32 0#32),
    unary main_c main_v2 (broadcastInDim S1500000 ![] bcast_S_S1500000 : (⟨S_, .i32⟩ : BufTy).Contents (Elt F) → (⟨S1500000, .i32⟩ : BufTy).Contents (Elt F)),
    binary main_arg3 main_v2 main_v3 (cmpi .slt : (⟨S1500000, .i32⟩ : BufTy).Contents (Elt F) → (⟨S1500000, .i32⟩ : BufTy).Contents (Elt F) → (⟨S1500000, .i1⟩ : BufTy).Contents (Elt F)),
    nullary main_c_0 (constantI S_ 32 150000#32),
    unary main_c_0 main_v4 (broadcastInDim S1500000 ![] bcast_S_S1500000 : (⟨S_, .i32⟩ : BufTy).Contents (Elt F) → (⟨S1500000, .i32⟩ : BufTy).Contents (Elt F)),
    binary main_arg3 main_v4 main_v5 (addi : (⟨S1500000, .i32⟩ : BufTy).Contents (Elt F) → (⟨S1500000, .i32⟩ : BufTy).Contents (Elt F) → (⟨S1500000, .i32⟩ : BufTy).Contents (Elt F)),
    ternary main_v3 main_v5 main_arg3 main_v6 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v6 main_v7 (broadcastInDim S1500000x1 ![0] bcast_S1500000_S1500000x1_0 : (⟨S1500000, .i32⟩ : BufTy).Contents (Elt F) → (⟨S1500000x1, .i32⟩ : BufTy).Contents (Elt F)),
    binary main_v0 main_v7 main_v8 ((fun x i => Host.gather gather_S150000x100_S1500000x1_S1500000x100_1_0_n_n_0_1_1100 x i) : (⟨S150000x100, .f32⟩ : BufTy).Contents (Elt F) → (⟨S1500000x1, .i32⟩ : BufTy).Contents (Elt F) → (⟨S1500000x100, .f32⟩ : BufTy).Contents (Elt F)),
    unary main_v1 main_v9 (broadcastInDim S1500000x100 ![0, 1] bcast_S1500000x1_S1500000x100_0_1 : (⟨S1500000x1, .f32⟩ : BufTy).Contents (Elt F) → (⟨S1500000x100, .f32⟩ : BufTy).Contents (Elt F)),
    binary main_v9 main_v8 main_v10 (mulf : (⟨S1500000x100, .f32⟩ : BufTy).Contents (Elt F) → (⟨S1500000x100, .f32⟩ : BufTy).Contents (Elt F) → (⟨S1500000x100, .f32⟩ : BufTy).Contents (Elt F)),
    nullary main_cst (constant S_ .f32 0x00000000#32),
    unary main_cst main_v11 (broadcastInDim S150000x100 ![] bcast_S_S150000x100 : (⟨S_, .f32⟩ : BufTy).Contents (Elt F) → (⟨S150000x100, .f32⟩ : BufTy).Contents (Elt F)),
    unary main_arg2 main_v12 (broadcastInDim S1500000x1 ![0] bcast_S1500000_S1500000x1_0 : (⟨S1500000, .i32⟩ : BufTy).Contents (Elt F) → (⟨S1500000x1, .i32⟩ : BufTy).Contents (Elt F)),
    ternary main_v11 main_v12 main_v10 main_v13 ((fun x i u => Host.scatterAdd scatter_S150000x100_S1500000x1_S1500000x100_1_0_0_1 x i u) : (⟨S150000x100, .f32⟩ : BufTy).Contents (Elt F) → (⟨S1500000x1, .i32⟩ : BufTy).Contents (Elt F) → (⟨S1500000x100, .f32⟩ : BufTy).Contents (Elt F) → (⟨S150000x100, .f32⟩ : BufTy).Contents (Elt F)) ]

/-- Operations 18–23: the first layer's product, sum, and first affine part (the last writes `main_v19`). -/
abbrev opsB : List (HloOp τ sig (Elt F)) :=
  [ binary main_v13 main_v0 main_v14 (mulf : (⟨S150000x100, .f32⟩ : BufTy).Contents (Elt F) → (⟨S150000x100, .f32⟩ : BufTy).Contents (Elt F) → (⟨S150000x100, .f32⟩ : BufTy).Contents (Elt F)),
    binary main_v13 main_v0 main_v15 (addf : (⟨S150000x100, .f32⟩ : BufTy).Contents (Elt F) → (⟨S150000x100, .f32⟩ : BufTy).Contents (Elt F) → (⟨S150000x100, .f32⟩ : BufTy).Contents (Elt F)),
    binary main_v15 main_arg7 main_v16 ((fun l r => Host.dotGeneral dot_S150000x100_S100x80_S150000x80_1_0_0_1_n_n none l r) : (⟨S150000x100, .f32⟩ : BufTy).Contents (Elt F) → (⟨S100x80, .f32⟩ : BufTy).Contents (Elt F) → (⟨S150000x80, .f32⟩ : BufTy).Contents (Elt F)),
    unary main_arg8 main_v17 (broadcastInDim S1x80 ![1] bcast_S80_S1x80_1 : (⟨S80, .f32⟩ : BufTy).Contents (Elt F) → (⟨S1x80, .f32⟩ : BufTy).Contents (Elt F)),
    unary main_v17 main_v18 (broadcastInDim S150000x80 ![0, 1] bcast_S1x80_S150000x80_0_1 : (⟨S1x80, .f32⟩ : BufTy).Contents (Elt F) → (⟨S150000x80, .f32⟩ : BufTy).Contents (Elt F)),
    binary main_v16 main_v18 main_v19 (addf : (⟨S150000x80, .f32⟩ : BufTy).Contents (Elt F) → (⟨S150000x80, .f32⟩ : BufTy).Contents (Elt F) → (⟨S150000x80, .f32⟩ : BufTy).Contents (Elt F)) ]

/-- Operations 24–39: the second propagation of the first layer (the last writes `main_v32`). -/
abbrev opsC : List (HloOp τ sig (Elt F)) :=
  [ unary main_arg4 main_v20 (broadcastInDim S1500000x1 ![0] bcast_S1500000_S1500000x1_0 : (⟨S1500000, .f32⟩ : BufTy).Contents (Elt F) → (⟨S1500000x1, .f32⟩ : BufTy).Contents (Elt F)),
    nullary main_c_1 (constantI S_ 32 0#32),
    unary main_c_1 main_v21 (broadcastInDim S1500000 ![] bcast_S_S1500000 : (⟨S_, .i32⟩ : BufTy).Contents (Elt F) → (⟨S1500000, .i32⟩ : BufTy).Contents (Elt F)),
    binary main_arg3 main_v21 main_v22 (cmpi .slt : (⟨S1500000, .i32⟩ : BufTy).Contents (Elt F) → (⟨S1500000, .i32⟩ : BufTy).Contents (Elt F) → (⟨S1500000, .i1⟩ : BufTy).Contents (Elt F)),
    nullary main_c_2 (constantI S_ 32 150000#32),
    unary main_c_2 main_v23 (broadcastInDim S1500000 ![] bcast_S_S1500000 : (⟨S_, .i32⟩ : BufTy).Contents (Elt F) → (⟨S1500000, .i32⟩ : BufTy).Contents (Elt F)),
    binary main_arg3 main_v23 main_v24 (addi : (⟨S1500000, .i32⟩ : BufTy).Contents (Elt F) → (⟨S1500000, .i32⟩ : BufTy).Contents (Elt F) → (⟨S1500000, .i32⟩ : BufTy).Contents (Elt F)),
    ternary main_v22 main_v24 main_arg3 main_v25 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v25 main_v26 (broadcastInDim S1500000x1 ![0] bcast_S1500000_S1500000x1_0 : (⟨S1500000, .i32⟩ : BufTy).Contents (Elt F) → (⟨S1500000x1, .i32⟩ : BufTy).Contents (Elt F)),
    binary main_v14 main_v26 main_v27 ((fun x i => Host.gather gather_S150000x100_S1500000x1_S1500000x100_1_0_n_n_0_1_1100 x i) : (⟨S150000x100, .f32⟩ : BufTy).Contents (Elt F) → (⟨S1500000x1, .i32⟩ : BufTy).Contents (Elt F) → (⟨S1500000x100, .f32⟩ : BufTy).Contents (Elt F)),
    unary main_v20 main_v28 (broadcastInDim S1500000x100 ![0, 1] bcast_S1500000x1_S1500000x100_0_1 : (⟨S1500000x1, .f32⟩ : BufTy).Contents (Elt F) → (⟨S1500000x100, .f32⟩ : BufTy).Contents (Elt F)),
    binary main_v28 main_v27 main_v29 (mulf : (⟨S1500000x100, .f32⟩ : BufTy).Contents (Elt F) → (⟨S1500000x100, .f32⟩ : BufTy).Contents (Elt F) → (⟨S1500000x100, .f32⟩ : BufTy).Contents (Elt F)),
    nullary main_cst_3 (constant S_ .f32 0x00000000#32),
    unary main_cst_3 main_v30 (broadcastInDim S150000x100 ![] bcast_S_S150000x100 : (⟨S_, .f32⟩ : BufTy).Contents (Elt F) → (⟨S150000x100, .f32⟩ : BufTy).Contents (Elt F)),
    unary main_arg2 main_v31 (broadcastInDim S1500000x1 ![0] bcast_S1500000_S1500000x1_0 : (⟨S1500000, .i32⟩ : BufTy).Contents (Elt F) → (⟨S1500000x1, .i32⟩ : BufTy).Contents (Elt F)),
    ternary main_v30 main_v31 main_v29 main_v32 ((fun x i u => Host.scatterAdd scatter_S150000x100_S1500000x1_S1500000x100_1_0_0_1 x i u) : (⟨S150000x100, .f32⟩ : BufTy).Contents (Elt F) → (⟨S1500000x1, .i32⟩ : BufTy).Contents (Elt F) → (⟨S1500000x100, .f32⟩ : BufTy).Contents (Elt F) → (⟨S150000x100, .f32⟩ : BufTy).Contents (Elt F)) ]

/-- Operations 40–47: the first layer's second affine part, their sum and its positive part (the last writes `main_v38`). -/
abbrev opsD : List (HloOp τ sig (Elt F)) :=
  [ binary main_v32 main_arg9 main_v33 ((fun l r => Host.dotGeneral dot_S150000x100_S100x80_S150000x80_1_0_0_1_n_n none l r) : (⟨S150000x100, .f32⟩ : BufTy).Contents (Elt F) → (⟨S100x80, .f32⟩ : BufTy).Contents (Elt F) → (⟨S150000x80, .f32⟩ : BufTy).Contents (Elt F)),
    unary main_arg10 main_v34 (broadcastInDim S1x80 ![1] bcast_S80_S1x80_1 : (⟨S80, .f32⟩ : BufTy).Contents (Elt F) → (⟨S1x80, .f32⟩ : BufTy).Contents (Elt F)),
    unary main_v34 main_v35 (broadcastInDim S150000x80 ![0, 1] bcast_S1x80_S150000x80_0_1 : (⟨S1x80, .f32⟩ : BufTy).Contents (Elt F) → (⟨S150000x80, .f32⟩ : BufTy).Contents (Elt F)),
    binary main_v33 main_v35 main_v36 (addf : (⟨S150000x80, .f32⟩ : BufTy).Contents (Elt F) → (⟨S150000x80, .f32⟩ : BufTy).Contents (Elt F) → (⟨S150000x80, .f32⟩ : BufTy).Contents (Elt F)),
    binary main_v19 main_v36 main_v37 (addf : (⟨S150000x80, .f32⟩ : BufTy).Contents (Elt F) → (⟨S150000x80, .f32⟩ : BufTy).Contents (Elt F) → (⟨S150000x80, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S150000x80, .f32⟩) main_call0_v0) (broadcastInDim S150000x80 ![] bcast_S_S150000x80),
    TRef.binary (TRef.of (T := ⟨S150000x80, .f32⟩) main_v37) (TRef.of (T := ⟨S150000x80, .f32⟩) main_call0_v0) (TRef.of (T := ⟨S150000x80, .f32⟩) main_v38) maximumf ]

/-- Operations 48–64: the widened feature table and the second layer's first propagation (the last writes `main_v52`). -/
abbrev opsE : List (HloOp τ sig (Elt F)) :=
  [ binary main_v0 main_v38 main_v39 ((fun a b => concatenate S150000x180 1 [⟨S150000x100, a⟩, ⟨S150000x80, b⟩] concatenates_S150000x100_S150000x80_S150000x180_d1) : (⟨S150000x100, .f32⟩ : BufTy).Contents (Elt F) → (⟨S150000x80, .f32⟩ : BufTy).Contents (Elt F) → (⟨S150000x180, .f32⟩ : BufTy).Contents (Elt F)),
    unary main_arg4 main_v40 (broadcastInDim S1500000x1 ![0] bcast_S1500000_S1500000x1_0 : (⟨S1500000, .f32⟩ : BufTy).Contents (Elt F) → (⟨S1500000x1, .f32⟩ : BufTy).Contents (Elt F)),
    nullary main_c_4 (constantI S_ 32 0#32),
    unary main_c_4 main_v41 (broadcastInDim S1500000 ![] bcast_S_S1500000 : (⟨S_, .i32⟩ : BufTy).Contents (Elt F) → (⟨S1500000, .i32⟩ : BufTy).Contents (Elt F)),
    binary main_arg3 main_v41 main_v42 (cmpi .slt : (⟨S1500000, .i32⟩ : BufTy).Contents (Elt F) → (⟨S1500000, .i32⟩ : BufTy).Contents (Elt F) → (⟨S1500000, .i1⟩ : BufTy).Contents (Elt F)),
    nullary main_c_5 (constantI S_ 32 150000#32),
    unary main_c_5 main_v43 (broadcastInDim S1500000 ![] bcast_S_S1500000 : (⟨S_, .i32⟩ : BufTy).Contents (Elt F) → (⟨S1500000, .i32⟩ : BufTy).Contents (Elt F)),
    binary main_arg3 main_v43 main_v44 (addi : (⟨S1500000, .i32⟩ : BufTy).Contents (Elt F) → (⟨S1500000, .i32⟩ : BufTy).Contents (Elt F) → (⟨S1500000, .i32⟩ : BufTy).Contents (Elt F)),
    ternary main_v42 main_v44 main_arg3 main_v45 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v45 main_v46 (broadcastInDim S1500000x1 ![0] bcast_S1500000_S1500000x1_0 : (⟨S1500000, .i32⟩ : BufTy).Contents (Elt F) → (⟨S1500000x1, .i32⟩ : BufTy).Contents (Elt F)),
    binary main_v38 main_v46 main_v47 ((fun x i => Host.gather gather_S150000x80_S1500000x1_S1500000x80_1_0_n_n_0_1_180 x i) : (⟨S150000x80, .f32⟩ : BufTy).Contents (Elt F) → (⟨S1500000x1, .i32⟩ : BufTy).Contents (Elt F) → (⟨S1500000x80, .f32⟩ : BufTy).Contents (Elt F)),
    unary main_v40 main_v48 (broadcastInDim S1500000x80 ![0, 1] bcast_S1500000x1_S1500000x80_0_1 : (⟨S1500000x1, .f32⟩ : BufTy).Contents (Elt F) → (⟨S1500000x80, .f32⟩ : BufTy).Contents (Elt F)),
    binary main_v48 main_v47 main_v49 (mulf : (⟨S1500000x80, .f32⟩ : BufTy).Contents (Elt F) → (⟨S1500000x80, .f32⟩ : BufTy).Contents (Elt F) → (⟨S1500000x80, .f32⟩ : BufTy).Contents (Elt F)),
    nullary main_cst_6 (constant S_ .f32 0x00000000#32),
    unary main_cst_6 main_v50 (broadcastInDim S150000x80 ![] bcast_S_S150000x80 : (⟨S_, .f32⟩ : BufTy).Contents (Elt F) → (⟨S150000x80, .f32⟩ : BufTy).Contents (Elt F)),
    unary main_arg2 main_v51 (broadcastInDim S1500000x1 ![0] bcast_S1500000_S1500000x1_0 : (⟨S1500000, .i32⟩ : BufTy).Contents (Elt F) → (⟨S1500000x1, .i32⟩ : BufTy).Contents (Elt F)),
    ternary main_v50 main_v51 main_v49 main_v52 ((fun x i u => Host.scatterAdd scatter_S150000x80_S1500000x1_S1500000x80_1_0_0_1 x i u) : (⟨S150000x80, .f32⟩ : BufTy).Contents (Elt F) → (⟨S1500000x1, .i32⟩ : BufTy).Contents (Elt F) → (⟨S1500000x80, .f32⟩ : BufTy).Contents (Elt F) → (⟨S150000x80, .f32⟩ : BufTy).Contents (Elt F)) ]

/-- Operations 65–70: the second layer's product, sum, and first affine part (the last writes `main_v58`). -/
abbrev opsF : List (HloOp τ sig (Elt F)) :=
  [ binary main_v52 main_v38 main_v53 (mulf : (⟨S150000x80, .f32⟩ : BufTy).Contents (Elt F) → (⟨S150000x80, .f32⟩ : BufTy).Contents (Elt F) → (⟨S150000x80, .f32⟩ : BufTy).Contents (Elt F)),
    binary main_v52 main_v38 main_v54 (addf : (⟨S150000x80, .f32⟩ : BufTy).Contents (Elt F) → (⟨S150000x80, .f32⟩ : BufTy).Contents (Elt F) → (⟨S150000x80, .f32⟩ : BufTy).Contents (Elt F)),
    binary main_v54 main_arg11 main_v55 ((fun l r => Host.dotGeneral dot_S150000x80_S80x50_S150000x50_1_0_0_1_n_n none l r) : (⟨S150000x80, .f32⟩ : BufTy).Contents (Elt F) → (⟨S80x50, .f32⟩ : BufTy).Contents (Elt F) → (⟨S150000x50, .f32⟩ : BufTy).Contents (Elt F)),
    unary main_arg12 main_v56 (broadcastInDim S1x50 ![1] bcast_S50_S1x50_1 : (⟨S50, .f32⟩ : BufTy).Contents (Elt F) → (⟨S1x50, .f32⟩ : BufTy).Contents (Elt F)),
    unary main_v56 main_v57 (broadcastInDim S150000x50 ![0, 1] bcast_S1x50_S150000x50_0_1 : (⟨S1x50, .f32⟩ : BufTy).Contents (Elt F) → (⟨S150000x50, .f32⟩ : BufTy).Contents (Elt F)),
    binary main_v55 main_v57 main_v58 (addf : (⟨S150000x50, .f32⟩ : BufTy).Contents (Elt F) → (⟨S150000x50, .f32⟩ : BufTy).Contents (Elt F) → (⟨S150000x50, .f32⟩ : BufTy).Contents (Elt F)) ]

/-- Operations 71–86: the second propagation of the second layer (the last writes `main_v71`). -/
abbrev opsG : List (HloOp τ sig (Elt F)) :=
  [ unary main_arg4 main_v59 (broadcastInDim S1500000x1 ![0] bcast_S1500000_S1500000x1_0 : (⟨S1500000, .f32⟩ : BufTy).Contents (Elt F) → (⟨S1500000x1, .f32⟩ : BufTy).Contents (Elt F)),
    nullary main_c_7 (constantI S_ 32 0#32),
    unary main_c_7 main_v60 (broadcastInDim S1500000 ![] bcast_S_S1500000 : (⟨S_, .i32⟩ : BufTy).Contents (Elt F) → (⟨S1500000, .i32⟩ : BufTy).Contents (Elt F)),
    binary main_arg3 main_v60 main_v61 (cmpi .slt : (⟨S1500000, .i32⟩ : BufTy).Contents (Elt F) → (⟨S1500000, .i32⟩ : BufTy).Contents (Elt F) → (⟨S1500000, .i1⟩ : BufTy).Contents (Elt F)),
    nullary main_c_8 (constantI S_ 32 150000#32),
    unary main_c_8 main_v62 (broadcastInDim S1500000 ![] bcast_S_S1500000 : (⟨S_, .i32⟩ : BufTy).Contents (Elt F) → (⟨S1500000, .i32⟩ : BufTy).Contents (Elt F)),
    binary main_arg3 main_v62 main_v63 (addi : (⟨S1500000, .i32⟩ : BufTy).Contents (Elt F) → (⟨S1500000, .i32⟩ : BufTy).Contents (Elt F) → (⟨S1500000, .i32⟩ : BufTy).Contents (Elt F)),
    ternary main_v61 main_v63 main_arg3 main_v64 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v64 main_v65 (broadcastInDim S1500000x1 ![0] bcast_S1500000_S1500000x1_0 : (⟨S1500000, .i32⟩ : BufTy).Contents (Elt F) → (⟨S1500000x1, .i32⟩ : BufTy).Contents (Elt F)),
    binary main_v53 main_v65 main_v66 ((fun x i => Host.gather gather_S150000x80_S1500000x1_S1500000x80_1_0_n_n_0_1_180 x i) : (⟨S150000x80, .f32⟩ : BufTy).Contents (Elt F) → (⟨S1500000x1, .i32⟩ : BufTy).Contents (Elt F) → (⟨S1500000x80, .f32⟩ : BufTy).Contents (Elt F)),
    unary main_v59 main_v67 (broadcastInDim S1500000x80 ![0, 1] bcast_S1500000x1_S1500000x80_0_1 : (⟨S1500000x1, .f32⟩ : BufTy).Contents (Elt F) → (⟨S1500000x80, .f32⟩ : BufTy).Contents (Elt F)),
    binary main_v67 main_v66 main_v68 (mulf : (⟨S1500000x80, .f32⟩ : BufTy).Contents (Elt F) → (⟨S1500000x80, .f32⟩ : BufTy).Contents (Elt F) → (⟨S1500000x80, .f32⟩ : BufTy).Contents (Elt F)),
    nullary main_cst_9 (constant S_ .f32 0x00000000#32),
    unary main_cst_9 main_v69 (broadcastInDim S150000x80 ![] bcast_S_S150000x80 : (⟨S_, .f32⟩ : BufTy).Contents (Elt F) → (⟨S150000x80, .f32⟩ : BufTy).Contents (Elt F)),
    unary main_arg2 main_v70 (broadcastInDim S1500000x1 ![0] bcast_S1500000_S1500000x1_0 : (⟨S1500000, .i32⟩ : BufTy).Contents (Elt F) → (⟨S1500000x1, .i32⟩ : BufTy).Contents (Elt F)),
    ternary main_v69 main_v70 main_v68 main_v71 ((fun x i u => Host.scatterAdd scatter_S150000x80_S1500000x1_S1500000x80_1_0_0_1 x i u) : (⟨S150000x80, .f32⟩ : BufTy).Contents (Elt F) → (⟨S1500000x1, .i32⟩ : BufTy).Contents (Elt F) → (⟨S1500000x80, .f32⟩ : BufTy).Contents (Elt F) → (⟨S150000x80, .f32⟩ : BufTy).Contents (Elt F)) ]

/-- Operations 87–94: the second layer's second affine part, their sum and its positive part (the last writes `main_v77`). -/
abbrev opsH : List (HloOp τ sig (Elt F)) :=
  [ binary main_v71 main_arg13 main_v72 ((fun l r => Host.dotGeneral dot_S150000x80_S80x50_S150000x50_1_0_0_1_n_n none l r) : (⟨S150000x80, .f32⟩ : BufTy).Contents (Elt F) → (⟨S80x50, .f32⟩ : BufTy).Contents (Elt F) → (⟨S150000x50, .f32⟩ : BufTy).Contents (Elt F)),
    unary main_arg14 main_v73 (broadcastInDim S1x50 ![1] bcast_S50_S1x50_1 : (⟨S50, .f32⟩ : BufTy).Contents (Elt F) → (⟨S1x50, .f32⟩ : BufTy).Contents (Elt F)),
    unary main_v73 main_v74 (broadcastInDim S150000x50 ![0, 1] bcast_S1x50_S150000x50_0_1 : (⟨S1x50, .f32⟩ : BufTy).Contents (Elt F) → (⟨S150000x50, .f32⟩ : BufTy).Contents (Elt F)),
    binary main_v72 main_v74 main_v75 (addf : (⟨S150000x50, .f32⟩ : BufTy).Contents (Elt F) → (⟨S150000x50, .f32⟩ : BufTy).Contents (Elt F) → (⟨S150000x50, .f32⟩ : BufTy).Contents (Elt F)),
    binary main_v58 main_v75 main_v76 (addf : (⟨S150000x50, .f32⟩ : BufTy).Contents (Elt F) → (⟨S150000x50, .f32⟩ : BufTy).Contents (Elt F) → (⟨S150000x50, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x50, .f32⟩) main_call1_v0) (broadcastInDim S150000x50 ![] bcast_S_S150000x50),
    TRef.binary (TRef.of (T := ⟨S150000x50, .f32⟩) main_v76) (TRef.of (T := ⟨S150000x50, .f32⟩) main_call1_v0) (TRef.of (T := ⟨S150000x50, .f32⟩) main_v77) maximumf ]

/-- Operations 95–114: the full feature table and the batch's gathered rows (the last writes `main_v93`). -/
abbrev opsI : List (HloOp τ sig (Elt F)) :=
  [ binary main_v39 main_v77 main_v78 ((fun a b => concatenate S150000x230 1 [⟨S150000x180, a⟩, ⟨S150000x50, b⟩] concatenates_S150000x180_S150000x50_S150000x230_d1) : (⟨S150000x180, .f32⟩ : BufTy).Contents (Elt F) → (⟨S150000x50, .f32⟩ : BufTy).Contents (Elt F) → (⟨S150000x230, .f32⟩ : BufTy).Contents (Elt F)),
    nullary main_c_10 (constantI S_ 32 0#32),
    unary main_c_10 main_v79 (broadcastInDim S4096 ![] bcast_S_S4096 : (⟨S_, .i32⟩ : BufTy).Contents (Elt F) → (⟨S4096, .i32⟩ : BufTy).Contents (Elt F)),
    binary main_arg0 main_v79 main_v80 (cmpi .slt : (⟨S4096, .i32⟩ : BufTy).Contents (Elt F) → (⟨S4096, .i32⟩ : BufTy).Contents (Elt F) → (⟨S4096, .i1⟩ : BufTy).Contents (Elt F)),
    nullary main_c_11 (constantI S_ 32 150000#32),
    unary main_c_11 main_v81 (broadcastInDim S4096 ![] bcast_S_S4096 : (⟨S_, .i32⟩ : BufTy).Contents (Elt F) → (⟨S4096, .i32⟩ : BufTy).Contents (Elt F)),
    binary main_arg0 main_v81 main_v82 (addi : (⟨S4096, .i32⟩ : BufTy).Contents (Elt F) → (⟨S4096, .i32⟩ : BufTy).Contents (Elt F) → (⟨S4096, .i32⟩ : BufTy).Contents (Elt F)),
    ternary main_v80 main_v82 main_arg0 main_v83 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v83 main_v84 (broadcastInDim S4096x1 ![0] bcast_S4096_S4096x1_0 : (⟨S4096, .i32⟩ : BufTy).Contents (Elt F) → (⟨S4096x1, .i32⟩ : BufTy).Contents (Elt F)),
    binary main_v78 main_v84 main_v85 ((fun x i => Host.gather gather_S150000x230_S4096x1_S4096x230_1_0_n_n_0_1_1230 x i) : (⟨S150000x230, .f32⟩ : BufTy).Contents (Elt F) → (⟨S4096x1, .i32⟩ : BufTy).Contents (Elt F) → (⟨S4096x230, .f32⟩ : BufTy).Contents (Elt F)),
    nullary main_c_12 (constantI S_ 32 0#32),
    unary main_c_12 main_v86 (broadcastInDim S4096 ![] bcast_S_S4096 : (⟨S_, .i32⟩ : BufTy).Contents (Elt F) → (⟨S4096, .i32⟩ : BufTy).Contents (Elt F)),
    binary main_arg1 main_v86 main_v87 (cmpi .slt : (⟨S4096, .i32⟩ : BufTy).Contents (Elt F) → (⟨S4096, .i32⟩ : BufTy).Contents (Elt F) → (⟨S4096, .i1⟩ : BufTy).Contents (Elt F)),
    nullary main_c_13 (constantI S_ 32 150000#32),
    unary main_c_13 main_v88 (broadcastInDim S4096 ![] bcast_S_S4096 : (⟨S_, .i32⟩ : BufTy).Contents (Elt F) → (⟨S4096, .i32⟩ : BufTy).Contents (Elt F)),
    binary main_arg1 main_v88 main_v89 (addi : (⟨S4096, .i32⟩ : BufTy).Contents (Elt F) → (⟨S4096, .i32⟩ : BufTy).Contents (Elt F) → (⟨S4096, .i32⟩ : BufTy).Contents (Elt F)),
    ternary main_v87 main_v89 main_arg1 main_v90 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v90 main_v91 (broadcastInDim S4096x1 ![0] bcast_S4096_S4096x1_0 : (⟨S4096, .i32⟩ : BufTy).Contents (Elt F) → (⟨S4096x1, .i32⟩ : BufTy).Contents (Elt F)),
    binary main_v78 main_v91 main_v92 ((fun x i => Host.gather gather_S150000x230_S4096x1_S4096x230_1_0_n_n_0_1_1230 x i) : (⟨S150000x230, .f32⟩ : BufTy).Contents (Elt F) → (⟨S4096x1, .i32⟩ : BufTy).Contents (Elt F) → (⟨S4096x230, .f32⟩ : BufTy).Contents (Elt F)),
    binary main_v85 main_v92 main_v93 ((fun a b => concatenate S4096x460 1 [⟨S4096x230, a⟩, ⟨S4096x230, b⟩] concatenates_S4096x230_S4096x230_S4096x460_d1) : (⟨S4096x230, .f32⟩ : BufTy).Contents (Elt F) → (⟨S4096x230, .f32⟩ : BufTy).Contents (Elt F) → (⟨S4096x460, .f32⟩ : BufTy).Contents (Elt F)) ]

/-- Operations 115–130: the scoring head and the final recast (the last writes `main_v107`). -/
abbrev opsJ : List (HloOp τ sig (Elt F)) :=
  [ binary main_v93 main_arg15 main_v94 ((fun l r => Host.dotGeneral dot_S4096x460_S460x64_S4096x64_1_0_0_1_n_n none l r) : (⟨S4096x460, .f32⟩ : BufTy).Contents (Elt F) → (⟨S460x64, .f32⟩ : BufTy).Contents (Elt F) → (⟨S4096x64, .f32⟩ : BufTy).Contents (Elt F)),
    unary main_arg16 main_v95 (broadcastInDim S1x64 ![1] bcast_S64_S1x64_1 : (⟨S64, .f32⟩ : BufTy).Contents (Elt F) → (⟨S1x64, .f32⟩ : BufTy).Contents (Elt F)),
    unary main_v95 main_v96 (broadcastInDim S4096x64 ![0, 1] bcast_S1x64_S4096x64_0_1 : (⟨S1x64, .f32⟩ : BufTy).Contents (Elt F) → (⟨S4096x64, .f32⟩ : BufTy).Contents (Elt F)),
    binary main_v94 main_v96 main_v97 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x64, .f32⟩) main_call2_v0) (broadcastInDim S4096x64 ![] bcast_S_S4096x64),
    TRef.binary (TRef.of (T := ⟨S4096x64, .f32⟩) main_v97) (TRef.of (T := ⟨S4096x64, .f32⟩) main_call2_v0) (TRef.of (T := ⟨S4096x64, .f32⟩) main_v98) maximumf,
    binary main_v98 main_arg17 main_v99 ((fun l r => Host.dotGeneral dot_S4096x64_S64x32_S4096x32_1_0_0_1_n_n none l r) : (⟨S4096x64, .f32⟩ : BufTy).Contents (Elt F) → (⟨S64x32, .f32⟩ : BufTy).Contents (Elt F) → (⟨S4096x32, .f32⟩ : BufTy).Contents (Elt F)),
    unary main_arg18 main_v100 (broadcastInDim S1x32 ![1] bcast_S32_S1x32_1 : (⟨S32, .f32⟩ : BufTy).Contents (Elt F) → (⟨S1x32, .f32⟩ : BufTy).Contents (Elt F)),
    unary main_v100 main_v101 (broadcastInDim S4096x32 ![0, 1] bcast_S1x32_S4096x32_0_1 : (⟨S1x32, .f32⟩ : BufTy).Contents (Elt F) → (⟨S4096x32, .f32⟩ : BufTy).Contents (Elt F)),
    binary main_v99 main_v101 main_v102 (addf : (⟨S4096x32, .f32⟩ : BufTy).Contents (Elt F) → (⟨S4096x32, .f32⟩ : BufTy).Contents (Elt F) → (⟨S4096x32, .f32⟩ : BufTy).Contents (Elt F)),
    binary main_v102 main_arg19 main_v103 ((fun l r => Host.dotGeneral dot_S4096x32_S32x1_S4096x1_1_0_0_1_n_n none l r) : (⟨S4096x32, .f32⟩ : BufTy).Contents (Elt F) → (⟨S32x1, .f32⟩ : BufTy).Contents (Elt F) → (⟨S4096x1, .f32⟩ : BufTy).Contents (Elt F)),
    unary main_arg20 main_v104 (broadcastInDim S1x1 ![1] bcast_S1_S1x1_1 : (⟨S1, .f32⟩ : BufTy).Contents (Elt F) → (⟨S1x1, .f32⟩ : BufTy).Contents (Elt F)),
    unary main_v104 main_v105 (broadcastInDim S4096x1 ![0, 1] bcast_S1x1_S4096x1_0_1 : (⟨S1x1, .f32⟩ : BufTy).Contents (Elt F) → (⟨S4096x1, .f32⟩ : BufTy).Contents (Elt F)),
    binary main_v103 main_v105 main_v106 (addf : (⟨S4096x1, .f32⟩ : BufTy).Contents (Elt F) → (⟨S4096x1, .f32⟩ : BufTy).Contents (Elt F) → (⟨S4096x1, .f32⟩ : BufTy).Contents (Elt F)),
    reshape main_v106 main_v107 rfl shapeCasts_S4096x1_S4096 ]

set_option maxRecDepth 8192 in
/-- The line is its ten stages, one after the other. -/
theorem ops_split : (ops : List (HloOp τ sig (Elt F))) = opsA ++ opsB ++ opsC ++ opsD ++ opsE ++ opsF ++ opsG ++ opsH ++ opsI ++ opsJ := rfl

/-- Folding a concatenation: first the first part, then the second from what the first leaves. -/
theorem after_append : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_append l₁ l₂]

/-! ## The run -/

/-- Every weakly fair execution of the reference from a launch memory `m` ends, with every array at the fold of the
    operations over its device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (fun b => m (c, b)) (Proc.devRef .tc b) :=
  run_seq scopedRefs_eq scopedSems_eq defs main (fun _ => ops) main_eq (fun _ => ops_sub) m ρ

/-! ## What the line leaves alone -/

/-- The arrays the operations write, one each, in order. -/
def written : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_c_1, main_v21, main_v22, main_c_2, main_v23, main_v24, main_v25, main_v26, main_v27, main_v28, main_v29, main_cst_3, main_v30, main_v31, main_v32, main_v33, main_v34, main_v35, main_v36, main_v37, main_call0_cst, main_call0_v0, main_v38, main_v39, main_v40, main_c_4, main_v41, main_v42, main_c_5, main_v43, main_v44, main_v45, main_v46, main_v47, main_v48, main_v49, main_cst_6, main_v50, main_v51, main_v52, main_v53, main_v54, main_v55, main_v56, main_v57, main_v58, main_v59, main_c_7, main_v60, main_v61, main_c_8, main_v62, main_v63, main_v64, main_v65, main_v66, main_v67, main_v68, main_cst_9, main_v69, main_v70, main_v71, main_v72, main_v73, main_v74, main_v75, main_v76, main_call1_cst, main_call1_v0, main_v77, main_v78, main_c_10, main_v79, main_v80, main_c_11, main_v81, main_v82, main_v83, main_v84, main_v85, main_c_12, main_v86, main_v87, main_c_13, main_v88, main_v89, main_v90, main_v91, main_v92, main_v93, main_v94, main_v95, main_v96, main_v97, main_call2_cst, main_call2_v0, main_v98, main_v99, main_v100, main_v101, main_v102, main_v103, main_v104, main_v105, main_v106, main_v107]

/-- Each operation writes only its own result, which is in the list. -/
theorem ops_covers : (ops : List (HloOp τ sig (Elt F))).Forall fun op => op.writes ⊆ (written.map (Proc.devRef (τ := τ) .tc)).toFinset := by
  simp only [ops, List.Forall, StableHlo.nullary_writes, StableHlo.unary_writes, StableHlo.binary_writes,
    StableHlo.ternary_writes, StableHlo.reshape_writes, Finset.singleton_subset_iff, written, List.map_cons, List.map_nil,
    List.toFinset_cons, List.toFinset_nil, Finset.mem_insert, Finset.mem_singleton, true_or, or_true, and_self]

/-- An array no operation writes holds after the line what it held before. -/
theorem kept (V : Valuation τ sig (Elt F)) (r : Ref sig .tc) (hr : r ∉ written) :
    StableHlo.after ops V (Proc.devRef .tc r) = V (Proc.devRef .tc r) :=
  StableHlo.after_of_writes_sub ops V ops_covers hr

section
variable (m : (ℓ : Loc nD τ sig) → Buf (Elt F) ℓ) (c : Dev nD)

/-! Every argument ends as launched. -/
theorem arg0_kept : StableHlo.after ops (fun b => m (c, b)) (Proc.devRef .tc main_arg0) = m ((c.tc : Thread nD τ).loc main_arg0) :=
  kept _ main_arg0 (by decide)
theorem arg1_kept : StableHlo.after ops (fun b => m (c, b)) (Proc.devRef .tc main_arg1) = m ((c.tc : Thread nD τ).loc main_arg1) :=
  kept _ main_arg1 (by decide)
theorem arg2_kept : StableHlo.after ops (fun b => m (c, b)) (Proc.devRef .tc main_arg2) = m ((c.tc : Thread nD τ).loc main_arg2) :=
  kept _ main_arg2 (by decide)
theorem arg3_kept : StableHlo.after ops (fun b => m (c, b)) (Proc.devRef .tc main_arg3) = m ((c.tc : Thread nD τ).loc main_arg3) :=
  kept _ main_arg3 (by decide)
theorem arg4_kept : StableHlo.after ops (fun b => m (c, b)) (Proc.devRef .tc main_arg4) = m ((c.tc : Thread nD τ).loc main_arg4) :=
  kept _ main_arg4 (by decide)
theorem arg5_kept : StableHlo.after ops (fun b => m (c, b)) (Proc.devRef .tc main_arg5) = m ((c.tc : Thread nD τ).loc main_arg5) :=
  kept _ main_arg5 (by decide)
theorem arg6_kept : StableHlo.after ops (fun b => m (c, b)) (Proc.devRef .tc main_arg6) = m ((c.tc : Thread nD τ).loc main_arg6) :=
  kept _ main_arg6 (by decide)
theorem arg7_kept : StableHlo.after ops (fun b => m (c, b)) (Proc.devRef .tc main_arg7) = m ((c.tc : Thread nD τ).loc main_arg7) :=
  kept _ main_arg7 (by decide)
theorem arg8_kept : StableHlo.after ops (fun b => m (c, b)) (Proc.devRef .tc main_arg8) = m ((c.tc : Thread nD τ).loc main_arg8) :=
  kept _ main_arg8 (by decide)
theorem arg9_kept : StableHlo.after ops (fun b => m (c, b)) (Proc.devRef .tc main_arg9) = m ((c.tc : Thread nD τ).loc main_arg9) :=
  kept _ main_arg9 (by decide)
theorem arg10_kept : StableHlo.after ops (fun b => m (c, b)) (Proc.devRef .tc main_arg10) = m ((c.tc : Thread nD τ).loc main_arg10) :=
  kept _ main_arg10 (by decide)
theorem arg11_kept : StableHlo.after ops (fun b => m (c, b)) (Proc.devRef .tc main_arg11) = m ((c.tc : Thread nD τ).loc main_arg11) :=
  kept _ main_arg11 (by decide)
theorem arg12_kept : StableHlo.after ops (fun b => m (c, b)) (Proc.devRef .tc main_arg12) = m ((c.tc : Thread nD τ).loc main_arg12) :=
  kept _ main_arg12 (by decide)
theorem arg13_kept : StableHlo.after ops (fun b => m (c, b)) (Proc.devRef .tc main_arg13) = m ((c.tc : Thread nD τ).loc main_arg13) :=
  kept _ main_arg13 (by decide)
theorem arg14_kept : StableHlo.after ops (fun b => m (c, b)) (Proc.devRef .tc main_arg14) = m ((c.tc : Thread nD τ).loc main_arg14) :=
  kept _ main_arg14 (by decide)
theorem arg15_kept : StableHlo.after ops (fun b => m (c, b)) (Proc.devRef .tc main_arg15) = m ((c.tc : Thread nD τ).loc main_arg15) :=
  kept _ main_arg15 (by decide)
theorem arg16_kept : StableHlo.after ops (fun b => m (c, b)) (Proc.devRef .tc main_arg16) = m ((c.tc : Thread nD τ).loc main_arg16) :=
  kept _ main_arg16 (by decide)
theorem arg17_kept : StableHlo.after ops (fun b => m (c, b)) (Proc.devRef .tc main_arg17) = m ((c.tc : Thread nD τ).loc main_arg17) :=
  kept _ main_arg17 (by decide)
theorem arg18_kept : StableHlo.after ops (fun b => m (c, b)) (Proc.devRef .tc main_arg18) = m ((c.tc : Thread nD τ).loc main_arg18) :=
  kept _ main_arg18 (by decide)
theorem arg19_kept : StableHlo.after ops (fun b => m (c, b)) (Proc.devRef .tc main_arg19) = m ((c.tc : Thread nD τ).loc main_arg19) :=
  kept _ main_arg19 (by decide)
theorem arg20_kept : StableHlo.after ops (fun b => m (c, b)) (Proc.devRef .tc main_arg20) = m ((c.tc : Thread nD τ).loc main_arg20) :=
  kept _ main_arg20 (by decide)

end

end Cert.ReferenceIdeal.Hand

end
-- ==== Proof.RefStages.lean ====
/-
  The network's intermediate arrays as named functions of its arguments.

  The reference computation is a straight line of array operations. Each stage below is one operation's result written
  as a function of the arguments it depends on, through the stages before it: the stacked user and item embeddings; two
  message-passing layers, each propagating features along the weighted edges (a gather of source rows, a scaling by
  the edge weight, a sum into target rows), forming an entrywise product and sum with the layer's own features, and
  ending in max(0, (S·W + b) + (P·Wi + bi)); the three feature blocks joined column-wise; the batch's user and item
  rows gathered and joined; and the scoring head's three affine maps. The argument x_k is the k-th argument of the
  computation; a stage mentions only the arguments it depends on.
-/
import proofs.«133995_j16355235463443_1_alg».proof.Proof.Gen.ReferenceIdeal

noncomputable section

namespace Cert.ReferenceIdeal.Stages

open Cert.ReferenceIdeal Cert.ReferenceIdeal.Gen Idealize.ShloMosaic

variable {F : FTy → Type} [FloatOps F]

/-! ## The stacked embeddings X (users above items) and the first propagation L·X: for every edge the weight times the source node's row, summed into the target node's row -/

def val_main_v0 (x5 : (⟨S100000x100, .f32⟩ : BufTy).Contents (Elt F)) (x6 : (⟨S50000x100, .f32⟩ : BufTy).Contents (Elt F)) : (⟨S150000x100, .f32⟩ : BufTy).Contents (Elt F) :=
  concatenate S150000x100 0 [⟨S100000x100, (x5)⟩, ⟨S50000x100, (x6)⟩] concatenates_S100000x100_S50000x100_S150000x100_d0
def val_main_v1 (x4 : (⟨S1500000, .f32⟩ : BufTy).Contents (Elt F)) : (⟨S1500000x1, .f32⟩ : BufTy).Contents (Elt F) :=
  broadcastInDim S1500000x1 ![0] bcast_S1500000_S1500000x1_0 (x4)
def val_main_c : (⟨S_, .i32⟩ : BufTy).Contents (Elt F) :=
  constantI S_ 32 0#32
def val_main_v2 : (⟨S1500000, .i32⟩ : BufTy).Contents (Elt F) :=
  broadcastInDim S1500000 ![] bcast_S_S1500000 (val_main_c (F := F))
def val_main_v3 (x3 : (⟨S1500000, .i32⟩ : BufTy).Contents (Elt F)) : (⟨S1500000, .i1⟩ : BufTy).Contents (Elt F) :=
  cmpi .slt (x3) (val_main_v2 (F := F))
def val_main_c_0 : (⟨S_, .i32⟩ : BufTy).Contents (Elt F) :=
  constantI S_ 32 150000#32
def val_main_v4 : (⟨S1500000, .i32⟩ : BufTy).Contents (Elt F) :=
  broadcastInDim S1500000 ![] bcast_S_S1500000 (val_main_c_0 (F := F))
def val_main_v5 (x3 : (⟨S1500000, .i32⟩ : BufTy).Contents (Elt F)) : (⟨S1500000, .i32⟩ : BufTy).Contents (Elt F) :=
  addi (x3) (val_main_v4 (F := F))
def val_main_v6 (x3 : (⟨S1500000, .i32⟩ : BufTy).Contents (Elt F)) : (⟨S1500000, .i32⟩ : BufTy).Contents (Elt F) :=
  select (val_main_v3 (F := F) x3) (val_main_v5 (F := F) x3) (x3)
def val_main_v7 (x3 : (⟨S1500000, .i32⟩ : BufTy).Contents (Elt F)) : (⟨S1500000x1, .i32⟩ : BufTy).Contents (Elt F) :=
  broadcastInDim S1500000x1 ![0] bcast_S1500000_S1500000x1_0 (val_main_v6 (F := F) x3)
def val_main_v8 (x3 : (⟨S1500000, .i32⟩ : BufTy).Contents (Elt F)) (x5 : (⟨S100000x100, .f32⟩ : BufTy).Contents (Elt F)) (x6 : (⟨S50000x100, .f32⟩ : BufTy).Contents (Elt F)) : (⟨S1500000x100, .f32⟩ : BufTy).Contents (Elt F) :=
  Host.gather gather_S150000x100_S1500000x1_S1500000x100_1_0_n_n_0_1_1100 (val_main_v0 (F := F) x5 x6) (val_main_v7 (F := F) x3)
def val_main_v9 (x4 : (⟨S1500000, .f32⟩ : BufTy).Contents (Elt F)) : (⟨S1500000x100, .f32⟩ : BufTy).Contents (Elt F) :=
  broadcastInDim S1500000x100 ![0, 1] bcast_S1500000x1_S1500000x100_0_1 (val_main_v1 (F := F) x4)
def val_main_v10 (x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S1500000x100, .f32⟩ : BufTy).Contents (Elt F) :=
  mulf (val_main_v9 (F := F) x4) (val_main_v8 (F := F) x3 x5 x6)
def val_main_cst : (⟨S_, .f32⟩ : BufTy).Contents (Elt F) :=
  constant S_ .f32 0x00000000#32
def val_main_v11 : (⟨S150000x100, .f32⟩ : BufTy).Contents (Elt F) :=
  broadcastInDim S150000x100 ![] bcast_S_S150000x100 (val_main_cst (F := F))
def val_main_v12 (x2 : (⟨S1500000, .i32⟩ : BufTy).Contents (Elt F)) : (⟨S1500000x1, .i32⟩ : BufTy).Contents (Elt F) :=
  broadcastInDim S1500000x1 ![0] bcast_S1500000_S1500000x1_0 (x2)
def val_main_v13 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S150000x100, .f32⟩ : BufTy).Contents (Elt F) :=
  Host.scatterAdd scatter_S150000x100_S1500000x1_S1500000x100_1_0_0_1 (val_main_v11 (F := F)) (val_main_v12 (F := F) x2) (val_main_v10 (F := F) x3 x4 x5 x6)

/-! ## Layer 1: the entrywise product (L·X) ⊙ X, the sum L·X + X, and the first affine part (L·X + X)·W + b -/

def val_main_v14 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S150000x100, .f32⟩ : BufTy).Contents (Elt F) :=
  mulf (val_main_v13 (F := F) x2 x3 x4 x5 x6) (val_main_v0 (F := F) x5 x6)
def val_main_v15 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S150000x100, .f32⟩ : BufTy).Contents (Elt F) :=
  addf (val_main_v13 (F := F) x2 x3 x4 x5 x6) (val_main_v0 (F := F) x5 x6)
def val_main_v16 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) : (⟨S150000x80, .f32⟩ : BufTy).Contents (Elt F) :=
  Host.dotGeneral dot_S150000x100_S100x80_S150000x80_1_0_0_1_n_n none (val_main_v15 (F := F) x2 x3 x4 x5 x6) (x7)
def val_main_v17 (x8 : (⟨S80, .f32⟩ : BufTy).Contents (Elt F)) : (⟨S1x80, .f32⟩ : BufTy).Contents (Elt F) :=
  broadcastInDim S1x80 ![1] bcast_S80_S1x80_1 (x8)
def val_main_v18 (x8 : (⟨S80, .f32⟩ : BufTy).Contents (Elt F)) : (⟨S150000x80, .f32⟩ : BufTy).Contents (Elt F) :=
  broadcastInDim S150000x80 ![0, 1] bcast_S1x80_S150000x80_0_1 (val_main_v17 (F := F) x8)
def val_main_v19 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) : (⟨S150000x80, .f32⟩ : BufTy).Contents (Elt F) :=
  addf (val_main_v16 (F := F) x2 x3 x4 x5 x6 x7) (val_main_v18 (F := F) x8)

/-! ## Layer 1: the product propagated again, L·((L·X) ⊙ X) -/

def val_main_v20 (x4 : (⟨S1500000, .f32⟩ : BufTy).Contents (Elt F)) : (⟨S1500000x1, .f32⟩ : BufTy).Contents (Elt F) :=
  broadcastInDim S1500000x1 ![0] bcast_S1500000_S1500000x1_0 (x4)
def val_main_c_1 : (⟨S_, .i32⟩ : BufTy).Contents (Elt F) :=
  constantI S_ 32 0#32
def val_main_v21 : (⟨S1500000, .i32⟩ : BufTy).Contents (Elt F) :=
  broadcastInDim S1500000 ![] bcast_S_S1500000 (val_main_c_1 (F := F))
def val_main_v22 (x3 : (⟨S1500000, .i32⟩ : BufTy).Contents (Elt F)) : (⟨S1500000, .i1⟩ : BufTy).Contents (Elt F) :=
  cmpi .slt (x3) (val_main_v21 (F := F))
def val_main_c_2 : (⟨S_, .i32⟩ : BufTy).Contents (Elt F) :=
  constantI S_ 32 150000#32
def val_main_v23 : (⟨S1500000, .i32⟩ : BufTy).Contents (Elt F) :=
  broadcastInDim S1500000 ![] bcast_S_S1500000 (val_main_c_2 (F := F))
def val_main_v24 (x3 : (⟨S1500000, .i32⟩ : BufTy).Contents (Elt F)) : (⟨S1500000, .i32⟩ : BufTy).Contents (Elt F) :=
  addi (x3) (val_main_v23 (F := F))
def val_main_v25 (x3 : (⟨S1500000, .i32⟩ : BufTy).Contents (Elt F)) : (⟨S1500000, .i32⟩ : BufTy).Contents (Elt F) :=
  select (val_main_v22 (F := F) x3) (val_main_v24 (F := F) x3) (x3)
def val_main_v26 (x3 : (⟨S1500000, .i32⟩ : BufTy).Contents (Elt F)) : (⟨S1500000x1, .i32⟩ : BufTy).Contents (Elt F) :=
  broadcastInDim S1500000x1 ![0] bcast_S1500000_S1500000x1_0 (val_main_v25 (F := F) x3)
def val_main_v27 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S1500000x100, .f32⟩ : BufTy).Contents (Elt F) :=
  Host.gather gather_S150000x100_S1500000x1_S1500000x100_1_0_n_n_0_1_1100 (val_main_v14 (F := F) x2 x3 x4 x5 x6) (val_main_v26 (F := F) x3)
def val_main_v28 (x4 : (⟨S1500000, .f32⟩ : BufTy).Contents (Elt F)) : (⟨S1500000x100, .f32⟩ : BufTy).Contents (Elt F) :=
  broadcastInDim S1500000x100 ![0, 1] bcast_S1500000x1_S1500000x100_0_1 (val_main_v20 (F := F) x4)
def val_main_v29 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S1500000x100, .f32⟩ : BufTy).Contents (Elt F) :=
  mulf (val_main_v28 (F := F) x4) (val_main_v27 (F := F) x2 x3 x4 x5 x6)
def val_main_cst_3 : (⟨S_, .f32⟩ : BufTy).Contents (Elt F) :=
  constant S_ .f32 0x00000000#32
def val_main_v30 : (⟨S150000x100, .f32⟩ : BufTy).Contents (Elt F) :=
  broadcastInDim S150000x100 ![] bcast_S_S150000x100 (val_main_cst_3 (F := F))
def val_main_v31 (x2 : (⟨S1500000, .i32⟩ : BufTy).Contents (Elt F)) : (⟨S1500000x1, .i32⟩ : BufTy).Contents (Elt F) :=
  broadcastInDim S1500000x1 ![0] bcast_S1500000_S1500000x1_0 (x2)
def val_main_v32 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) : (⟨S150000x100, .f32⟩ : BufTy).Contents (Elt F) :=
  Host.scatterAdd scatter_S150000x100_S1500000x1_S1500000x100_1_0_0_1 (val_main_v30 (F := F)) (val_main_v31 (F := F) x2) (val_main_v29 (F := F) x2 x3 x4 x5 x6)

/-! ## Layer 1: the second affine part, the two parts added, and the layer's output F1 = max(0, ·) -/

def val_main_v33 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x9 : (⟨S100x80, .f32⟩ : BufTy).Contents (Elt F)) : (⟨S150000x80, .f32⟩ : BufTy).Contents (Elt F) :=
  Host.dotGeneral dot_S150000x100_S100x80_S150000x80_1_0_0_1_n_n none (val_main_v32 (F := F) x2 x3 x4 x5 x6) (x9)
def val_main_v34 (x10 : (⟨S80, .f32⟩ : BufTy).Contents (Elt F)) : (⟨S1x80, .f32⟩ : BufTy).Contents (Elt F) :=
  broadcastInDim S1x80 ![1] bcast_S80_S1x80_1 (x10)
def val_main_v35 (x10 : (⟨S80, .f32⟩ : BufTy).Contents (Elt F)) : (⟨S150000x80, .f32⟩ : BufTy).Contents (Elt F) :=
  broadcastInDim S150000x80 ![0, 1] bcast_S1x80_S150000x80_0_1 (val_main_v34 (F := F) x10)
def val_main_v36 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  addf (val_main_v33 (F := F) x2 x3 x4 x5 x6 x9) (val_main_v35 (F := F) x10)
def val_main_v37 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  addf (val_main_v19 (F := F) x2 x3 x4 x5 x6 x7 x8) (val_main_v36 (F := F) x2 x3 x4 x5 x6 x9 x10)
def val_main_call0_cst : (⟨S_, .f32⟩ : BufTy).Contents (Elt F) :=
  constant S_ .f32 0x00000000#32
def val_main_call0_v0 : (⟨S150000x80, .f32⟩ : BufTy).Contents (Elt F) :=
  broadcastInDim S150000x80 ![] bcast_S_S150000x80 (val_main_call0_cst (F := F))
def val_main_v38 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  maximumf (val_main_v37 (F := F) x2 x3 x4 x5 x6 x7 x8 x9 x10) (val_main_call0_v0 (F := F))

/-! ## The embeddings joined with F1 column-wise, and the propagation L·F1 -/

def val_main_v39 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x180, .f32⟩ : BufTy).Contents (Elt F) :=
  concatenate S150000x180 1 [⟨S150000x100, (val_main_v0 (F := F) x5 x6)⟩, ⟨S150000x80, (val_main_v38 (F := F) x2 x3 x4 x5 x6 x7 x8 x9 x10)⟩] concatenates_S150000x100_S150000x80_S150000x180_d1
def val_main_v40 (x4 : (⟨S1500000, .f32⟩ : BufTy).Contents (Elt F)) : (⟨S1500000x1, .f32⟩ : BufTy).Contents (Elt F) :=
  broadcastInDim S1500000x1 ![0] bcast_S1500000_S1500000x1_0 (x4)
def val_main_c_4 : (⟨S_, .i32⟩ : BufTy).Contents (Elt F) :=
  constantI S_ 32 0#32
def val_main_v41 : (⟨S1500000, .i32⟩ : BufTy).Contents (Elt F) :=
  broadcastInDim S1500000 ![] bcast_S_S1500000 (val_main_c_4 (F := F))
def val_main_v42 (x3 : (⟨S1500000, .i32⟩ : BufTy).Contents (Elt F)) : (⟨S1500000, .i1⟩ : BufTy).Contents (Elt F) :=
  cmpi .slt (x3) (val_main_v41 (F := F))
def val_main_c_5 : (⟨S_, .i32⟩ : BufTy).Contents (Elt F) :=
  constantI S_ 32 150000#32
def val_main_v43 : (⟨S1500000, .i32⟩ : BufTy).Contents (Elt F) :=
  broadcastInDim S1500000 ![] bcast_S_S1500000 (val_main_c_5 (F := F))
def val_main_v44 (x3 : (⟨S1500000, .i32⟩ : BufTy).Contents (Elt F)) : (⟨S1500000, .i32⟩ : BufTy).Contents (Elt F) :=
  addi (x3) (val_main_v43 (F := F))
def val_main_v45 (x3 : (⟨S1500000, .i32⟩ : BufTy).Contents (Elt F)) : (⟨S1500000, .i32⟩ : BufTy).Contents (Elt F) :=
  select (val_main_v42 (F := F) x3) (val_main_v44 (F := F) x3) (x3)
def val_main_v46 (x3 : (⟨S1500000, .i32⟩ : BufTy).Contents (Elt F)) : (⟨S1500000x1, .i32⟩ : BufTy).Contents (Elt F) :=
  broadcastInDim S1500000x1 ![0] bcast_S1500000_S1500000x1_0 (val_main_v45 (F := F) x3)
def val_main_v47 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S1500000x80, .f32⟩ : BufTy).Contents (Elt F) :=
  Host.gather gather_S150000x80_S1500000x1_S1500000x80_1_0_n_n_0_1_180 (val_main_v38 (F := F) x2 x3 x4 x5 x6 x7 x8 x9 x10) (val_main_v46 (F := F) x3)
def val_main_v48 (x4 : (⟨S1500000, .f32⟩ : BufTy).Contents (Elt F)) : (⟨S1500000x80, .f32⟩ : BufTy).Contents (Elt F) :=
  broadcastInDim S1500000x80 ![0, 1] bcast_S1500000x1_S1500000x80_0_1 (val_main_v40 (F := F) x4)
def val_main_v49 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S1500000x80, .f32⟩ : BufTy).Contents (Elt F) :=
  mulf (val_main_v48 (F := F) x4) (val_main_v47 (F := F) x2 x3 x4 x5 x6 x7 x8 x9 x10)
def val_main_cst_6 : (⟨S_, .f32⟩ : BufTy).Contents (Elt F) :=
  constant S_ .f32 0x00000000#32
def val_main_v50 : (⟨S150000x80, .f32⟩ : BufTy).Contents (Elt F) :=
  broadcastInDim S150000x80 ![] bcast_S_S150000x80 (val_main_cst_6 (F := F))
def val_main_v51 (x2 : (⟨S1500000, .i32⟩ : BufTy).Contents (Elt F)) : (⟨S1500000x1, .i32⟩ : BufTy).Contents (Elt F) :=
  broadcastInDim S1500000x1 ![0] bcast_S1500000_S1500000x1_0 (x2)
def val_main_v52 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  Host.scatterAdd scatter_S150000x80_S1500000x1_S1500000x80_1_0_0_1 (val_main_v50 (F := F)) (val_main_v51 (F := F) x2) (val_main_v49 (F := F) x2 x3 x4 x5 x6 x7 x8 x9 x10)

/-! ## Layer 2: the entrywise product and sum with F1, and the first affine part -/

def val_main_v53 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  mulf (val_main_v52 (F := F) x2 x3 x4 x5 x6 x7 x8 x9 x10) (val_main_v38 (F := F) x2 x3 x4 x5 x6 x7 x8 x9 x10)
def val_main_v54 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  addf (val_main_v52 (F := F) x2 x3 x4 x5 x6 x7 x8 x9 x10) (val_main_v38 (F := F) x2 x3 x4 x5 x6 x7 x8 x9 x10)
def val_main_v55 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) : (⟨S150000x50, .f32⟩ : BufTy).Contents (Elt F) :=
  Host.dotGeneral dot_S150000x80_S80x50_S150000x50_1_0_0_1_n_n none (val_main_v54 (F := F) x2 x3 x4 x5 x6 x7 x8 x9 x10) (x11)
def val_main_v56 (x12 : (⟨S50, .f32⟩ : BufTy).Contents (Elt F)) : (⟨S1x50, .f32⟩ : BufTy).Contents (Elt F) :=
  broadcastInDim S1x50 ![1] bcast_S50_S1x50_1 (x12)
def val_main_v57 (x12 : (⟨S50, .f32⟩ : BufTy).Contents (Elt F)) : (⟨S150000x50, .f32⟩ : BufTy).Contents (Elt F) :=
  broadcastInDim S150000x50 ![0, 1] bcast_S1x50_S150000x50_0_1 (val_main_v56 (F := F) x12)
def val_main_v58 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) : (⟨S150000x50, .f32⟩ : BufTy).Contents (Elt F) :=
  addf (val_main_v55 (F := F) x2 x3 x4 x5 x6 x7 x8 x9 x10 x11) (val_main_v57 (F := F) x12)

/-! ## Layer 2: the product propagated again -/

def val_main_v59 (x4 : (⟨S1500000, .f32⟩ : BufTy).Contents (Elt F)) : (⟨S1500000x1, .f32⟩ : BufTy).Contents (Elt F) :=
  broadcastInDim S1500000x1 ![0] bcast_S1500000_S1500000x1_0 (x4)
def val_main_c_7 : (⟨S_, .i32⟩ : BufTy).Contents (Elt F) :=
  constantI S_ 32 0#32
def val_main_v60 : (⟨S1500000, .i32⟩ : BufTy).Contents (Elt F) :=
  broadcastInDim S1500000 ![] bcast_S_S1500000 (val_main_c_7 (F := F))
def val_main_v61 (x3 : (⟨S1500000, .i32⟩ : BufTy).Contents (Elt F)) : (⟨S1500000, .i1⟩ : BufTy).Contents (Elt F) :=
  cmpi .slt (x3) (val_main_v60 (F := F))
def val_main_c_8 : (⟨S_, .i32⟩ : BufTy).Contents (Elt F) :=
  constantI S_ 32 150000#32
def val_main_v62 : (⟨S1500000, .i32⟩ : BufTy).Contents (Elt F) :=
  broadcastInDim S1500000 ![] bcast_S_S1500000 (val_main_c_8 (F := F))
def val_main_v63 (x3 : (⟨S1500000, .i32⟩ : BufTy).Contents (Elt F)) : (⟨S1500000, .i32⟩ : BufTy).Contents (Elt F) :=
  addi (x3) (val_main_v62 (F := F))
def val_main_v64 (x3 : (⟨S1500000, .i32⟩ : BufTy).Contents (Elt F)) : (⟨S1500000, .i32⟩ : BufTy).Contents (Elt F) :=
  select (val_main_v61 (F := F) x3) (val_main_v63 (F := F) x3) (x3)
def val_main_v65 (x3 : (⟨S1500000, .i32⟩ : BufTy).Contents (Elt F)) : (⟨S1500000x1, .i32⟩ : BufTy).Contents (Elt F) :=
  broadcastInDim S1500000x1 ![0] bcast_S1500000_S1500000x1_0 (val_main_v64 (F := F) x3)
def val_main_v66 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S1500000x80, .f32⟩ : BufTy).Contents (Elt F) :=
  Host.gather gather_S150000x80_S1500000x1_S1500000x80_1_0_n_n_0_1_180 (val_main_v53 (F := F) x2 x3 x4 x5 x6 x7 x8 x9 x10) (val_main_v65 (F := F) x3)
def val_main_v67 (x4 : (⟨S1500000, .f32⟩ : BufTy).Contents (Elt F)) : (⟨S1500000x80, .f32⟩ : BufTy).Contents (Elt F) :=
  broadcastInDim S1500000x80 ![0, 1] bcast_S1500000x1_S1500000x80_0_1 (val_main_v59 (F := F) x4)
def val_main_v68 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S1500000x80, .f32⟩ : BufTy).Contents (Elt F) :=
  mulf (val_main_v67 (F := F) x4) (val_main_v66 (F := F) x2 x3 x4 x5 x6 x7 x8 x9 x10)
def val_main_cst_9 : (⟨S_, .f32⟩ : BufTy).Contents (Elt F) :=
  constant S_ .f32 0x00000000#32
def val_main_v69 : (⟨S150000x80, .f32⟩ : BufTy).Contents (Elt F) :=
  broadcastInDim S150000x80 ![] bcast_S_S150000x80 (val_main_cst_9 (F := F))
def val_main_v70 (x2 : (⟨S1500000, .i32⟩ : BufTy).Contents (Elt F)) : (⟨S1500000x1, .i32⟩ : BufTy).Contents (Elt F) :=
  broadcastInDim S1500000x1 ![0] bcast_S1500000_S1500000x1_0 (x2)
def val_main_v71 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) : (⟨S150000x80, .f32⟩ : BufTy).Contents (Elt F) :=
  Host.scatterAdd scatter_S150000x80_S1500000x1_S1500000x80_1_0_0_1 (val_main_v69 (F := F)) (val_main_v70 (F := F) x2) (val_main_v68 (F := F) x2 x3 x4 x5 x6 x7 x8 x9 x10)

/-! ## Layer 2: the second affine part, the two parts added, and the layer's output F2 = max(0, ·) -/

def val_main_v72 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x13 : (⟨S80x50, .f32⟩ : BufTy).Contents (Elt F)) : (⟨S150000x50, .f32⟩ : BufTy).Contents (Elt F) :=
  Host.dotGeneral dot_S150000x80_S80x50_S150000x50_1_0_0_1_n_n none (val_main_v71 (F := F) x2 x3 x4 x5 x6 x7 x8 x9 x10) (x13)
def val_main_v73 (x14 : (⟨S50, .f32⟩ : BufTy).Contents (Elt F)) : (⟨S1x50, .f32⟩ : BufTy).Contents (Elt F) :=
  broadcastInDim S1x50 ![1] bcast_S50_S1x50_1 (x14)
def val_main_v74 (x14 : (⟨S50, .f32⟩ : BufTy).Contents (Elt F)) : (⟨S150000x50, .f32⟩ : BufTy).Contents (Elt F) :=
  broadcastInDim S150000x50 ![0, 1] bcast_S1x50_S150000x50_0_1 (val_main_v73 (F := F) x14)
def val_main_v75 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x13 : (⟨S80x50, .f32⟩ : BufTy).Contents (Elt F)) (x14 : (⟨S50, .f32⟩ : BufTy).Contents (Elt F)) : (⟨S150000x50, .f32⟩ : BufTy).Contents (Elt F) :=
  addf (val_main_v72 (F := F) x2 x3 x4 x5 x6 x7 x8 x9 x10 x13) (val_main_v74 (F := F) x14)
def val_main_v76 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) : (⟨S150000x50, .f32⟩ : BufTy).Contents (Elt F) :=
  addf (val_main_v58 (F := F) x2 x3 x4 x5 x6 x7 x8 x9 x10 x11 x12) (val_main_v75 (F := F) x2 x3 x4 x5 x6 x7 x8 x9 x10 x13 x14)
def val_main_call1_cst : (⟨S_, .f32⟩ : BufTy).Contents (Elt F) :=
  constant S_ .f32 0x00000000#32
def val_main_call1_v0 : (⟨S150000x50, .f32⟩ : BufTy).Contents (Elt F) :=
  broadcastInDim S150000x50 ![] bcast_S_S150000x50 (val_main_call1_cst (F := F))
def val_main_v77 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) : (⟨S150000x50, .f32⟩ : BufTy).Contents (Elt F) :=
  maximumf (val_main_v76 (F := F) x2 x3 x4 x5 x6 x7 x8 x9 x10 x11 x12 x13 x14) (val_main_call1_v0 (F := F))

/-! ## All three feature blocks joined column-wise; the rows of the batch's users and items gathered (a negative index counted from the end) and joined into one row per example -/

def val_main_v78 (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) : (⟨S150000x230, .f32⟩ : BufTy).Contents (Elt F) :=
  concatenate S150000x230 1 [⟨S150000x180, (val_main_v39 (F := F) x2 x3 x4 x5 x6 x7 x8 x9 x10)⟩, ⟨S150000x50, (val_main_v77 (F := F) x2 x3 x4 x5 x6 x7 x8 x9 x10 x11 x12 x13 x14)⟩] concatenates_S150000x180_S150000x50_S150000x230_d1
def val_main_c_10 : (⟨S_, .i32⟩ : BufTy).Contents (Elt F) :=
  constantI S_ 32 0#32
def val_main_v79 : (⟨S4096, .i32⟩ : BufTy).Contents (Elt F) :=
  broadcastInDim S4096 ![] bcast_S_S4096 (val_main_c_10 (F := F))
def val_main_v80 (x0 : (⟨S4096, .i32⟩ : BufTy).Contents (Elt F)) : (⟨S4096, .i1⟩ : BufTy).Contents (Elt F) :=
  cmpi .slt (x0) (val_main_v79 (F := F))
def val_main_c_11 : (⟨S_, .i32⟩ : BufTy).Contents (Elt F) :=
  constantI S_ 32 150000#32
def val_main_v81 : (⟨S4096, .i32⟩ : BufTy).Contents (Elt F) :=
  broadcastInDim S4096 ![] bcast_S_S4096 (val_main_c_11 (F := F))
def val_main_v82 (x0 : (⟨S4096, .i32⟩ : BufTy).Contents (Elt F)) : (⟨S4096, .i32⟩ : BufTy).Contents (Elt F) :=
  addi (x0) (val_main_v81 (F := F))
def val_main_v83 (x0 : (⟨S4096, .i32⟩ : BufTy).Contents (Elt F)) : (⟨S4096, .i32⟩ : BufTy).Contents (Elt F) :=
  select (val_main_v80 (F := F) x0) (val_main_v82 (F := F) x0) (x0)
def val_main_v84 (x0 : (⟨S4096, .i32⟩ : BufTy).Contents (Elt F)) : (⟨S4096x1, .i32⟩ : BufTy).Contents (Elt F) :=
  broadcastInDim S4096x1 ![0] bcast_S4096_S4096x1_0 (val_main_v83 (F := F) x0)
def val_main_v85 (x0 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) : (⟨S4096x230, .f32⟩ : BufTy).Contents (Elt F) :=
  Host.gather gather_S150000x230_S4096x1_S4096x230_1_0_n_n_0_1_1230 (val_main_v78 (F := F) x2 x3 x4 x5 x6 x7 x8 x9 x10 x11 x12 x13 x14) (val_main_v84 (F := F) x0)
def val_main_c_12 : (⟨S_, .i32⟩ : BufTy).Contents (Elt F) :=
  constantI S_ 32 0#32
def val_main_v86 : (⟨S4096, .i32⟩ : BufTy).Contents (Elt F) :=
  broadcastInDim S4096 ![] bcast_S_S4096 (val_main_c_12 (F := F))
def val_main_v87 (x1 : (⟨S4096, .i32⟩ : BufTy).Contents (Elt F)) : (⟨S4096, .i1⟩ : BufTy).Contents (Elt F) :=
  cmpi .slt (x1) (val_main_v86 (F := F))
def val_main_c_13 : (⟨S_, .i32⟩ : BufTy).Contents (Elt F) :=
  constantI S_ 32 150000#32
def val_main_v88 : (⟨S4096, .i32⟩ : BufTy).Contents (Elt F) :=
  broadcastInDim S4096 ![] bcast_S_S4096 (val_main_c_13 (F := F))
def val_main_v89 (x1 : (⟨S4096, .i32⟩ : BufTy).Contents (Elt F)) : (⟨S4096, .i32⟩ : BufTy).Contents (Elt F) :=
  addi (x1) (val_main_v88 (F := F))
def val_main_v90 (x1 : (⟨S4096, .i32⟩ : BufTy).Contents (Elt F)) : (⟨S4096, .i32⟩ : BufTy).Contents (Elt F) :=
  select (val_main_v87 (F := F) x1) (val_main_v89 (F := F) x1) (x1)
def val_main_v91 (x1 : (⟨S4096, .i32⟩ : BufTy).Contents (Elt F)) : (⟨S4096x1, .i32⟩ : BufTy).Contents (Elt F) :=
  broadcastInDim S4096x1 ![0] bcast_S4096_S4096x1_0 (val_main_v90 (F := F) x1)
def val_main_v92 (x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) : (⟨S4096x230, .f32⟩ : BufTy).Contents (Elt F) :=
  Host.gather gather_S150000x230_S4096x1_S4096x230_1_0_n_n_0_1_1230 (val_main_v78 (F := F) x2 x3 x4 x5 x6 x7 x8 x9 x10 x11 x12 x13 x14) (val_main_v91 (F := F) x1)
def val_main_v93 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) : (⟨S4096x460, .f32⟩ : BufTy).Contents (Elt F) :=
  concatenate S4096x460 1 [⟨S4096x230, (val_main_v85 (F := F) x0 x2 x3 x4 x5 x6 x7 x8 x9 x10 x11 x12 x13 x14)⟩, ⟨S4096x230, (val_main_v92 (F := F) x1 x2 x3 x4 x5 x6 x7 x8 x9 x10 x11 x12 x13 x14)⟩] concatenates_S4096x230_S4096x230_S4096x460_d1

/-! ## The scoring head on the batch: three affine maps, max(0, ·) after the first, and the column of scores recast to a vector -/

def val_main_v94 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) : (⟨S4096x64, .f32⟩ : BufTy).Contents (Elt F) :=
  Host.dotGeneral dot_S4096x460_S460x64_S4096x64_1_0_0_1_n_n none (val_main_v93 (F := F) x0 x1 x2 x3 x4 x5 x6 x7 x8 x9 x10 x11 x12 x13 x14) (x15)
def val_main_v95 (x16 : (⟨S64, .f32⟩ : BufTy).Contents (Elt F)) : (⟨S1x64, .f32⟩ : BufTy).Contents (Elt F) :=
  broadcastInDim S1x64 ![1] bcast_S64_S1x64_1 (x16)
def val_main_v96 (x16 : (⟨S64, .f32⟩ : BufTy).Contents (Elt F)) : (⟨S4096x64, .f32⟩ : BufTy).Contents (Elt F) :=
  broadcastInDim S4096x64 ![0, 1] bcast_S1x64_S4096x64_0_1 (val_main_v95 (F := F) x16)
def val_main_v97 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) : (⟨S4096x64, .f32⟩ : BufTy).Contents (Elt F) :=
  addf (val_main_v94 (F := F) x0 x1 x2 x3 x4 x5 x6 x7 x8 x9 x10 x11 x12 x13 x14 x15) (val_main_v96 (F := F) x16)
def val_main_call2_cst : (⟨S_, .f32⟩ : BufTy).Contents (Elt F) :=
  constant S_ .f32 0x00000000#32
def val_main_call2_v0 : (⟨S4096x64, .f32⟩ : BufTy).Contents (Elt F) :=
  broadcastInDim S4096x64 ![] bcast_S_S4096x64 (val_main_call2_cst (F := F))
def val_main_v98 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) : (⟨S4096x64, .f32⟩ : BufTy).Contents (Elt F) :=
  maximumf (val_main_v97 (F := F) x0 x1 x2 x3 x4 x5 x6 x7 x8 x9 x10 x11 x12 x13 x14 x15 x16) (val_main_call2_v0 (F := F))
def val_main_v99 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) (x17 : (⟨S64x32, .f32⟩ : BufTy).Contents (Elt F)) : (⟨S4096x32, .f32⟩ : BufTy).Contents (Elt F) :=
  Host.dotGeneral dot_S4096x64_S64x32_S4096x32_1_0_0_1_n_n none (val_main_v98 (F := F) x0 x1 x2 x3 x4 x5 x6 x7 x8 x9 x10 x11 x12 x13 x14 x15 x16) (x17)
def val_main_v100 (x18 : (⟨S32, .f32⟩ : BufTy).Contents (Elt F)) : (⟨S1x32, .f32⟩ : BufTy).Contents (Elt F) :=
  broadcastInDim S1x32 ![1] bcast_S32_S1x32_1 (x18)
def val_main_v101 (x18 : (⟨S32, .f32⟩ : BufTy).Contents (Elt F)) : (⟨S4096x32, .f32⟩ : BufTy).Contents (Elt F) :=
  broadcastInDim S4096x32 ![0, 1] bcast_S1x32_S4096x32_0_1 (val_main_v100 (F := F) x18)
def val_main_v102 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) : (⟨S4096x32, .f32⟩ : BufTy).Contents (Elt F) :=
  addf (val_main_v99 (F := F) x0 x1 x2 x3 x4 x5 x6 x7 x8 x9 x10 x11 x12 x13 x14 x15 x16 x17) (val_main_v101 (F := F) x18)
def val_main_v103 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x1, .f32⟩ : BufTy).Contents (Elt F)) : (⟨S4096x1, .f32⟩ : BufTy).Contents (Elt F) :=
  Host.dotGeneral dot_S4096x32_S32x1_S4096x1_1_0_0_1_n_n none (val_main_v102 (F := F) x0 x1 x2 x3 x4 x5 x6 x7 x8 x9 x10 x11 x12 x13 x14 x15 x16 x17 x18) (x19)
def val_main_v104 (x20 : (⟨S1, .f32⟩ : BufTy).Contents (Elt F)) : (⟨S1x1, .f32⟩ : BufTy).Contents (Elt F) :=
  broadcastInDim S1x1 ![1] bcast_S1_S1x1_1 (x20)
def val_main_v105 (x20 : (⟨S1, .f32⟩ : BufTy).Contents (Elt F)) : (⟨S4096x1, .f32⟩ : BufTy).Contents (Elt F) :=
  broadcastInDim S4096x1 ![0, 1] bcast_S1x1_S4096x1_0_1 (val_main_v104 (F := F) x20)
def val_main_v106 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x1, .f32⟩ : BufTy).Contents (Elt F)) (x20 : (⟨S1, .f32⟩ : BufTy).Contents (Elt F)) : (⟨S4096x1, .f32⟩ : BufTy).Contents (Elt F) :=
  addf (val_main_v103 (F := F) x0 x1 x2 x3 x4 x5 x6 x7 x8 x9 x10 x11 x12 x13 x14 x15 x16 x17 x18 x19) (val_main_v105 (F := F) x20)
def val_main_v107 (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x1, .f32⟩ : BufTy).Contents (Elt F)) (x20 : (⟨S1, .f32⟩ : BufTy).Contents (Elt F)) : (⟨S4096, .f32⟩ : BufTy).Contents (Elt F) :=
  shapeCast _ (val_main_v106 (F := F) x0 x1 x2 x3 x4 x5 x6 x7 x8 x9 x10 x11 x12 x13 x14 x15 x16 x17 x18 x19 x20) shapeCasts_S4096x1_S4096

end Cert.ReferenceIdeal.Stages

end
-- ==== Proof.RefChain.lean ====
/-
  The reference computation, stretch by stretch.

  The computation is a straight line of 130 array operations, cut into ten consecutive stretches. Running a stretch
  from any buffer contents leaves, in each buffer a later stretch reads, a stage of the network as a function of what
  the stretch itself found: its own operations composed. A buffer the stretch does not write keeps what it held.
  Chaining the stretches from the launch contents, every such buffer holds its stage as a function of the argument
  arrays alone, and the last one is the vector of scores.
-/
import proofs.«133995_j16355235463443_1_alg».proof.Proof.RefOps
import proofs.«133995_j16355235463443_1_alg».proof.Proof.RefStages
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Stretch A -/

/-- The stacked embeddings, from what the stretch finds in the buffers it reads. -/
theorem stretchA_v0 (W : Valuation τ sig (Elt F)) (x5 : (⟨S100000x100, .f32⟩ : BufTy).Contents (Elt F)) (x6 : (⟨S50000x100, .f32⟩ : BufTy).Contents (Elt F))
    (hx5 : W (Proc.devRef .tc main_arg5) = x5)
    (hx6 : W (Proc.devRef .tc main_arg6) = x6) :
    StableHlo.after opsA W (Proc.devRef .tc main_v0) = Stages.val_main_v0 (F := F) x5 x6 := by
  after_results_simp
  rw [hx5, hx6]
  rfl

/-- The first propagation, from what the stretch finds in the buffers it reads. -/
theorem stretchA_v13 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F))
    (hx2 : W (Proc.devRef .tc main_arg2) = x2)
    (hx3 : W (Proc.devRef .tc main_arg3) = x3)
    (hx4 : W (Proc.devRef .tc main_arg4) = x4)
    (hx5 : W (Proc.devRef .tc main_arg5) = x5)
    (hx6 : W (Proc.devRef .tc main_arg6) = x6) :
    StableHlo.after opsA W (Proc.devRef .tc main_v13) = Stages.val_main_v13 (F := F) x2 x3 x4 x5 x6 := by
  after_results_simp
  rw [hx2, hx3, hx4, hx5, hx6]
  rfl

/-! ## Stretch B -/

/-- Layer 1's entrywise product, from what the stretch finds in the buffers it reads. -/
theorem stretchB_v14 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F))
    (h_v13 : W (Proc.devRef .tc main_v13) = Stages.val_main_v13 (F := F) x2 x3 x4 x5 x6)
    (h_v0 : W (Proc.devRef .tc main_v0) = Stages.val_main_v0 (F := F) x5 x6) :
    StableHlo.after opsB W (Proc.devRef .tc main_v14) = Stages.val_main_v14 (F := F) x2 x3 x4 x5 x6 := by
  after_results_simp
  rw [h_v13, h_v0]
  rfl

/-- Layer 1's first affine part, from what the stretch finds in the buffers it reads. -/
theorem stretchB_v19 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F))
    (h_v13 : W (Proc.devRef .tc main_v13) = Stages.val_main_v13 (F := F) x2 x3 x4 x5 x6)
    (h_v0 : W (Proc.devRef .tc main_v0) = Stages.val_main_v0 (F := F) x5 x6)
    (hx7 : W (Proc.devRef .tc main_arg7) = x7)
    (hx8 : W (Proc.devRef .tc main_arg8) = x8) :
    StableHlo.after opsB W (Proc.devRef .tc main_v19) = Stages.val_main_v19 (F := F) x2 x3 x4 x5 x6 x7 x8 := by
  after_results_simp
  rw [h_v13, h_v0, hx7, hx8]
  rfl

/-! ## Stretch C -/

/-- Layer 1's propagated product, from what the stretch finds in the buffers it reads. -/
theorem stretchC_v32 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F))
    (h_v14 : W (Proc.devRef .tc main_v14) = Stages.val_main_v14 (F := F) x2 x3 x4 x5 x6)
    (hx2 : W (Proc.devRef .tc main_arg2) = x2)
    (hx3 : W (Proc.devRef .tc main_arg3) = x3)
    (hx4 : W (Proc.devRef .tc main_arg4) = x4) :
    StableHlo.after opsC W (Proc.devRef .tc main_v32) = Stages.val_main_v32 (F := F) x2 x3 x4 x5 x6 := by
  after_results_simp
  rw [h_v14, hx2, hx3, hx4]
  rfl

/-! ## Stretch D -/

/-- Layer 1's output, from what the stretch finds in the buffers it reads. -/
theorem stretchD_v38 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F))
    (h_v19 : W (Proc.devRef .tc main_v19) = Stages.val_main_v19 (F := F) x2 x3 x4 x5 x6 x7 x8)
    (h_v32 : W (Proc.devRef .tc main_v32) = Stages.val_main_v32 (F := F) x2 x3 x4 x5 x6)
    (hx9 : W (Proc.devRef .tc main_arg9) = x9)
    (hx10 : W (Proc.devRef .tc main_arg10) = x10) :
    StableHlo.after opsD W (Proc.devRef .tc main_v38) = Stages.val_main_v38 (F := F) x2 x3 x4 x5 x6 x7 x8 x9 x10 := by
  after_results_simp
  rw [h_v19, h_v32, hx9, hx10]
  rfl

/-! ## Stretch E -/

/-- The embeddings joined with layer 1's output, from what the stretch finds in the buffers it reads. -/
theorem stretchE_v39 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F))
    (h_v0 : W (Proc.devRef .tc main_v0) = Stages.val_main_v0 (F := F) x5 x6)
    (h_v38 : W (Proc.devRef .tc main_v38) = Stages.val_main_v38 (F := F) x2 x3 x4 x5 x6 x7 x8 x9 x10) :
    StableHlo.after opsE W (Proc.devRef .tc main_v39) = Stages.val_main_v39 (F := F) x2 x3 x4 x5 x6 x7 x8 x9 x10 := by
  after_results_simp
  rw [h_v0, h_v38]
  rfl

/-- Layer 2's propagation, from what the stretch finds in the buffers it reads. -/
theorem stretchE_v52 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F))
    (h_v38 : W (Proc.devRef .tc main_v38) = Stages.val_main_v38 (F := F) x2 x3 x4 x5 x6 x7 x8 x9 x10)
    (hx2 : W (Proc.devRef .tc main_arg2) = x2)
    (hx3 : W (Proc.devRef .tc main_arg3) = x3)
    (hx4 : W (Proc.devRef .tc main_arg4) = x4) :
    StableHlo.after opsE W (Proc.devRef .tc main_v52) = Stages.val_main_v52 (F := F) x2 x3 x4 x5 x6 x7 x8 x9 x10 := by
  after_results_simp
  rw [h_v38, hx2, hx3, hx4]
  rfl

/-! ## Stretch F -/

/-- Layer 2's entrywise product, from what the stretch finds in the buffers it reads. -/
theorem stretchF_v53 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F))
    (h_v52 : W (Proc.devRef .tc main_v52) = Stages.val_main_v52 (F := F) x2 x3 x4 x5 x6 x7 x8 x9 x10)
    (h_v38 : W (Proc.devRef .tc main_v38) = Stages.val_main_v38 (F := F) x2 x3 x4 x5 x6 x7 x8 x9 x10) :
    StableHlo.after opsF W (Proc.devRef .tc main_v53) = Stages.val_main_v53 (F := F) x2 x3 x4 x5 x6 x7 x8 x9 x10 := by
  after_results_simp
  rw [h_v52, h_v38]
  rfl

/-- Layer 2's first affine part, from what the stretch finds in the buffers it reads. -/
theorem stretchF_v58 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F))
    (h_v52 : W (Proc.devRef .tc main_v52) = Stages.val_main_v52 (F := F) x2 x3 x4 x5 x6 x7 x8 x9 x10)
    (h_v38 : W (Proc.devRef .tc main_v38) = Stages.val_main_v38 (F := F) x2 x3 x4 x5 x6 x7 x8 x9 x10)
    (hx11 : W (Proc.devRef .tc main_arg11) = x11)
    (hx12 : W (Proc.devRef .tc main_arg12) = x12) :
    StableHlo.after opsF W (Proc.devRef .tc main_v58) = Stages.val_main_v58 (F := F) x2 x3 x4 x5 x6 x7 x8 x9 x10 x11 x12 := by
  after_results_simp
  rw [h_v52, h_v38, hx11, hx12]
  rfl

/-! ## Stretch G -/

/-- Layer 2's propagated product, from what the stretch finds in the buffers it reads. -/
theorem stretchG_v71 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F))
    (h_v53 : W (Proc.devRef .tc main_v53) = Stages.val_main_v53 (F := F) x2 x3 x4 x5 x6 x7 x8 x9 x10)
    (hx2 : W (Proc.devRef .tc main_arg2) = x2)
    (hx3 : W (Proc.devRef .tc main_arg3) = x3)
    (hx4 : W (Proc.devRef .tc main_arg4) = x4) :
    StableHlo.after opsG W (Proc.devRef .tc main_v71) = Stages.val_main_v71 (F := F) x2 x3 x4 x5 x6 x7 x8 x9 x10 := by
  after_results_simp
  rw [h_v53, hx2, hx3, hx4]
  rfl

/-! ## Stretch H -/

/-- Layer 2's output, from what the stretch finds in the buffers it reads. -/
theorem stretchH_v77 (W : Valuation τ sig (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F))
    (h_v58 : W (Proc.devRef .tc main_v58) = Stages.val_main_v58 (F := F) x2 x3 x4 x5 x6 x7 x8 x9 x10 x11 x12)
    (h_v71 : W (Proc.devRef .tc main_v71) = Stages.val_main_v71 (F := F) x2 x3 x4 x5 x6 x7 x8 x9 x10)
    (hx13 : W (Proc.devRef .tc main_arg13) = x13)
    (hx14 : W (Proc.devRef .tc main_arg14) = x14) :
    StableHlo.after opsH W (Proc.devRef .tc main_v77) = Stages.val_main_v77 (F := F) x2 x3 x4 x5 x6 x7 x8 x9 x10 x11 x12 x13 x14 := by
  after_results_simp
  rw [h_v58, h_v71, hx13, hx14]
  rfl

/-! ## Stretch I -/

/-- The batch's joined rows, from what the stretch finds in the buffers it reads. -/
theorem stretchI_v93 (W : Valuation τ sig (Elt F)) (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F))
    (h_v39 : W (Proc.devRef .tc main_v39) = Stages.val_main_v39 (F := F) x2 x3 x4 x5 x6 x7 x8 x9 x10)
    (h_v77 : W (Proc.devRef .tc main_v77) = Stages.val_main_v77 (F := F) x2 x3 x4 x5 x6 x7 x8 x9 x10 x11 x12 x13 x14)
    (hx0 : W (Proc.devRef .tc main_arg0) = x0)
    (hx1 : W (Proc.devRef .tc main_arg1) = x1) :
    StableHlo.after opsI W (Proc.devRef .tc main_v93) = Stages.val_main_v93 (F := F) x0 x1 x2 x3 x4 x5 x6 x7 x8 x9 x10 x11 x12 x13 x14 := by
  have key : StableHlo.after opsI W (Proc.devRef .tc main_v93)
      = concatenate S4096x460 1
          [⟨S4096x230, Host.gather gather_S150000x230_S4096x1_S4096x230_1_0_n_n_0_1_1230
              (concatenate S150000x230 1 [⟨S150000x180, W (Proc.devRef .tc main_v39)⟩, ⟨S150000x50, W (Proc.devRef .tc main_v77)⟩]
                concatenates_S150000x180_S150000x50_S150000x230_d1)
              (Stages.val_main_v84 (F := F) (W (Proc.devRef .tc main_arg0)))⟩,
           ⟨S4096x230, Host.gather gather_S150000x230_S4096x1_S4096x230_1_0_n_n_0_1_1230
              (concatenate S150000x230 1 [⟨S150000x180, W (Proc.devRef .tc main_v39)⟩, ⟨S150000x50, W (Proc.devRef .tc main_v77)⟩]
                concatenates_S150000x180_S150000x50_S150000x230_d1)
              (Stages.val_main_v91 (F := F) (W (Proc.devRef .tc main_arg1)))⟩]
          concatenates_S4096x230_S4096x230_S4096x460_d1 := by
    after_results_simp <;> rfl
  rw [key, h_v39, h_v77, hx0, hx1]
  rfl

/-! ## Stretch J -/

/-- The scores, from what the stretch finds in the buffers it reads. -/
theorem stretchJ_v107 (W : Valuation τ sig (Elt F)) (x0 x1 : (⟨S4096, .i32⟩ : BufTy).Contents (Elt F)) (x2 x3 : (⟨S1500000, .i32⟩ : BufTy).Contents (Elt F)) (x4 : (⟨S1500000, .f32⟩ : BufTy).Contents (Elt F)) (x5 : (⟨S100000x100, .f32⟩ : BufTy).Contents (Elt F)) (x6 : (⟨S50000x100, .f32⟩ : BufTy).Contents (Elt F)) (x7 : (⟨S100x80, .f32⟩ : BufTy).Contents (Elt F)) (x8 : (⟨S80, .f32⟩ : BufTy).Contents (Elt F)) (x9 : (⟨S100x80, .f32⟩ : BufTy).Contents (Elt F)) (x10 : (⟨S80, .f32⟩ : BufTy).Contents (Elt F)) (x11 : (⟨S80x50, .f32⟩ : BufTy).Contents (Elt F)) (x12 : (⟨S50, .f32⟩ : BufTy).Contents (Elt F)) (x13 : (⟨S80x50, .f32⟩ : BufTy).Contents (Elt F)) (x14 : (⟨S50, .f32⟩ : BufTy).Contents (Elt F)) (x15 : (⟨S460x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x1, .f32⟩ : BufTy).Contents (Elt F)) (x20 : (⟨S1, .f32⟩ : BufTy).Contents (Elt F))
    (h_v93 : W (Proc.devRef .tc main_v93) = Stages.val_main_v93 (F := F) x0 x1 x2 x3 x4 x5 x6 x7 x8 x9 x10 x11 x12 x13 x14)
    (hx15 : W (Proc.devRef .tc main_arg15) = x15)
    (hx16 : W (Proc.devRef .tc main_arg16) = x16)
    (hx17 : W (Proc.devRef .tc main_arg17) = x17)
    (hx18 : W (Proc.devRef .tc main_arg18) = x18)
    (hx19 : W (Proc.devRef .tc main_arg19) = x19)
    (hx20 : W (Proc.devRef .tc main_arg20) = x20) :
    StableHlo.after opsJ W (Proc.devRef .tc main_v107) = Stages.val_main_v107 (F := F) x0 x1 x2 x3 x4 x5 x6 x7 x8 x9 x10 x11 x12 x13 x14 x15 x16 x17 x18 x19 x20 := by
  after_results_simp
  rw [h_v93, hx15, hx16, hx17, hx18, hx19, hx20]
  rfl

/-! ## What each stretch leaves alone -/

/-- The buffers stretch A writes. -/
def wrA : List (Ref sig .tc) := [main_v0, main_v1, main_c, main_v2, main_v3, main_c_0, main_v4, main_v5, main_v6, main_v7, main_v8, main_v9, main_v10, main_cst, main_v11, main_v12, main_v13]
theorem coversA : (opsA : List (HloOp τ sig (Elt F))).Forall fun op => op.writes ⊆ (wrA.map (Proc.devRef (τ := τ) .tc)).toFinset := by
  simp only [opsA, wrA, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch A does not write holds after it what it held before. -/
theorem keepA (W : Valuation τ sig (Elt F)) (r : Ref sig .tc) (hr : r ∉ wrA) :
    StableHlo.after opsA W (Proc.devRef .tc r) = W (Proc.devRef .tc r) :=
  StableHlo.after_of_writes_sub opsA W coversA hr

/-- The buffers stretch B writes. -/
def wrB : List (Ref sig .tc) := [main_v14, main_v15, main_v16, main_v17, main_v18, main_v19]
theorem coversB : (opsB : List (HloOp τ sig (Elt F))).Forall fun op => op.writes ⊆ (wrB.map (Proc.devRef (τ := τ) .tc)).toFinset := by
  simp only [opsB, wrB, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch B does not write holds after it what it held before. -/
theorem keepB (W : Valuation τ sig (Elt F)) (r : Ref sig .tc) (hr : r ∉ wrB) :
    StableHlo.after opsB W (Proc.devRef .tc r) = W (Proc.devRef .tc r) :=
  StableHlo.after_of_writes_sub opsB W coversB hr

/-- The buffers stretch C writes. -/
def wrC : List (Ref sig .tc) := [main_v20, main_c_1, main_v21, main_v22, main_c_2, main_v23, main_v24, main_v25, main_v26, main_v27, main_v28, main_v29, main_cst_3, main_v30, main_v31, main_v32]
theorem coversC : (opsC : List (HloOp τ sig (Elt F))).Forall fun op => op.writes ⊆ (wrC.map (Proc.devRef (τ := τ) .tc)).toFinset := by
  simp only [opsC, wrC, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch C does not write holds after it what it held before. -/
theorem keepC (W : Valuation τ sig (Elt F)) (r : Ref sig .tc) (hr : r ∉ wrC) :
    StableHlo.after opsC W (Proc.devRef .tc r) = W (Proc.devRef .tc r) :=
  StableHlo.after_of_writes_sub opsC W coversC hr

/-- The buffers stretch D writes. -/
def wrD : List (Ref sig .tc) := [main_v33, main_v34, main_v35, main_v36, main_v37, main_call0_cst, main_call0_v0, main_v38]
theorem coversD : (opsD : List (HloOp τ sig (Elt F))).Forall fun op => op.writes ⊆ (wrD.map (Proc.devRef (τ := τ) .tc)).toFinset := by
  simp only [opsD, wrD, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch D does not write holds after it what it held before. -/
theorem keepD (W : Valuation τ sig (Elt F)) (r : Ref sig .tc) (hr : r ∉ wrD) :
    StableHlo.after opsD W (Proc.devRef .tc r) = W (Proc.devRef .tc r) :=
  StableHlo.after_of_writes_sub opsD W coversD hr

/-- The buffers stretch E writes. -/
def wrE : List (Ref sig .tc) := [main_v39, main_v40, main_c_4, main_v41, main_v42, main_c_5, main_v43, main_v44, main_v45, main_v46, main_v47, main_v48, main_v49, main_cst_6, main_v50, main_v51, main_v52]
theorem coversE : (opsE : List (HloOp τ sig (Elt F))).Forall fun op => op.writes ⊆ (wrE.map (Proc.devRef (τ := τ) .tc)).toFinset := by
  simp only [opsE, wrE, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch E does not write holds after it what it held before. -/
theorem keepE (W : Valuation τ sig (Elt F)) (r : Ref sig .tc) (hr : r ∉ wrE) :
    StableHlo.after opsE W (Proc.devRef .tc r) = W (Proc.devRef .tc r) :=
  StableHlo.after_of_writes_sub opsE W coversE hr

/-- The buffers stretch F writes. -/
def wrF : List (Ref sig .tc) := [main_v53, main_v54, main_v55, main_v56, main_v57, main_v58]
theorem coversF : (opsF : List (HloOp τ sig (Elt F))).Forall fun op => op.writes ⊆ (wrF.map (Proc.devRef (τ := τ) .tc)).toFinset := by
  simp only [opsF, wrF, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch F does not write holds after it what it held before. -/
theorem keepF (W : Valuation τ sig (Elt F)) (r : Ref sig .tc) (hr : r ∉ wrF) :
    StableHlo.after opsF W (Proc.devRef .tc r) = W (Proc.devRef .tc r) :=
  StableHlo.after_of_writes_sub opsF W coversF hr

/-- The buffers stretch G writes. -/
def wrG : List (Ref sig .tc) := [main_v59, main_c_7, main_v60, main_v61, main_c_8, main_v62, main_v63, main_v64, main_v65, main_v66, main_v67, main_v68, main_cst_9, main_v69, main_v70, main_v71]
theorem coversG : (opsG : List (HloOp τ sig (Elt F))).Forall fun op => op.writes ⊆ (wrG.map (Proc.devRef (τ := τ) .tc)).toFinset := by
  simp only [opsG, wrG, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch G does not write holds after it what it held before. -/
theorem keepG (W : Valuation τ sig (Elt F)) (r : Ref sig .tc) (hr : r ∉ wrG) :
    StableHlo.after opsG W (Proc.devRef .tc r) = W (Proc.devRef .tc r) :=
  StableHlo.after_of_writes_sub opsG W coversG hr

/-- The buffers stretch H writes. -/
def wrH : List (Ref sig .tc) := [main_v72, main_v73, main_v74, main_v75, main_v76, main_call1_cst, main_call1_v0, main_v77]
theorem coversH : (opsH : List (HloOp τ sig (Elt F))).Forall fun op => op.writes ⊆ (wrH.map (Proc.devRef (τ := τ) .tc)).toFinset := by
  simp only [opsH, wrH, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch H does not write holds after it what it held before. -/
theorem keepH (W : Valuation τ sig (Elt F)) (r : Ref sig .tc) (hr : r ∉ wrH) :
    StableHlo.after opsH W (Proc.devRef .tc r) = W (Proc.devRef .tc r) :=
  StableHlo.after_of_writes_sub opsH W coversH hr

/-- The buffers stretch I writes. -/
def wrI : List (Ref sig .tc) := [main_v78, main_c_10, main_v79, main_v80, main_c_11, main_v81, main_v82, main_v83, main_v84, main_v85, main_c_12, main_v86, main_v87, main_c_13, main_v88, main_v89, main_v90, main_v91, main_v92, main_v93]
theorem coversI : (opsI : List (HloOp τ sig (Elt F))).Forall fun op => op.writes ⊆ (wrI.map (Proc.devRef (τ := τ) .tc)).toFinset := by
  simp only [opsI, wrI, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch I does not write holds after it what it held before. -/
theorem keepI (W : Valuation τ sig (Elt F)) (r : Ref sig .tc) (hr : r ∉ wrI) :
    StableHlo.after opsI W (Proc.devRef .tc r) = W (Proc.devRef .tc r) :=
  StableHlo.after_of_writes_sub opsI W coversI hr

/-- The buffers stretch J writes. -/
def wrJ : List (Ref sig .tc) := [main_v94, main_v95, main_v96, main_v97, main_call2_cst, main_call2_v0, main_v98, main_v99, main_v100, main_v101, main_v102, main_v103, main_v104, main_v105, main_v106, main_v107]
theorem coversJ : (opsJ : List (HloOp τ sig (Elt F))).Forall fun op => op.writes ⊆ (wrJ.map (Proc.devRef (τ := τ) .tc)).toFinset := by
  simp only [opsJ, wrJ, List.Forall, nullary_writes, unary_writes, binary_writes, ternary_writes, reshape_writes, Finset.singleton_subset_iff, List.map_cons, List.map_nil, List.toFinset_cons, List.toFinset_nil, Finset.mem_insert, Finset.mem_singleton, true_or, or_true, and_self]
/-- A buffer stretch J does not write holds after it what it held before. -/
theorem keepJ (W : Valuation τ sig (Elt F)) (r : Ref sig .tc) (hr : r ∉ wrJ) :
    StableHlo.after opsJ W (Proc.devRef .tc r) = W (Proc.devRef .tc r) :=
  StableHlo.after_of_writes_sub opsJ W coversJ hr

/-! ## The buffers from the launch contents, boundary by boundary -/

section Walk
variable (V0 : Valuation τ sig (Elt F))

/-- The buffers after stretch A. -/
abbrev atA : Valuation τ sig (Elt F) := StableHlo.after opsA V0

/-- The buffers after stretch B. -/
abbrev atB : Valuation τ sig (Elt F) := StableHlo.after opsB (atA V0)

/-- The buffers after stretch C. -/
abbrev atC : Valuation τ sig (Elt F) := StableHlo.after opsC (atB V0)

/-- The buffers after stretch D. -/
abbrev atD : Valuation τ sig (Elt F) := StableHlo.after opsD (atC V0)

/-- The buffers after stretch E. -/
abbrev atE : Valuation τ sig (Elt F) := StableHlo.after opsE (atD V0)

/-- The buffers after stretch F. -/
abbrev atF : Valuation τ sig (Elt F) := StableHlo.after opsF (atE V0)

/-- The buffers after stretch G. -/
abbrev atG : Valuation τ sig (Elt F) := StableHlo.after opsG (atF V0)

/-- The buffers after stretch H. -/
abbrev atH : Valuation τ sig (Elt F) := StableHlo.after opsH (atG V0)

/-- The buffers after stretch I. -/
abbrev atI : Valuation τ sig (Elt F) := StableHlo.after opsI (atH V0)

/-- The buffers after stretch J. -/
abbrev atJ : Valuation τ sig (Elt F) := StableHlo.after opsJ (atI V0)

/-! A buffer no stretch so far has written holds its launch contents. -/
theorem stillA (r : Ref sig .tc) (hA : r ∉ wrA) : atA V0 (Proc.devRef .tc r) = V0 (Proc.devRef .tc r) :=
  keepA V0 r hA
theorem stillB (r : Ref sig .tc) (hA : r ∉ wrA) (hB : r ∉ wrB) : atB V0 (Proc.devRef .tc r) = V0 (Proc.devRef .tc r) :=
  (keepB _ r hB).trans (stillA V0 r hA)
theorem stillC (r : Ref sig .tc) (hA : r ∉ wrA) (hB : r ∉ wrB) (hC : r ∉ wrC) : atC V0 (Proc.devRef .tc r) = V0 (Proc.devRef .tc r) :=
  (keepC _ r hC).trans (stillB V0 r hA hB)
theorem stillD (r : Ref sig .tc) (hA : r ∉ wrA) (hB : r ∉ wrB) (hC : r ∉ wrC) (hD : r ∉ wrD) : atD V0 (Proc.devRef .tc r) = V0 (Proc.devRef .tc r) :=
  (keepD _ r hD).trans (stillC V0 r hA hB hC)
theorem stillE (r : Ref sig .tc) (hA : r ∉ wrA) (hB : r ∉ wrB) (hC : r ∉ wrC) (hD : r ∉ wrD) (hE : r ∉ wrE) : atE V0 (Proc.devRef .tc r) = V0 (Proc.devRef .tc r) :=
  (keepE _ r hE).trans (stillD V0 r hA hB hC hD)
theorem stillF (r : Ref sig .tc) (hA : r ∉ wrA) (hB : r ∉ wrB) (hC : r ∉ wrC) (hD : r ∉ wrD) (hE : r ∉ wrE) (hF : r ∉ wrF) : atF V0 (Proc.devRef .tc r) = V0 (Proc.devRef .tc r) :=
  (keepF _ r hF).trans (stillE V0 r hA hB hC hD hE)
theorem stillG (r : Ref sig .tc) (hA : r ∉ wrA) (hB : r ∉ wrB) (hC : r ∉ wrC) (hD : r ∉ wrD) (hE : r ∉ wrE) (hF : r ∉ wrF) (hG : r ∉ wrG) : atG V0 (Proc.devRef .tc r) = V0 (Proc.devRef .tc r) :=
  (keepG _ r hG).trans (stillF V0 r hA hB hC hD hE hF)
theorem stillH (r : Ref sig .tc) (hA : r ∉ wrA) (hB : r ∉ wrB) (hC : r ∉ wrC) (hD : r ∉ wrD) (hE : r ∉ wrE) (hF : r ∉ wrF) (hG : r ∉ wrG) (hH : r ∉ wrH) : atH V0 (Proc.devRef .tc r) = V0 (Proc.devRef .tc r) :=
  (keepH _ r hH).trans (stillG V0 r hA hB hC hD hE hF hG)
theorem stillI (r : Ref sig .tc) (hA : r ∉ wrA) (hB : r ∉ wrB) (hC : r ∉ wrC) (hD : r ∉ wrD) (hE : r ∉ wrE) (hF : r ∉ wrF) (hG : r ∉ wrG) (hH : r ∉ wrH) (hI : r ∉ wrI) : atI V0 (Proc.devRef .tc r) = V0 (Proc.devRef .tc r) :=
  (keepI _ r hI).trans (stillH V0 r hA hB hC hD hE hF hG hH)

/-! Each buffer a later stretch reads, as a stage of the launch contents. -/
theorem atA_v0 : atA V0 (Proc.devRef .tc main_v0) = Stages.val_main_v0 (F := F) (V0 (Proc.devRef .tc main_arg5)) (V0 (Proc.devRef .tc main_arg6)) :=
  stretchA_v0 V0 _ _
    rfl
    rfl
theorem atA_v13 : atA V0 (Proc.devRef .tc main_v13) = Stages.val_main_v13 (F := F) (V0 (Proc.devRef .tc main_arg2)) (V0 (Proc.devRef .tc main_arg3)) (V0 (Proc.devRef .tc main_arg4)) (V0 (Proc.devRef .tc main_arg5)) (V0 (Proc.devRef .tc main_arg6)) :=
  stretchA_v13 V0 _ _ _ _ _
    rfl
    rfl
    rfl
    rfl
    rfl
theorem atB_v0 : atB V0 (Proc.devRef .tc main_v0) = Stages.val_main_v0 (F := F) (V0 (Proc.devRef .tc main_arg5)) (V0 (Proc.devRef .tc main_arg6)) :=
  (keepB _ main_v0 (by decide)).trans (atA_v0 V0)
theorem atB_v14 : atB V0 (Proc.devRef .tc main_v14) = Stages.val_main_v14 (F := F) (V0 (Proc.devRef .tc main_arg2)) (V0 (Proc.devRef .tc main_arg3)) (V0 (Proc.devRef .tc main_arg4)) (V0 (Proc.devRef .tc main_arg5)) (V0 (Proc.devRef .tc main_arg6)) :=
  stretchB_v14 (atA V0) _ _ _ _ _
    (atA_v13 V0)
    (atA_v0 V0)
theorem atB_v19 : atB V0 (Proc.devRef .tc main_v19) = Stages.val_main_v19 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  stretchB_v19 (atA V0) _ _ _ _ _ _ _
    (atA_v13 V0)
    (atA_v0 V0)
    (stillA V0 main_arg7 (by decide))
    (stillA V0 main_arg8 (by decide))
theorem atC_v0 : atC V0 (Proc.devRef .tc main_v0) = Stages.val_main_v0 (F := F) (V0 (Proc.devRef .tc main_arg5)) (V0 (Proc.devRef .tc main_arg6)) :=
  (keepC _ main_v0 (by decide)).trans (atB_v0 V0)
theorem atC_v19 : atC V0 (Proc.devRef .tc main_v19) = Stages.val_main_v19 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (keepC _ main_v19 (by decide)).trans (atB_v19 V0)
theorem atC_v32 : atC V0 (Proc.devRef .tc main_v32) = Stages.val_main_v32 (F := F) (V0 (Proc.devRef .tc main_arg2)) (V0 (Proc.devRef .tc main_arg3)) (V0 (Proc.devRef .tc main_arg4)) (V0 (Proc.devRef .tc main_arg5)) (V0 (Proc.devRef .tc main_arg6)) :=
  stretchC_v32 (atB V0) _ _ _ _ _
    (atB_v14 V0)
    (stillB V0 main_arg2 (by decide) (by decide))
    (stillB V0 main_arg3 (by decide) (by decide))
    (stillB V0 main_arg4 (by decide) (by decide))
theorem atD_v0 : atD V0 (Proc.devRef .tc main_v0) = Stages.val_main_v0 (F := F) (V0 (Proc.devRef .tc main_arg5)) (V0 (Proc.devRef .tc main_arg6)) :=
  (keepD _ main_v0 (by decide)).trans (atC_v0 V0)
theorem atD_v38 : atD V0 (Proc.devRef .tc main_v38) = Stages.val_main_v38 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  stretchD_v38 (atC V0) _ _ _ _ _ _ _ _ _
    (atC_v19 V0)
    (atC_v32 V0)
    (stillC V0 main_arg9 (by decide) (by decide) (by decide))
    (stillC V0 main_arg10 (by decide) (by decide) (by decide))
theorem atE_v38 : atE V0 (Proc.devRef .tc main_v38) = Stages.val_main_v38 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (keepE _ main_v38 (by decide)).trans (atD_v38 V0)
theorem atE_v39 : atE V0 (Proc.devRef .tc main_v39) = Stages.val_main_v39 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  stretchE_v39 (atD V0) _ _ _ _ _ _ _ _ _
    (atD_v0 V0)
    (atD_v38 V0)
theorem atE_v52 : atE V0 (Proc.devRef .tc main_v52) = Stages.val_main_v52 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  stretchE_v52 (atD V0) _ _ _ _ _ _ _ _ _
    (atD_v38 V0)
    (stillD V0 main_arg2 (by decide) (by decide) (by decide) (by decide))
    (stillD V0 main_arg3 (by decide) (by decide) (by decide) (by decide))
    (stillD V0 main_arg4 (by decide) (by decide) (by decide) (by decide))
theorem atF_v39 : atF V0 (Proc.devRef .tc main_v39) = Stages.val_main_v39 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (keepF _ main_v39 (by decide)).trans (atE_v39 V0)
theorem atF_v53 : atF V0 (Proc.devRef .tc main_v53) = Stages.val_main_v53 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  stretchF_v53 (atE V0) _ _ _ _ _ _ _ _ _
    (atE_v52 V0)
    (atE_v38 V0)
theorem atF_v58 : atF V0 (Proc.devRef .tc main_v58) = Stages.val_main_v58 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  stretchF_v58 (atE V0) _ _ _ _ _ _ _ _ _ _ _
    (atE_v52 V0)
    (atE_v38 V0)
    (stillE V0 main_arg11 (by decide) (by decide) (by decide) (by decide) (by decide))
    (stillE V0 main_arg12 (by decide) (by decide) (by decide) (by decide) (by decide))
theorem atG_v39 : atG V0 (Proc.devRef .tc main_v39) = Stages.val_main_v39 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (keepG _ main_v39 (by decide)).trans (atF_v39 V0)
theorem atG_v58 : atG V0 (Proc.devRef .tc main_v58) = Stages.val_main_v58 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (keepG _ main_v58 (by decide)).trans (atF_v58 V0)
theorem atG_v71 : atG V0 (Proc.devRef .tc main_v71) = Stages.val_main_v71 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  stretchG_v71 (atF V0) _ _ _ _ _ _ _ _ _
    (atF_v53 V0)
    (stillF V0 main_arg2 (by decide) (by decide) (by decide) (by decide) (by decide) (by decide))
    (stillF V0 main_arg3 (by decide) (by decide) (by decide) (by decide) (by decide) (by decide))
    (stillF V0 main_arg4 (by decide) (by decide) (by decide) (by decide) (by decide) (by decide))
theorem atH_v39 : atH V0 (Proc.devRef .tc main_v39) = Stages.val_main_v39 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (keepH _ main_v39 (by decide)).trans (atG_v39 V0)
theorem atH_v77 : atH V0 (Proc.devRef .tc main_v77) = Stages.val_main_v77 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  stretchH_v77 (atG V0) _ _ _ _ _ _ _ _ _ _ _ _ _
    (atG_v58 V0)
    (atG_v71 V0)
    (stillG V0 main_arg13 (by decide) (by decide) (by decide) (by decide) (by decide) (by decide) (by decide))
    (stillG V0 main_arg14 (by decide) (by decide) (by decide) (by decide) (by decide) (by decide) (by decide))
theorem atI_v93 : atI V0 (Proc.devRef .tc main_v93) = Stages.val_main_v93 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  stretchI_v93 (atH V0) _ _ _ _ _ _ _ _ _ _ _ _ _ _ _
    (atH_v39 V0)
    (atH_v77 V0)
    (stillH V0 main_arg0 (by decide) (by decide) (by decide) (by decide) (by decide) (by decide) (by decide) (by decide))
    (stillH V0 main_arg1 (by decide) (by decide) (by decide) (by decide) (by decide) (by decide) (by decide) (by decide))
theorem atJ_v107 : atJ V0 (Proc.devRef .tc main_v107) = Stages.val_main_v107 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) :=
  stretchJ_v107 (atI V0) _ _ _ _ _ _ _ _ _ _ _ _ _ _ _ _ _ _ _ _ _
    (atI_v93 V0)
    (stillI V0 main_arg15 (by decide) (by decide) (by decide) (by decide) (by decide) (by decide) (by decide) (by decide) (by decide))
    (stillI V0 main_arg16 (by decide) (by decide) (by decide) (by decide) (by decide) (by decide) (by decide) (by decide) (by decide))
    (stillI V0 main_arg17 (by decide) (by decide) (by decide) (by decide) (by decide) (by decide) (by decide) (by decide) (by decide))
    (stillI V0 main_arg18 (by decide) (by decide) (by decide) (by decide) (by decide) (by decide) (by decide) (by decide) (by decide))
    (stillI V0 main_arg19 (by decide) (by decide) (by decide) (by decide) (by decide) (by decide) (by decide) (by decide) (by decide))
    (stillI V0 main_arg20 (by decide) (by decide) (by decide) (by decide) (by decide) (by decide) (by decide) (by decide) (by decide))

end Walk

/-- The result buffer after all the operations, from any launch contents, is the last stage of the launch contents of the arguments. -/
theorem result_of (V0 : Valuation τ sig (Elt F)) :
    StableHlo.after ops V0 (Proc.devRef .tc main_v107)
      = Stages.val_main_v107 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  rw [ops_split]
  simp only [Hand.after_append]
  exact atJ_v107 V0

/-- The same at the launch contents of one core's buffers. -/
theorem result_at (m : (ℓ : Loc nD τ sig) → Buf (Elt F) ℓ) (c : Dev nD) :
    StableHlo.after ops (fun b => m (c, b)) (Proc.devRef .tc main_v107)
      = Stages.val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  result_of _

end Cert.ReferenceIdeal.Hand

end
-- ==== Proof.KernelRun.lean ====
/-
  The kernel program's run with its result named.

  Every weakly fair execution of the program terminates without a fault; the result buffer then holds what the fold
  of the program's segments leaves there — the host stretches applied in order, each kernel region's arrays at what its
  write-backs leave — and the argument arrays are as launched.
-/
import proofs.«133995_j16355235463443_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c)⟩)

end Cert.KernelIdeal.Hand

end
-- ==== Proof.Spec.lean ====
/-
  The dense stages of the network as whole-array functions, written with the host's operations.

  One message-passing layer ends in a dense stage: with S the sum of the propagated and the own features and X the
  propagated products, the layer's output is max(0, (S·W + b) + (X·Wi + bi)), the biases given as one-row matrices
  and repeated down the rows. The scoring head maps a batch of concatenated embeddings E through three affine maps,
  the first followed by max(0, ·): ((max(0, E·W1 + b1))·W2 + b2)·W3 + b3.
-/
import proofs.«133995_j16355235463443_1_alg».proof.Proof.Gen.ReferenceIdeal
import Idealize.ShloMosaic.PureOps.Ideal

noncomputable section

namespace Cert.Hand.Spec

open Cert.ReferenceIdeal Cert.ReferenceIdeal.Gen Idealize.ShloMosaic

variable {F : FTy → Type} [FloatOps F]

/-- The first layer's dense stage, 100 features to 80: max(0, (S·W + b) + (X·Wi + bi)). -/
def dense80 (s sx : (⟨S150000x100, .f32⟩ : BufTy).Contents (Elt F)) (w : (⟨S100x80, .f32⟩ : BufTy).Contents (Elt F))
    (b : (⟨S1x80, .f32⟩ : BufTy).Contents (Elt F)) (wi : (⟨S100x80, .f32⟩ : BufTy).Contents (Elt F))
    (bi : (⟨S1x80, .f32⟩ : BufTy).Contents (Elt F)) : (⟨S150000x80, .f32⟩ : BufTy).Contents (Elt F) :=
  maximumf
    (addf
      (addf (Host.dotGeneral dot_S150000x100_S100x80_S150000x80_1_0_0_1_n_n none s w)
        (broadcastInDim S150000x80 ![0, 1] bcast_S1x80_S150000x80_0_1 b))
      (addf (Host.dotGeneral dot_S150000x100_S100x80_S150000x80_1_0_0_1_n_n none sx wi)
        (broadcastInDim S150000x80 ![0, 1] bcast_S1x80_S150000x80_0_1 bi)))
    (broadcastInDim S150000x80 ![] bcast_S_S150000x80 (constant S_ .f32 0x00000000#32))

/-- The second layer's dense stage, 80 features to 50. -/
def dense50 (s sx : (⟨S150000x80, .f32⟩ : BufTy).Contents (Elt F)) (w : (⟨S80x50, .f32⟩ : BufTy).Contents (Elt F))
    (b : (⟨S1x50, .f32⟩ : BufTy).Contents (Elt F)) (wi : (⟨S80x50, .f32⟩ : BufTy).Contents (Elt F))
    (bi : (⟨S1x50, .f32⟩ : BufTy).Contents (Elt F)) : (⟨S150000x50, .f32⟩ : BufTy).Contents (Elt F) :=
  maximumf
    (addf
      (addf (Host.dotGeneral dot_S150000x80_S80x50_S150000x50_1_0_0_1_n_n none s w)
        (broadcastInDim S150000x50 ![0, 1] bcast_S1x50_S150000x50_0_1 b))
      (addf (Host.dotGeneral dot_S150000x80_S80x50_S150000x50_1_0_0_1_n_n none sx wi)
        (broadcastInDim S150000x50 ![0, 1] bcast_S1x50_S150000x50_0_1 bi)))
    (broadcastInDim S150000x50 ![] bcast_S_S150000x50 (constant S_ .f32 0x00000000#32))

/-- The scoring head on a batch of 4096 embeddings of width 460: ((max(0, E·W1 + b1))·W2 + b2)·W3 + b3. -/
def head (e : (⟨S4096x460, .f32⟩ : BufTy).Contents (Elt F)) (w1 : (⟨S460x64, .f32⟩ : BufTy).Contents (Elt F))
    (b1 : (⟨S1x64, .f32⟩ : BufTy).Contents (Elt F)) (w2 : (⟨S64x32, .f32⟩ : BufTy).Contents (Elt F))
    (b2 : (⟨S1x32, .f32⟩ : BufTy).Contents (Elt F)) (w3 : (⟨S32x1, .f32⟩ : BufTy).Contents (Elt F))
    (b3 : (⟨S1x1, .f32⟩ : BufTy).Contents (Elt F)) : (⟨S4096x1, .f32⟩ : BufTy).Contents (Elt F) :=
  addf
    (Host.dotGeneral dot_S4096x32_S32x1_S4096x1_1_0_0_1_n_n none
      (addf
        (Host.dotGeneral dot_S4096x64_S64x32_S4096x32_1_0_0_1_n_n none
          (maximumf
            (addf (Host.dotGeneral dot_S4096x460_S460x64_S4096x64_1_0_0_1_n_n none e w1)
              (broadcastInDim S4096x64 ![0, 1] bcast_S1x64_S4096x64_0_1 b1))
            (broadcastInDim S4096x64 ![] bcast_S_S4096x64 (constant S_ .f32 0x00000000#32)))
          w2)
        (broadcastInDim S4096x32 ![0, 1] bcast_S1x32_S4096x32_0_1 b2))
      w3)
    (broadcastInDim S4096x1 ![0, 1] bcast_S1x1_S4096x1_0_1 b3)

end Cert.Hand.Spec

end
-- ==== Proof.Keep.lean ====
/-
  Which buffers a stretch of host operations, or a kernel region, leaves alone.

  A buffer that no operation of a stretch writes holds after the stretch what it held before; a buffer that is not one
  of a region's arrays holds after the region what it held at its entry. Chained from the launch, a buffer nothing has
  written yet still holds its launch contents.
-/
import proofs.«133995_j16355235463443_1_alg».proof.Proof.Gen.KernelIdeal.Frame
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The buffers stretch 0 of the host operations writes. -/
def wr0 : List (Ref sig .tc) := [main_v0, main_v1, main_c, main_v2, main_v3, main_c_0, main_v4, main_v5, main_v6, main_v7, main_v8, main_v9, main_v10, main_cst, main_v11, main_v12, main_v13]

theorem host0_covers : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, wr0, List.map_cons, List.map_nil,
    List.toFinset_cons, List.toFinset_nil, Finset.mem_insert, Finset.mem_singleton, true_or, or_true, and_self]

/-- A buffer stretch 0 does not write is unchanged by it. -/
theorem host0_keep (W : Valuation τ sig (Elt F)) (r : Ref sig .tc) (hr : r ∉ wr0) :
    StableHlo.after hostOps0 W (Proc.devRef .tc r) = W (Proc.devRef .tc r) :=
  StableHlo.after_of_writes_sub hostOps0 W host0_covers hr

/-- The buffers stretch 1 of the host operations writes. -/
def wr1 : List (Ref sig .tc) := [main_v15, main_c_1, main_v16, main_v17, main_c_2, main_v18, main_v19, main_v20, main_v21, main_v22, main_v23, main_v24, main_cst_3, main_v25, main_v26, main_v27, main_v28, main_v29]

theorem host1_covers : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, wr1, List.map_cons, List.map_nil,
    List.toFinset_cons, List.toFinset_nil, Finset.mem_insert, Finset.mem_singleton, true_or, or_true, and_self]

/-- A buffer stretch 1 does not write is unchanged by it. -/
theorem host1_keep (W : Valuation τ sig (Elt F)) (r : Ref sig .tc) (hr : r ∉ wr1) :
    StableHlo.after hostOps1 W (Proc.devRef .tc r) = W (Proc.devRef .tc r) :=
  StableHlo.after_of_writes_sub hostOps1 W host1_covers hr

/-- The buffers stretch 2 of the host operations writes. -/
def wr2 : List (Ref sig .tc) := [main_v31, main_v32, main_c_4, main_v33, main_v34, main_c_5, main_v35, main_v36, main_v37, main_v38, main_v39, main_v40, main_v41, main_cst_6, main_v42, main_v43, main_v44]

theorem host2_covers : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, wr2, List.map_cons, List.map_nil,
    List.toFinset_cons, List.toFinset_nil, Finset.mem_insert, Finset.mem_singleton, true_or, or_true, and_self]

/-- A buffer stretch 2 does not write is unchanged by it. -/
theorem host2_keep (W : Valuation τ sig (Elt F)) (r : Ref sig .tc) (hr : r ∉ wr2) :
    StableHlo.after hostOps2 W (Proc.devRef .tc r) = W (Proc.devRef .tc r) :=
  StableHlo.after_of_writes_sub hostOps2 W host2_covers hr

/-- The buffers stretch 3 of the host operations writes. -/
def wr3 : List (Ref sig .tc) := [main_v46, main_c_7, main_v47, main_v48, main_c_8, main_v49, main_v50, main_v51, main_v52, main_v53, main_v54, main_v55, main_cst_9, main_v56, main_v57, main_v58, main_v59, main_v60]

theorem host3_covers : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, wr3, List.map_cons, List.map_nil,
    List.toFinset_cons, List.toFinset_nil, Finset.mem_insert, Finset.mem_singleton, true_or, or_true, and_self]

/-- A buffer stretch 3 does not write is unchanged by it. -/
theorem host3_keep (W : Valuation τ sig (Elt F)) (r : Ref sig .tc) (hr : r ∉ wr3) :
    StableHlo.after hostOps3 W (Proc.devRef .tc r) = W (Proc.devRef .tc r) :=
  StableHlo.after_of_writes_sub hostOps3 W host3_covers hr

/-- The buffers stretch 4 of the host operations writes. -/
def wr4 : List (Ref sig .tc) := [main_v62, main_c_10, main_v63, main_v64, main_c_11, main_v65, main_v66, main_v67, main_v68, main_v69, main_c_12, main_v70, main_v71, main_c_13, main_v72, main_v73, main_v74, main_v75, main_v76, main_v77, main_v78, main_v79, main_v80]

theorem host4_covers : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, wr4, List.map_cons, List.map_nil,
    List.toFinset_cons, List.toFinset_nil, Finset.mem_insert, Finset.mem_singleton, true_or, or_true, and_self]

/-- A buffer stretch 4 does not write is unchanged by it. -/
theorem host4_keep (W : Valuation τ sig (Elt F)) (r : Ref sig .tc) (hr : r ∉ wr4) :
    StableHlo.after hostOps4 W (Proc.devRef .tc r) = W (Proc.devRef .tc r) :=
  StableHlo.after_of_writes_sub hostOps4 W host4_covers hr

/-- The buffers stretch 5 of the host operations writes. -/
def wr5 : List (Ref sig .tc) := [main_v82]

theorem host5_covers : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, wr5, List.map_cons, List.map_nil,
    List.toFinset_cons, List.toFinset_nil, Finset.mem_insert, Finset.mem_singleton, true_or, or_true, and_self]

/-- A buffer stretch 5 does not write is unchanged by it. -/
theorem host5_keep (W : Valuation τ sig (Elt F)) (r : Ref sig .tc) (hr : r ∉ wr5) :
    StableHlo.after hostOps5 W (Proc.devRef .tc r) = W (Proc.devRef .tc r) :=
  StableHlo.after_of_writes_sub hostOps5 W host5_covers hr

variable (m : (ℓ : Loc nD τ sig) → Buf (Elt F) ℓ) (ρ : Dev nD → PrngReg) (c : Dev nD)

/-! ## A buffer untouched so far holds its launch contents -/

theorem at1 (b : Ref sig .tc) (h0 : b ∉ wr0) : W1 m ρ c (Proc.devRef .tc b) = m ((c : Thread nD τ).loc b) :=
  host0_keep _ b h0
theorem at2 (b : Ref sig .tc) (h0 : b ∉ wr0) (r0 : ∀ w, Pipeline.arrRef spec0 w ≠ b) :
    W2 m ρ c (Proc.devRef .tc b) = m ((c : Thread nD τ).loc b) :=
  (W2_of_ne m ρ c b r0).trans (at1 m ρ c b h0)
theorem at3 (b : Ref sig .tc) (h0 : b ∉ wr0) (r0 : ∀ w, Pipeline.arrRef spec0 w ≠ b) (h1 : b ∉ wr1) :
    W3 m ρ c (Proc.devRef .tc b) = m ((c : Thread nD τ).loc b) :=
  (host1_keep _ b h1).trans (at2 m ρ c b h0 r0)
theorem at4 (b : Ref sig .tc) (h0 : b ∉ wr0) (r0 : ∀ w, Pipeline.arrRef spec0 w ≠ b) (h1 : b ∉ wr1)
    (r1 : ∀ w, Pipeline.arrRef spec1 w ≠ b) : W4 m ρ c (Proc.devRef .tc b) = m ((c : Thread nD τ).loc b) :=
  (W4_of_ne m ρ c b r1).trans (at3 m ρ c b h0 r0 h1)
theorem at5 (b : Ref sig .tc) (h0 : b ∉ wr0) (r0 : ∀ w, Pipeline.arrRef spec0 w ≠ b) (h1 : b ∉ wr1)
    (r1 : ∀ w, Pipeline.arrRef spec1 w ≠ b) (h2 : b ∉ wr2) : W5 m ρ c (Proc.devRef .tc b) = m ((c : Thread nD τ).loc b) :=
  (host2_keep _ b h2).trans (at4 m ρ c b h0 r0 h1 r1)
theorem at6 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) :
    W6 m ρ c (Proc.devRef .tc b) = m ((c : Thread nD τ).loc b) :=
  (W6_of_ne m ρ c b r2).trans (at5 m ρ c b h0 r0 h1 r1 h2)
theorem at7 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3) :
    W7 m ρ c (Proc.devRef .tc b) = m ((c : Thread nD τ).loc b) :=
  (host3_keep _ b h3).trans (at6 m ρ c b h0 r0 h1 r1 h2 r2)
theorem at8 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3)
    (r3 : ∀ w, Pipeline.arrRef spec3 w ≠ b) : W8 m ρ c (Proc.devRef .tc b) = m ((c : Thread nD τ).loc b) :=
  (W8_of_ne m ρ c b r3).trans (at7 m ρ c b h0 r0 h1 r1 h2 r2 h3)
theorem at9 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3)
    (r3 : ∀ w, Pipeline.arrRef spec3 w ≠ b) (h4 : b ∉ wr4) : W9 m ρ c (Proc.devRef .tc b) = m ((c : Thread nD τ).loc b) :=
  (host4_keep _ b h4).trans (at8 m ρ c b h0 r0 h1 r1 h2 r2 h3 r3)

end Cert.KernelIdeal.Hand

end
-- ==== Proof.Rows.lean ====
/-
  A vector laid out as a one-row matrix.

  A length-n vector becomes a [1, n] matrix either by recasting its n entries in row-major order or by repeating it
  along a new leading axis of extent one; both read, at (0, j), the vector's entry j, so they are the same matrix.
-/
import Idealize.ShloMosaic.Lib.ValueIdx
import Idealize.ShloMosaic.Lib.Pipeline.Value

namespace Cert.Hand.Rows

open Idealize.ShloMosaic Idealize.ShloMosaic.ValueIdx

/-- Recasting a length-`n` vector to `[1, n]` is repeating it along a leading unit axis. -/
theorem cast_eq_repeat {α : Type} {n : ℕ} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  have h0 : (j 0).val = 0 := Nat.lt_one_iff.mp (j 0).isLt
  have e1 : shapeCast ⟨2, ![1, n]⟩ x h j = x (ix1 (j 1)) :=
    shapeCast_apply x h j (ix1 (j 1)) (by
      rw [Shape.rowMajor_val_two, Shape.rowMajor_val_one]
      show (j 1).val = (j 0).val * n + (j 1).val
      rw [h0, Nat.zero_mul, Nat.zero_add])
  have e2 : broadcastInDim ⟨2, ![1, n]⟩ ![1] h' x j = x (ix1 (j 1)) :=
    broadcastInDim_apply ![1] h' x j (ix1 (j 1)) (fun a => by
      match a with
      | ⟨0, _⟩ =>
        have hj : (j 1).val < n := (j 1).isLt
        show (j 1).val = if n = 1 then 0 else (j 1).val
        split
        · omega
        · rfl)
  rw [e1, e2]

end Cert.Hand.Rows
-- ==== Proof.EwCombine.lean ====
/-
  The two elementwise stages of the network.

  Each message-passing layer forms, from the propagated features L and the layer's own features X (both
  [150000, f]), the entrywise product L ⊙ X and the entrywise sum L + X. The stage works on blocks of 1000 rows: point t
  of its 150 points reads rows 1000 t … 1000 t + 999 of both inputs and writes the same rows of both outputs. The
  blocks tile the rows, so after the stage each output array is the entrywise product, or sum, of the whole inputs.
-/
import proofs.«133995_j16355235463443_1_alg».proof.Proof.Gen.KernelIdeal.Frame
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## The elementwise stage over [150000, 100] -/

/-- The stage's four windows move together: point `t` stages rows `1000 t … 1000 t + 999`, all columns. -/
theorem rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem prod_body0 (x0 x1 : Vec F S1000x100 .f32) : k0_pay3 x0 x1 = mulf x0 x1 := by
  unfold k0_pay3 k0_pay1 k0_pay2
  rw [shapeCast_self, shapeCast_self]

theorem sum_body0 (x0 x1 : Vec F S1000x100 .f32) : k0_pay4 x0 x1 = addf x0 x1 := by
  unfold k0_pay4 k0_pay1 k0_pay2
  rw [shapeCast_self, shapeCast_self]

/-- An entry of an input block is the array's entry in the same place of the output's block. -/
theorem in0_at0 (t : Fin cfg0.N) (j : ((cfg0.win 2).xblock (cfg0.grid.coords t)).Idx) :
    ((cfg0.win 0).blk t).view.emb j = ((cfg0.win 2).blk t).view.emb j := by
  obtain ⟨e0, e1, e2, e3, e4, e5, e6, e7⟩ := rows0 t
  funext a; apply Fin.ext
  match a with
  | ⟨0, _⟩ => show win0_0.index t (0 : Fin 2) * 1000 + 1 * (j 0).val = win0_2.index t (0 : Fin 2) * 1000 + 1 * (j 0).val; omega
  | ⟨1, _⟩ => show win0_0.index t (1 : Fin 2) * 100 + 1 * (j 1).val = win0_2.index t (1 : Fin 2) * 100 + 1 * (j 1).val; omega

theorem in1_at0 (t : Fin cfg0.N) (j : ((cfg0.win 2).xblock (cfg0.grid.coords t)).Idx) :
    ((cfg0.win 1).blk t).view.emb j = ((cfg0.win 2).blk t).view.emb j := by
  obtain ⟨e0, e1, e2, e3, e4, e5, e6, e7⟩ := rows0 t
  funext a; apply Fin.ext
  match a with
  | ⟨0, _⟩ => show win0_1.index t (0 : Fin 2) * 1000 + 1 * (j 0).val = win0_2.index t (0 : Fin 2) * 1000 + 1 * (j 0).val; omega
  | ⟨1, _⟩ => show win0_1.index t (1 : Fin 2) * 100 + 1 * (j 1).val = win0_2.index t (1 : Fin 2) * 100 + 1 * (j 1).val; omega

theorem out3_at0 (t : Fin cfg0.N) (j : ((cfg0.win 2).xblock (cfg0.grid.coords t)).Idx) :
    ((cfg0.win 3).blk t).view.emb j = ((cfg0.win 2).blk t).view.emb j := by
  obtain ⟨e0, e1, e2, e3, e4, e5, e6, e7⟩ := rows0 t
  funext a; apply Fin.ext
  match a with
  | ⟨0, _⟩ => show win0_3.index t (0 : Fin 2) * 1000 + 1 * (j 0).val = win0_2.index t (0 : Fin 2) * 1000 + 1 * (j 0).val; omega
  | ⟨1, _⟩ => show win0_3.index t (1 : Fin 2) * 100 + 1 * (j 1).val = win0_2.index t (1 : Fin 2) * 100 + 1 * (j 1).val; omega

/-- What point `t` writes back to the product's array is block `t` of the entrywise product of the two input arrays. -/
theorem prod_flushed0 (c : Dev nD) (t : Fin cfg0.N) :
    (dat0 (F := F) V c).flushed 2 t
      = ((cfg0.win 2).blk t).view.read (Elt F) (mulf (V c main_v13) (V c main_v0)) := by
  show (cfg0.win 2).cut (grid0.coords t) ((dat0 V c).after 2 t) = _
  rw [after0_2]
  unfold out0_2
  rw [View.canon_unit_zero hz]
  simp only [View.ld_unit_zero (S := S1000x100) hz]
  rw [prod_body0]
  funext j
  show FloatOps.mulf (V c main_v13 (((cfg0.win 0).blk t).view.emb j)) (V c main_v0 (((cfg0.win 1).blk t).view.emb j))
    = FloatOps.mulf (V c main_v13 (((cfg0.win 2).blk t).view.emb j)) (V c main_v0 (((cfg0.win 2).blk t).view.emb j))
  rw [in0_at0 t j, in1_at0 t j]

/-- What point `t` writes back to the sum's array is block `t` of the entrywise sum of the two input arrays. -/
theorem sum_flushed0 (c : Dev nD) (t : Fin cfg0.N) :
    (dat0 (F := F) V c).flushed 3 t
      = ((cfg0.win 3).blk t).view.read (Elt F) (addf (V c main_v13) (V c main_v0)) := by
  show (cfg0.win 3).cut (grid0.coords t) ((dat0 V c).after 3 t) = _
  rw [after0_3]
  unfold out0_3
  rw [View.canon_unit_zero hz]
  simp only [View.ld_unit_zero (S := S1000x100) hz]
  rw [sum_body0]
  funext j
  show FloatOps.addf (V c main_v13 (((cfg0.win 0).blk t).view.emb j)) (V c main_v0 (((cfg0.win 1).blk t).view.emb j))
    = FloatOps.addf (V c main_v13 (((cfg0.win 3).blk t).view.emb j)) (V c main_v0 (((cfg0.win 3).blk t).view.emb j))
  rw [in0_at0 t j, in1_at0 t j, out3_at0 t j]

/-- Row `r` of the [150000, 100] array lies in the block of point `r / 1000`. -/
theorem covered0_2 (i : S150000x100.Idx) : ∃ t : Fin cfg0.N, (cfg0.win 2).flush t = true ∧ i ∈ ((cfg0.win 2).blk t).view.set := by
  have hN : grid0.N = 150 := N_0
  have h0 : (i 0).val < 150000 := (i 0).isLt
  have h1 : (i 1).val < 100 := (i 1).isLt
  have ht : (i 0).val / 1000 < cfg0.N := by show _ < grid0.N; rw [hN]; omega
  obtain ⟨e0, e1, e2, e3, e4, e5, e6, e7⟩ := rows0 ⟨(i 0).val / 1000, ht⟩
  refine ⟨⟨(i 0).val / 1000, ht⟩, flush0_2 _, ?_⟩
  show i ∈ ((View.whole main_v14_0).slice (win0_2.rect ⟨(i 0).val / 1000, ht⟩)).set
  rw [View.set_slice_whole, Rect.mem_set_unit]
  intro a
  match a with
  | ⟨0, _⟩ => show win0_2.index ⟨(i 0).val / 1000, ht⟩ (0 : Fin 2) * 1000 ≤ (i 0).val ∧ (i 0).val < win0_2.index ⟨(i 0).val / 1000, ht⟩ (0 : Fin 2) * 1000 + 1000; rw [e4]; show (i 0).val / 1000 * 1000 ≤ _ ∧ _ < (i 0).val / 1000 * 1000 + 1000; omega
  | ⟨1, _⟩ => show win0_2.index ⟨(i 0).val / 1000, ht⟩ (1 : Fin 2) * 100 ≤ (i 1).val ∧ (i 1).val < win0_2.index ⟨(i 0).val / 1000, ht⟩ (1 : Fin 2) * 100 + 100; rw [e5]; omega

theorem covered0_3 (i : S150000x100.Idx) : ∃ t : Fin cfg0.N, (cfg0.win 3).flush t = true ∧ i ∈ ((cfg0.win 3).blk t).view.set := by
  have hN : grid0.N = 150 := N_0
  have h0 : (i 0).val < 150000 := (i 0).isLt
  have h1 : (i 1).val < 100 := (i 1).isLt
  have ht : (i 0).val / 1000 < cfg0.N := by show _ < grid0.N; rw [hN]; omega
  obtain ⟨e0, e1, e2, e3, e4, e5, e6, e7⟩ := rows0 ⟨(i 0).val / 1000, ht⟩
  refine ⟨⟨(i 0).val / 1000, ht⟩, flush0_3 _, ?_⟩
  show i ∈ ((View.whole main_v14_1).slice (win0_3.rect ⟨(i 0).val / 1000, ht⟩)).set
  rw [View.set_slice_whole, Rect.mem_set_unit]
  intro a
  match a with
  | ⟨0, _⟩ => show win0_3.index ⟨(i 0).val / 1000, ht⟩ (0 : Fin 2) * 1000 ≤ (i 0).val ∧ (i 0).val < win0_3.index ⟨(i 0).val / 1000, ht⟩ (0 : Fin 2) * 1000 + 1000; rw [e6]; show (i 0).val / 1000 * 1000 ≤ _ ∧ _ < (i 0).val / 1000 * 1000 + 1000; omega
  | ⟨1, _⟩ => show win0_3.index ⟨(i 0).val / 1000, ht⟩ (1 : Fin 2) * 100 ≤ (i 1).val ∧ (i 1).val < win0_3.index ⟨(i 0).val / 1000, ht⟩ (1 : Fin 2) * 100 + 100; rw [e7]; omega

/-- After the stage the product's array is the entrywise product of the two input arrays as the stage found them. -/
theorem prod_value0 (c : Dev nD) : (dat0 (F := F) V c).arrAt 2 cfg0.N = mulf (V c main_v13) (V c main_v0) :=
  (dat0 V c).arrAt_eq_of_cover 2 (mulf (V c main_v13) (V c main_v0)) (fun t _ => prod_flushed0 V c t) (covered0_2)

/-- After the stage the sum's array is the entrywise sum of the two input arrays as the stage found them. -/
theorem sum_value0 (c : Dev nD) : (dat0 (F := F) V c).arrAt 3 cfg0.N = addf (V c main_v13) (V c main_v0) :=
  (dat0 V c).arrAt_eq_of_cover 3 (addf (V c main_v13) (V c main_v0)) (fun t _ => sum_flushed0 V c t) (covered0_3)

/-! ## The elementwise stage over [150000, 80] -/

/-- The stage's four windows move together: point `t` stages rows `1000 t … 1000 t + 999`, all columns. -/
theorem rows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem prod_body2 (x0 x1 : Vec F S1000x80 .f32) : k2_pay3 x0 x1 = mulf x0 x1 := by
  unfold k2_pay3 k2_pay1 k2_pay2
  rw [shapeCast_self, shapeCast_self]

theorem sum_body2 (x0 x1 : Vec F S1000x80 .f32) : k2_pay4 x0 x1 = addf x0 x1 := by
  unfold k2_pay4 k2_pay1 k2_pay2
  rw [shapeCast_self, shapeCast_self]

/-- An entry of an input block is the array's entry in the same place of the output's block. -/
theorem in0_at2 (t : Fin cfg2.N) (j : ((cfg2.win 2).xblock (cfg2.grid.coords t)).Idx) :
    ((cfg2.win 0).blk t).view.emb j = ((cfg2.win 2).blk t).view.emb j := by
  obtain ⟨e0, e1, e2, e3, e4, e5, e6, e7⟩ := rows2 t
  funext a; apply Fin.ext
  match a with
  | ⟨0, _⟩ => show win2_0.index t (0 : Fin 2) * 1000 + 1 * (j 0).val = win2_2.index t (0 : Fin 2) * 1000 + 1 * (j 0).val; omega
  | ⟨1, _⟩ => show win2_0.index t (1 : Fin 2) * 80 + 1 * (j 1).val = win2_2.index t (1 : Fin 2) * 80 + 1 * (j 1).val; omega

theorem in1_at2 (t : Fin cfg2.N) (j : ((cfg2.win 2).xblock (cfg2.grid.coords t)).Idx) :
    ((cfg2.win 1).blk t).view.emb j = ((cfg2.win 2).blk t).view.emb j := by
  obtain ⟨e0, e1, e2, e3, e4, e5, e6, e7⟩ := rows2 t
  funext a; apply Fin.ext
  match a with
  | ⟨0, _⟩ => show win2_1.index t (0 : Fin 2) * 1000 + 1 * (j 0).val = win2_2.index t (0 : Fin 2) * 1000 + 1 * (j 0).val; omega
  | ⟨1, _⟩ => show win2_1.index t (1 : Fin 2) * 80 + 1 * (j 1).val = win2_2.index t (1 : Fin 2) * 80 + 1 * (j 1).val; omega

theorem out3_at2 (t : Fin cfg2.N) (j : ((cfg2.win 2).xblock (cfg2.grid.coords t)).Idx) :
    ((cfg2.win 3).blk t).view.emb j = ((cfg2.win 2).blk t).view.emb j := by
  obtain ⟨e0, e1, e2, e3, e4, e5, e6, e7⟩ := rows2 t
  funext a; apply Fin.ext
  match a with
  | ⟨0, _⟩ => show win2_3.index t (0 : Fin 2) * 1000 + 1 * (j 0).val = win2_2.index t (0 : Fin 2) * 1000 + 1 * (j 0).val; omega
  | ⟨1, _⟩ => show win2_3.index t (1 : Fin 2) * 80 + 1 * (j 1).val = win2_2.index t (1 : Fin 2) * 80 + 1 * (j 1).val; omega

/-- What point `t` writes back to the product's array is block `t` of the entrywise product of the two input arrays. -/
theorem prod_flushed2 (c : Dev nD) (t : Fin cfg2.N) :
    (dat2 (F := F) V c).flushed 2 t
      = ((cfg2.win 2).blk t).view.read (Elt F) (mulf (V c main_v44) (V c main_v30)) := by
  show (cfg2.win 2).cut (grid2.coords t) ((dat2 V c).after 2 t) = _
  rw [after2_2]
  unfold out2_2
  rw [View.canon_unit_zero hz]
  simp only [View.ld_unit_zero (S := S1000x80) hz]
  rw [prod_body2]
  funext j
  show FloatOps.mulf (V c main_v44 (((cfg2.win 0).blk t).view.emb j)) (V c main_v30 (((cfg2.win 1).blk t).view.emb j))
    = FloatOps.mulf (V c main_v44 (((cfg2.win 2).blk t).view.emb j)) (V c main_v30 (((cfg2.win 2).blk t).view.emb j))
  rw [in0_at2 t j, in1_at2 t j]

/-- What point `t` writes back to the sum's array is block `t` of the entrywise sum of the two input arrays. -/
theorem sum_flushed2 (c : Dev nD) (t : Fin cfg2.N) :
    (dat2 (F := F) V c).flushed 3 t
      = ((cfg2.win 3).blk t).view.read (Elt F) (addf (V c main_v44) (V c main_v30)) := by
  show (cfg2.win 3).cut (grid2.coords t) ((dat2 V c).after 3 t) = _
  rw [after2_3]
  unfold out2_3
  rw [View.canon_unit_zero hz]
  simp only [View.ld_unit_zero (S := S1000x80) hz]
  rw [sum_body2]
  funext j
  show FloatOps.addf (V c main_v44 (((cfg2.win 0).blk t).view.emb j)) (V c main_v30 (((cfg2.win 1).blk t).view.emb j))
    = FloatOps.addf (V c main_v44 (((cfg2.win 3).blk t).view.emb j)) (V c main_v30 (((cfg2.win 3).blk t).view.emb j))
  rw [in0_at2 t j, in1_at2 t j, out3_at2 t j]

/-- Row `r` of the [150000, 80] array lies in the block of point `r / 1000`. -/
theorem covered2_2 (i : S150000x80.Idx) : ∃ t : Fin cfg2.N, (cfg2.win 2).flush t = true ∧ i ∈ ((cfg2.win 2).blk t).view.set := by
  have hN : grid2.N = 150 := N_2
  have h0 : (i 0).val < 150000 := (i 0).isLt
  have h1 : (i 1).val < 80 := (i 1).isLt
  have ht : (i 0).val / 1000 < cfg2.N := by show _ < grid2.N; rw [hN]; omega
  obtain ⟨e0, e1, e2, e3, e4, e5, e6, e7⟩ := rows2 ⟨(i 0).val / 1000, ht⟩
  refine ⟨⟨(i 0).val / 1000, ht⟩, flush2_2 _, ?_⟩
  show i ∈ ((View.whole main_v45_0).slice (win2_2.rect ⟨(i 0).val / 1000, ht⟩)).set
  rw [View.set_slice_whole, Rect.mem_set_unit]
  intro a
  match a with
  | ⟨0, _⟩ => show win2_2.index ⟨(i 0).val / 1000, ht⟩ (0 : Fin 2) * 1000 ≤ (i 0).val ∧ (i 0).val < win2_2.index ⟨(i 0).val / 1000, ht⟩ (0 : Fin 2) * 1000 + 1000; rw [e4]; show (i 0).val / 1000 * 1000 ≤ _ ∧ _ < (i 0).val / 1000 * 1000 + 1000; omega
  | ⟨1, _⟩ => show win2_2.index ⟨(i 0).val / 1000, ht⟩ (1 : Fin 2) * 80 ≤ (i 1).val ∧ (i 1).val < win2_2.index ⟨(i 0).val / 1000, ht⟩ (1 : Fin 2) * 80 + 80; rw [e5]; omega

theorem covered2_3 (i : S150000x80.Idx) : ∃ t : Fin cfg2.N, (cfg2.win 3).flush t = true ∧ i ∈ ((cfg2.win 3).blk t).view.set := by
  have hN : grid2.N = 150 := N_2
  have h0 : (i 0).val < 150000 := (i 0).isLt
  have h1 : (i 1).val < 80 := (i 1).isLt
  have ht : (i 0).val / 1000 < cfg2.N := by show _ < grid2.N; rw [hN]; omega
  obtain ⟨e0, e1, e2, e3, e4, e5, e6, e7⟩ := rows2 ⟨(i 0).val / 1000, ht⟩
  refine ⟨⟨(i 0).val / 1000, ht⟩, flush2_3 _, ?_⟩
  show i ∈ ((View.whole main_v45_1).slice (win2_3.rect ⟨(i 0).val / 1000, ht⟩)).set
  rw [View.set_slice_whole, Rect.mem_set_unit]
  intro a
  match a with
  | ⟨0, _⟩ => show win2_3.index ⟨(i 0).val / 1000, ht⟩ (0 : Fin 2) * 1000 ≤ (i 0).val ∧ (i 0).val < win2_3.index ⟨(i 0).val / 1000, ht⟩ (0 : Fin 2) * 1000 + 1000; rw [e6]; show (i 0).val / 1000 * 1000 ≤ _ ∧ _ < (i 0).val / 1000 * 1000 + 1000; omega
  | ⟨1, _⟩ => show win2_3.index ⟨(i 0).val / 1000, ht⟩ (1 : Fin 2) * 80 ≤ (i 1).val ∧ (i 1).val < win2_3.index ⟨(i 0).val / 1000, ht⟩ (1 : Fin 2) * 80 + 80; rw [e7]; omega

/-- After the stage the product's array is the entrywise product of the two input arrays as the stage found them. -/
theorem prod_value2 (c : Dev nD) : (dat2 (F := F) V c).arrAt 2 cfg2.N = mulf (V c main_v44) (V c main_v30) :=
  (dat2 V c).arrAt_eq_of_cover 2 (mulf (V c main_v44) (V c main_v30)) (fun t _ => prod_flushed2 V c t) (covered2_2)

/-- After the stage the sum's array is the entrywise sum of the two input arrays as the stage found them. -/
theorem sum_value2 (c : Dev nD) : (dat2 (F := F) V c).arrAt 3 cfg2.N = addf (V c main_v44) (V c main_v30) :=
  (dat2 V c).arrAt_eq_of_cover 3 (addf (V c main_v44) (V c main_v30)) (fun t _ => sum_flushed2 V c t) (covered2_3)

end Cert.KernelIdeal.Hand

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.DenseAux.lean ====
/-
  Small facts about one-row matrices and scalars spread over a matrix, read at an entry given by its coordinates.

  A bias is kept as a one-row matrix [1, b]. Repeated down the a rows of an [a, b] matrix it reads, at (p, q), the
  row's entry q, whichever of the two spreading operations wrote it; and a scalar spread over a whole array reads
  the scalar at every entry.
-/
import Idealize.ShloMosaic.Lib.Pipeline.Value
import Idealize.ShloMosaic.Lib.ValueIdx
import Idealize.ShloMosaic.Lib.ValueLayout

namespace Cert.KernelIdeal.Hand.DenseAux

open Idealize.ShloMosaic Idealize.ShloMosaic.ValueIdx

/-- The offsets `(0, 0)` of a whole-block access are the zero offsets. -/
theorem zeroOffsets : (![0, 0] : Fin 2 → Nat) = fun _ => 0 := funext fun a => by fin_cases a <;> rfl

/-- A one-row matrix `[1, b]` repeated down `a` rows reads, at `(p, q)`, the row's entry `q`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same for the host's spreading of a one-row matrix along both named axes. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun ax => match ax with
    | ⟨0, _⟩ => by show 0 = if (1 : Nat) = 1 then 0 else p.val; rw [if_pos rfl]
    | ⟨1, _⟩ => by
      show q.val = if b = 1 then 0 else q.val
      split
      · have := q.isLt; omega
      · rfl)

/-- A scalar spread over a whole array reads the scalar at every entry. -/
theorem broadcastInDim_scalar_apply {α : Type} {t : Shape} (h : (⟨0, ![]⟩ : Shape).BroadcastsInDim t ![])
    (v : (⟨0, ![]⟩ : Shape).Idx → α) (j : t.Idx) :
    broadcastInDim t ![] h v j = v (fun a => a.elim0) :=
  broadcastInDim_apply _ h v j (fun a => a.elim0) (fun a => a.elim0)

end Cert.KernelIdeal.Hand.DenseAux
-- ==== Proof.Dense1.lean ====
/-
  The first layer's dense stage, read off the pipelined run of the region that computes it.

  The region walks the 150000 rows in 150 blocks of 1000. At each block it holds 1000 rows of the summed features S and
  of the propagated products X, and the whole of the weights W, Wi (100 × 80) and of the one-row biases b, bi. What it
  writes back for row p of the block and column q is
      max((∑ₖ S(p,k)·W(k,q) + b(0,q)) + (∑ₖ X(p,k)·Wi(k,q) + bi(0,q)), 0),
  which is the entry (1000·t + p, q) of the whole-array dense stage. Every row r lies in the block r / 1000, so the
  blocks written back make up the whole array.
-/
import proofs.«133995_j16355235463443_1_alg».proof.Proof.Gen.KernelIdeal.Frame
import proofs.«133995_j16355235463443_1_alg».proof.Proof.Spec
import proofs.«133995_j16355235463443_1_alg».proof.Proof.LibPlainDot
import proofs.«133995_j16355235463443_1_alg».proof.Proof.DenseAux
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.KernelIdeal.Hand.Dense1

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Hand.DenseAux

/-! ## One block: what the body writes, entry by entry -/

/-- The block product's contraction record is the plain one: rows by columns over the shared axis. -/
theorem blockDot1_eq : dot_S1000x100_S100x80_S1000x80_1_0_0_1_n_n = DotDims.plain 1000 100 80 := rfl

/-- The body's arithmetic at an entry: both products are sums over the shared axis (a product accumulated into a zero
    tile is the plain sum, and narrowing the operands changes nothing on the extended reals), each bias row is read at
    its column, and the final maximum is against zero. The arguments come in the order the body loads them. -/
theorem pay1_apply (v0 v3 : Vec Ideal S1000x100 .f32) (v6 v8 : Vec Ideal S100x80 .f32) (v11 v16 : Vec Ideal S1x80 .f32)
    (p : Fin 1000) (q : Fin 80) :
    k1_pay1 (F := Ideal) v0 v3 v6 v8 v11 v16 (ix2 p q)
      = max (((∑ k : Fin 100, v0 (ix2 p k) * v6 (ix2 k q)) + v11 (ix2 (0 : Fin 1) q))
            + ((∑ k : Fin 100, v3 (ix2 p k) * v8 (ix2 k q)) + v16 (ix2 (0 : Fin 1) q))) 0 := by
  unfold k1_pay1
  simp only [shapeCast_self]
  show max ((FloatOps.matmul dot_S1000x100_S100x80_S1000x80_1_0_0_1_n_n none v0 v6 (constant (F := Ideal) S1000x80 .f32 0x00000000#32) (ix2 p q)
        + broadcastTo S1000x80 v11 broadcasts_S1x80_S1000x80 (ix2 p q))
      + (FloatOps.matmul dot_S1000x100_S100x80_S1000x80_1_0_0_1_n_n none v3 v8 (constant (F := Ideal) S1000x80 .f32 0x00000000#32) (ix2 p q)
        + broadcastTo S1000x80 v16 broadcasts_S1x80_S1000x80 (ix2 p q))) (Ideal.ofBits .f32 0x00000000#32) = _
  rw [Ideal.ofBits_zero_f32, blockDot1_eq, Cert.LibPlainDot.matmul_plain_zero_apply, Cert.LibPlainDot.matmul_plain_zero_apply,
    broadcastTo_row_apply, broadcastTo_row_apply]

/-- What the body leaves in the output block, entry by entry, from the six blocks it holds (in the windows' order:
    S, X, W, b, Wi, bi). -/
theorem out1_6_apply (x0 x1 : Vec Ideal S1000x100 .f32) (x2 : Vec Ideal S100x80 .f32) (x3 : Vec Ideal S1x80 .f32)
    (x4 : Vec Ideal S100x80 .f32) (x5 : Vec Ideal S1x80 .f32) (p : Fin 1000) (q : Fin 80) :
    out1_6 (F := Ideal) x0 x1 x2 x3 x4 x5 (ix2 p q)
      = max (((∑ k : Fin 100, x0 (ix2 p k) * x2 (ix2 k q)) + x3 (ix2 (0 : Fin 1) q))
            + ((∑ k : Fin 100, x1 (ix2 p k) * x4 (ix2 k q)) + x5 (ix2 (0 : Fin 1) q))) 0 := by
  unfold out1_6
  rw [View.canon_unit_zero zeroOffsets]
  simp only [View.ld_unit_zero (S := S1000x100) zeroOffsets, View.ld_unit_zero (S := S100x80) zeroOffsets,
    View.ld_unit_zero (S := S1x80) zeroOffsets]
  exact pay1_apply x0 x1 x2 x4 x3 x5 p q

/-! ## The whole array: the dense stage, entry by entry -/

/-- The whole-array product's contraction record is the plain one. -/
theorem arrayDot1_eq : Cert.ReferenceIdeal.dot_S150000x100_S100x80_S150000x80_1_0_0_1_n_n = DotDims.plain 150000 100 80 := rfl

/-- The whole-array dense stage at row `r`, column `q`: the same formula over the whole arrays. -/
theorem dense80_apply (s sx : (⟨2, ![150000, 100]⟩ : Shape).Idx → EReal) (w : (⟨2, ![100, 80]⟩ : Shape).Idx → EReal)
    (b : (⟨2, ![1, 80]⟩ : Shape).Idx → EReal) (wi : (⟨2, ![100, 80]⟩ : Shape).Idx → EReal) (bi : (⟨2, ![1, 80]⟩ : Shape).Idx → EReal)
    (r : Fin 150000) (q : Fin 80) :
    Cert.Hand.Spec.dense80 (F := Ideal) s sx w b wi bi (ix2 r q)
      = max (((∑ k : Fin 100, s (ix2 r k) * w (ix2 k q)) + b (ix2 (0 : Fin 1) q))
            + ((∑ k : Fin 100, sx (ix2 r k) * wi (ix2 k q)) + bi (ix2 (0 : Fin 1) q))) 0 := by
  unfold Cert.Hand.Spec.dense80
  show max ((Host.dotGeneral (F := Ideal) Cert.ReferenceIdeal.dot_S150000x100_S100x80_S150000x80_1_0_0_1_n_n none s w (ix2 r q)
        + broadcastInDim Cert.ReferenceIdeal.S150000x80 ![0, 1] Cert.ReferenceIdeal.Gen.bcast_S1x80_S150000x80_0_1 b (ix2 r q))
      + (Host.dotGeneral (F := Ideal) Cert.ReferenceIdeal.dot_S150000x100_S100x80_S150000x80_1_0_0_1_n_n none sx wi (ix2 r q)
        + broadcastInDim Cert.ReferenceIdeal.S150000x80 ![0, 1] Cert.ReferenceIdeal.Gen.bcast_S1x80_S150000x80_0_1 bi (ix2 r q)))
      (broadcastInDim Cert.ReferenceIdeal.S150000x80 ![] Cert.ReferenceIdeal.Gen.bcast_S_S150000x80
        (constant (F := Ideal) Cert.ReferenceIdeal.S_ .f32 0x00000000#32) (ix2 r q)) = _
  rw [arrayDot1_eq, StackMember.dotGeneral_plain_apply, StackMember.dotGeneral_plain_apply,
    broadcastInDim_row_apply, broadcastInDim_row_apply, broadcastInDim_scalar_apply]
  show max _ (Ideal.ofBits .f32 0x00000000#32) = _
  rw [Ideal.ofBits_zero_f32]

/-! ## Where each block sits in its array -/

/-- Row `p` of block `t`, as a row of the whole array: `1000·t + p`. -/
def rowOf1 (t : Fin cfg1.N) (p : Fin 1000) : Fin 150000 :=
  ⟨t.val * 1000 + p.val, by have h := t.isLt; have e : cfg1.N = 150 := N_1; have := p.isLt; omega⟩

/-- The index maps over the 150 points: the three row windows sit at row block `t` and column block 0; the weights and
    the biases at block 0 on both axes. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `(p, k)` of the block of S at point `t` is entry `(1000·t + p, k)` of S. -/
theorem emb1_0 (t : Fin cfg1.N) (p : Fin 1000) (k : Fin 100) :
    ((cfg1.win 0).blk t).view.emb (ix2 p k) = ix2 (rowOf1 t p) k := by
  obtain ⟨e0, e1, -⟩ := blockIndex1 t
  funext a; apply Fin.ext
  match a with
  | ⟨0, _⟩ => show win1_0.index t (0 : Fin 2) * 1000 + 1 * p.val = t.val * 1000 + p.val; rw [e0]; omega
  | ⟨1, _⟩ => show win1_0.index t (1 : Fin 2) * 100 + 1 * k.val = k.val; rw [e1]; omega

/-- The same for the block of X. -/
theorem emb1_1 (t : Fin cfg1.N) (p : Fin 1000) (k : Fin 100) :
    ((cfg1.win 1).blk t).view.emb (ix2 p k) = ix2 (rowOf1 t p) k := by
  obtain ⟨-, -, e0, e1, -⟩ := blockIndex1 t
  funext a; apply Fin.ext
  match a with
  | ⟨0, _⟩ => show win1_1.index t (0 : Fin 2) * 1000 + 1 * p.val = t.val * 1000 + p.val; rw [e0]; omega
  | ⟨1, _⟩ => show win1_1.index t (1 : Fin 2) * 100 + 1 * k.val = k.val; rw [e1]; omega

/-- The block of W at any point is the whole of W. -/
theorem emb1_2 (t : Fin cfg1.N) (k : Fin 100) (q : Fin 80) :
    ((cfg1.win 2).blk t).view.emb (ix2 k q) = ix2 k q := by
  obtain ⟨-, -, -, -, e0, e1, -⟩ := blockIndex1 t
  funext a; apply Fin.ext
  match a with
  | ⟨0, _⟩ => show win1_2.index t (0 : Fin 2) * 100 + 1 * k.val = k.val; rw [e0]; omega
  | ⟨1, _⟩ => show win1_2.index t (1 : Fin 2) * 80 + 1 * q.val = q.val; rw [e1]; omega

/-- The block of b at any point is the whole of b. -/
theorem emb1_3 (t : Fin cfg1.N) (u : Fin 1) (q : Fin 80) :
    ((cfg1.win 3).blk t).view.emb (ix2 u q) = ix2 u q := by
  obtain ⟨-, -, -, -, -, -, e0, e1, -⟩ := blockIndex1 t
  funext a; apply Fin.ext
  match a with
  | ⟨0, _⟩ => show win1_3.index t (0 : Fin 2) * 1 + 1 * u.val = u.val; rw [e0]; omega
  | ⟨1, _⟩ => show win1_3.index t (1 : Fin 2) * 80 + 1 * q.val = q.val; rw [e1]; omega

/-- The block of Wi at any point is the whole of Wi. -/
theorem emb1_4 (t : Fin cfg1.N) (k : Fin 100) (q : Fin 80) :
    ((cfg1.win 4).blk t).view.emb (ix2 k q) = ix2 k q := by
  obtain ⟨-, -, -, -, -, -, -, -, e0, e1, -⟩ := blockIndex1 t
  funext a; apply Fin.ext
  match a with
  | ⟨0, _⟩ => show win1_4.index t (0 : Fin 2) * 100 + 1 * k.val = k.val; rw [e0]; omega
  | ⟨1, _⟩ => show win1_4.index t (1 : Fin 2) * 80 + 1 * q.val = q.val; rw [e1]; omega

/-- The block of bi at any point is the whole of bi. -/
theorem emb1_5 (t : Fin cfg1.N) (u : Fin 1) (q : Fin 80) :
    ((cfg1.win 5).blk t).view.emb (ix2 u q) = ix2 u q := by
  obtain ⟨-, -, -, -, -, -, -, -, -, -, e0, e1, -⟩ := blockIndex1 t
  funext a; apply Fin.ext
  match a with
  | ⟨0, _⟩ => show win1_5.index t (0 : Fin 2) * 1 + 1 * u.val = u.val; rw [e0]; omega
  | ⟨1, _⟩ => show win1_5.index t (1 : Fin 2) * 80 + 1 * q.val = q.val; rw [e1]; omega

/-- Entry `(p, q)` of the output block at point `t` is entry `(1000·t + p, q)` of the output array. -/
theorem emb1_6 (t : Fin cfg1.N) (p : Fin 1000) (q : Fin 80) :
    ((cfg1.win 6).blk t).view.emb (ix2 p q) = ix2 (rowOf1 t p) q := by
  obtain ⟨-, -, -, -, -, -, -, -, -, -, -, -, e0, e1⟩ := blockIndex1 t
  funext a; apply Fin.ext
  match a with
  | ⟨0, _⟩ => show win1_6.index t (0 : Fin 2) * 1000 + 1 * p.val = t.val * 1000 + p.val; rw [e0]; omega
  | ⟨1, _⟩ => show win1_6.index t (1 : Fin 2) * 80 + 1 * q.val = q.val; rw [e1]; omega

section
variable (V : (c : Dev nD) → (b : Ref sig .tc) → Buf (Elt Ideal) ((c : Thread nD τ).loc b)) (c : Dev nD)

/-! ## The blocks the body holds, as entries of the arrays they were fetched from -/

theorem iblk1_0_apply (t : Fin cfg1.N) (p : Fin 1000) (k : Fin 100) :
    iblk1 V c 0 t (ix2 p k) = V c main_v14_1 (ix2 (rowOf1 t p) k) := by
  show V c main_v14_1 (((cfg1.win 0).blk t).view.emb (ix2 p k)) = _
  rw [emb1_0]

theorem iblk1_1_apply (t : Fin cfg1.N) (p : Fin 1000) (k : Fin 100) :
    iblk1 V c 1 t (ix2 p k) = V c main_v27 (ix2 (rowOf1 t p) k) := by
  show V c main_v27 (((cfg1.win 1).blk t).view.emb (ix2 p k)) = _
  rw [emb1_1]

theorem iblk1_2_apply (t : Fin cfg1.N) (k : Fin 100) (q : Fin 80) :
    iblk1 V c 2 t (ix2 k q) = V c main_arg7 (ix2 k q) := by
  show V c main_arg7 (((cfg1.win 2).blk t).view.emb (ix2 k q)) = _
  rw [emb1_2]

theorem iblk1_3_apply (t : Fin cfg1.N) (u : Fin 1) (q : Fin 80) :
    iblk1 V c 3 t (ix2 u q) = V c main_v28 (ix2 u q) := by
  show V c main_v28 (((cfg1.win 3).blk t).view.emb (ix2 u q)) = _
  rw [emb1_3]

theorem iblk1_4_apply (t : Fin cfg1.N) (k : Fin 100) (q : Fin 80) :
    iblk1 V c 4 t (ix2 k q) = V c main_arg9 (ix2 k q) := by
  show V c main_arg9 (((cfg1.win 4).blk t).view.emb (ix2 k q)) = _
  rw [emb1_4]

theorem iblk1_5_apply (t : Fin cfg1.N) (u : Fin 1) (q : Fin 80) :
    iblk1 V c 5 t (ix2 u q) = V c main_v29 (ix2 u q) := by
  show V c main_v29 (((cfg1.win 5).blk t).view.emb (ix2 u q)) = _
  rw [emb1_5]

/-! ## From the blocks to the array -/

/-- What point `t` writes back is block `t` of the whole-array dense stage of the arrays the region found. -/
theorem flushed1_eq (t : Fin cfg1.N) :
    (dat1 (F := Ideal) V c).flushed 6 t = ((cfg1.win 6).blk t).view.read (Elt Ideal)
      (Cert.Hand.Spec.dense80 (F := Ideal) (V c main_v14_1) (V c main_v27) (V c main_arg7) (V c main_v28) (V c main_arg9) (V c main_v29)) := by
  show (cfg1.win 6).cut (grid1.coords t) ((dat1 (F := Ideal) V c).after 6 t) = _
  rw [after1_6]
  funext j
  obtain ⟨p, q, rfl⟩ : ∃ (p : Fin 1000) (q : Fin 80), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q)
    = Cert.Hand.Spec.dense80 (F := Ideal) (V c main_v14_1) (V c main_v27) (V c main_arg7) (V c main_v28) (V c main_arg9) (V c main_v29)
        (((cfg1.win 6).blk t).view.emb (ix2 p q))
  rw [emb1_6]
  refine (out1_6_apply (iblk1 V c 0 t) (iblk1 V c 1 t) (iblk1 V c 2 t) (iblk1 V c 3 t) (iblk1 V c 4 t) (iblk1 V c 5 t) p q).trans ?_
  refine Eq.trans ?_ (dense80_apply (V c main_v14_1) (V c main_v27) (V c main_arg7) (V c main_v28) (V c main_arg9) (V c main_v29) (rowOf1 t p) q).symm
  simp only [iblk1_0_apply V c t, iblk1_1_apply V c t, iblk1_2_apply V c t, iblk1_3_apply V c t,
    iblk1_4_apply V c t, iblk1_5_apply V c t]

end

/-- An entry of the output array lies in point `t`'s block iff each coordinate lies in the block's range on its axis. -/
theorem mem_blk1 (t : Fin cfg1.N) (i : S150000x80.Idx) :
    i ∈ ((cfg1.win 6).blk t).view.set ↔ ∀ a : Fin 2, win1_6.index t a * S1000x80.size a ≤ (i a).val
      ∧ (i a).val < win1_6.index t a * S1000x80.size a + S1000x80.size a := by
  show i ∈ ((View.whole main_v30).slice (win1_6.rect t)).set ↔ _
  rw [View.set_slice_whole, Rect.mem_set_unit]
  exact Iff.rfl

/-- Every entry lies in the block of the point numbered by its row divided by 1000, and every point writes back. -/
theorem cover1 (i : S150000x80.Idx) :
    ∃ t : Fin cfg1.N, (cfg1.win 6).flush t = true ∧ i ∈ ((cfg1.win 6).blk t).view.set := by
  have hi0 : (i 0).val < 150000 := (i 0).isLt
  have hi1 : (i 1).val < 80 := (i 1).isLt
  have hN : cfg1.N = 150 := N_1
  obtain ⟨t, ht⟩ : ∃ t : Fin cfg1.N, t.val = (i 0).val / 1000 := ⟨⟨(i 0).val / 1000, by omega⟩, rfl⟩
  refine ⟨t, flush1_6 t, ?_⟩
  rw [mem_blk1]
  obtain ⟨-, -, -, -, -, -, -, -, -, -, -, -, e0, e1⟩ := blockIndex1 t
  intro a
  match a with
  | ⟨0, _⟩ =>
    show win1_6.index t (0 : Fin 2) * 1000 ≤ (i 0).val ∧ (i 0).val < win1_6.index t (0 : Fin 2) * 1000 + 1000
    rw [e0]; omega
  | ⟨1, _⟩ =>
    show win1_6.index t (1 : Fin 2) * 80 ≤ (i 1).val ∧ (i 1).val < win1_6.index t (1 : Fin 2) * 80 + 80
    rw [e1]; omega

/-- After the region its output array is the whole-array dense stage of the arrays the region found: 100 features to 80. -/
theorem dense1_value (V : (c : Dev nD) → (b : Ref sig .tc) → Buf (Elt Ideal) ((c : Thread nD τ).loc b)) (c : Dev nD) :
    (dat1 (F := Ideal) V c).arrAt 6 cfg1.N
      = Cert.Hand.Spec.dense80 (F := Ideal) (V c main_v14_1) (V c main_v27) (V c main_arg7) (V c main_v28) (V c main_arg9) (V c main_v29) :=
  (dat1 (F := Ideal) V c).arrAt_eq_of_cover 6 _ (fun t _ => flushed1_eq V c t) cover1

end Cert.KernelIdeal.Hand.Dense1

end
-- ==== Proof.Dense3.lean ====
/-
  The second layer's dense stage, read off the pipelined run of the region that computes it.

  The region walks the 150000 rows in 150 blocks of 1000. At each block it holds 1000 rows of the summed features S and
  of the propagated products X, and the whole of the weights W, Wi (80 × 50) and of the one-row biases b, bi. What it
  writes back for row p of the block and column q is
      max((∑ₖ S(p,k)·W(k,q) + b(0,q)) + (∑ₖ X(p,k)·Wi(k,q) + bi(0,q)), 0),
  which is the entry (1000·t + p, q) of the whole-array dense stage. Every row r lies in the block r / 1000, so the
  blocks written back make up the whole array.
-/
import proofs.«133995_j16355235463443_1_alg».proof.Proof.Gen.KernelIdeal.Frame
import proofs.«133995_j16355235463443_1_alg».proof.Proof.Spec
import proofs.«133995_j16355235463443_1_alg».proof.Proof.LibPlainDot
import proofs.«133995_j16355235463443_1_alg».proof.Proof.DenseAux
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.KernelIdeal.Hand.Dense3

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Hand.DenseAux

/-! ## One block: what the body writes, entry by entry -/

/-- The block product's contraction record is the plain one: rows by columns over the shared axis. -/
theorem blockDot3_eq : dot_S1000x80_S80x50_S1000x50_1_0_0_1_n_n = DotDims.plain 1000 80 50 := rfl

/-- The body's arithmetic at an entry: both products are sums over the shared axis (a product accumulated into a zero
    tile is the plain sum, and narrowing the operands changes nothing on the extended reals), each bias row is read at
    its column, and the final maximum is against zero. The arguments come in the order the body loads them. -/
theorem pay3_apply (v0 v3 : Vec Ideal S1000x80 .f32) (v6 v8 : Vec Ideal S80x50 .f32) (v11 v16 : Vec Ideal S1x50 .f32)
    (p : Fin 1000) (q : Fin 50) :
    k3_pay1 (F := Ideal) v0 v3 v6 v8 v11 v16 (ix2 p q)
      = max (((∑ k : Fin 80, v0 (ix2 p k) * v6 (ix2 k q)) + v11 (ix2 (0 : Fin 1) q))
            + ((∑ k : Fin 80, v3 (ix2 p k) * v8 (ix2 k q)) + v16 (ix2 (0 : Fin 1) q))) 0 := by
  unfold k3_pay1
  simp only [shapeCast_self]
  show max ((FloatOps.matmul dot_S1000x80_S80x50_S1000x50_1_0_0_1_n_n none v0 v6 (constant (F := Ideal) S1000x50 .f32 0x00000000#32) (ix2 p q)
        + broadcastTo S1000x50 v11 broadcasts_S1x50_S1000x50 (ix2 p q))
      + (FloatOps.matmul dot_S1000x80_S80x50_S1000x50_1_0_0_1_n_n none v3 v8 (constant (F := Ideal) S1000x50 .f32 0x00000000#32) (ix2 p q)
        + broadcastTo S1000x50 v16 broadcasts_S1x50_S1000x50 (ix2 p q))) (Ideal.ofBits .f32 0x00000000#32) = _
  rw [Ideal.ofBits_zero_f32, blockDot3_eq, Cert.LibPlainDot.matmul_plain_zero_apply, Cert.LibPlainDot.matmul_plain_zero_apply,
    broadcastTo_row_apply, broadcastTo_row_apply]

/-- What the body leaves in the output block, entry by entry, from the six blocks it holds (in the windows' order:
    S, X, W, b, Wi, bi). -/
theorem out3_6_apply (x0 x1 : Vec Ideal S1000x80 .f32) (x2 : Vec Ideal S80x50 .f32) (x3 : Vec Ideal S1x50 .f32)
    (x4 : Vec Ideal S80x50 .f32) (x5 : Vec Ideal S1x50 .f32) (p : Fin 1000) (q : Fin 50) :
    out3_6 (F := Ideal) x0 x1 x2 x3 x4 x5 (ix2 p q)
      = max (((∑ k : Fin 80, x0 (ix2 p k) * x2 (ix2 k q)) + x3 (ix2 (0 : Fin 1) q))
            + ((∑ k : Fin 80, x1 (ix2 p k) * x4 (ix2 k q)) + x5 (ix2 (0 : Fin 1) q))) 0 := by
  unfold out3_6
  rw [View.canon_unit_zero zeroOffsets]
  simp only [View.ld_unit_zero (S := S1000x80) zeroOffsets, View.ld_unit_zero (S := S80x50) zeroOffsets,
    View.ld_unit_zero (S := S1x50) zeroOffsets]
  exact pay3_apply x0 x1 x2 x4 x3 x5 p q

/-! ## The whole array: the dense stage, entry by entry -/

/-- The whole-array product's contraction record is the plain one. -/
theorem arrayDot3_eq : Cert.ReferenceIdeal.dot_S150000x80_S80x50_S150000x50_1_0_0_1_n_n = DotDims.plain 150000 80 50 := rfl

/-- The whole-array dense stage at row `r`, column `q`: the same formula over the whole arrays. -/
theorem dense50_apply (s sx : (⟨2, ![150000, 80]⟩ : Shape).Idx → EReal) (w : (⟨2, ![80, 50]⟩ : Shape).Idx → EReal)
    (b : (⟨2, ![1, 50]⟩ : Shape).Idx → EReal) (wi : (⟨2, ![80, 50]⟩ : Shape).Idx → EReal) (bi : (⟨2, ![1, 50]⟩ : Shape).Idx → EReal)
    (r : Fin 150000) (q : Fin 50) :
    Cert.Hand.Spec.dense50 (F := Ideal) s sx w b wi bi (ix2 r q)
      = max (((∑ k : Fin 80, s (ix2 r k) * w (ix2 k q)) + b (ix2 (0 : Fin 1) q))
            + ((∑ k : Fin 80, sx (ix2 r k) * wi (ix2 k q)) + bi (ix2 (0 : Fin 1) q))) 0 := by
  unfold Cert.Hand.Spec.dense50
  show max ((Host.dotGeneral (F := Ideal) Cert.ReferenceIdeal.dot_S150000x80_S80x50_S150000x50_1_0_0_1_n_n none s w (ix2 r q)
        + broadcastInDim Cert.ReferenceIdeal.S150000x50 ![0, 1] Cert.ReferenceIdeal.Gen.bcast_S1x50_S150000x50_0_1 b (ix2 r q))
      + (Host.dotGeneral (F := Ideal) Cert.ReferenceIdeal.dot_S150000x80_S80x50_S150000x50_1_0_0_1_n_n none sx wi (ix2 r q)
        + broadcastInDim Cert.ReferenceIdeal.S150000x50 ![0, 1] Cert.ReferenceIdeal.Gen.bcast_S1x50_S150000x50_0_1 bi (ix2 r q)))
      (broadcastInDim Cert.ReferenceIdeal.S150000x50 ![] Cert.ReferenceIdeal.Gen.bcast_S_S150000x50
        (constant (F := Ideal) Cert.ReferenceIdeal.S_ .f32 0x00000000#32) (ix2 r q)) = _
  rw [arrayDot3_eq, StackMember.dotGeneral_plain_apply, StackMember.dotGeneral_plain_apply,
    broadcastInDim_row_apply, broadcastInDim_row_apply, broadcastInDim_scalar_apply]
  show max _ (Ideal.ofBits .f32 0x00000000#32) = _
  rw [Ideal.ofBits_zero_f32]

/-! ## Where each block sits in its array -/

/-- Row `p` of block `t`, as a row of the whole array: `1000·t + p`. -/
def rowOf3 (t : Fin cfg3.N) (p : Fin 1000) : Fin 150000 :=
  ⟨t.val * 1000 + p.val, by have h := t.isLt; have e : cfg3.N = 150 := N_3; have := p.isLt; omega⟩

/-- The index maps over the 150 points: the three row windows sit at row block `t` and column block 0; the weights and
    the biases at block 0 on both axes. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Entry `(p, k)` of the block of S at point `t` is entry `(1000·t + p, k)` of S. -/
theorem emb3_0 (t : Fin cfg3.N) (p : Fin 1000) (k : Fin 80) :
    ((cfg3.win 0).blk t).view.emb (ix2 p k) = ix2 (rowOf3 t p) k := by
  obtain ⟨e0, e1, -⟩ := blockIndex3 t
  funext a; apply Fin.ext
  match a with
  | ⟨0, _⟩ => show win3_0.index t (0 : Fin 2) * 1000 + 1 * p.val = t.val * 1000 + p.val; rw [e0]; omega
  | ⟨1, _⟩ => show win3_0.index t (1 : Fin 2) * 80 + 1 * k.val = k.val; rw [e1]; omega

/-- The same for the block of X. -/
theorem emb3_1 (t : Fin cfg3.N) (p : Fin 1000) (k : Fin 80) :
    ((cfg3.win 1).blk t).view.emb (ix2 p k) = ix2 (rowOf3 t p) k := by
  obtain ⟨-, -, e0, e1, -⟩ := blockIndex3 t
  funext a; apply Fin.ext
  match a with
  | ⟨0, _⟩ => show win3_1.index t (0 : Fin 2) * 1000 + 1 * p.val = t.val * 1000 + p.val; rw [e0]; omega
  | ⟨1, _⟩ => show win3_1.index t (1 : Fin 2) * 80 + 1 * k.val = k.val; rw [e1]; omega

/-- The block of W at any point is the whole of W. -/
theorem emb3_2 (t : Fin cfg3.N) (k : Fin 80) (q : Fin 50) :
    ((cfg3.win 2).blk t).view.emb (ix2 k q) = ix2 k q := by
  obtain ⟨-, -, -, -, e0, e1, -⟩ := blockIndex3 t
  funext a; apply Fin.ext
  match a with
  | ⟨0, _⟩ => show win3_2.index t (0 : Fin 2) * 80 + 1 * k.val = k.val; rw [e0]; omega
  | ⟨1, _⟩ => show win3_2.index t (1 : Fin 2) * 50 + 1 * q.val = q.val; rw [e1]; omega

/-- The block of b at any point is the whole of b. -/
theorem emb3_3 (t : Fin cfg3.N) (u : Fin 1) (q : Fin 50) :
    ((cfg3.win 3).blk t).view.emb (ix2 u q) = ix2 u q := by
  obtain ⟨-, -, -, -, -, -, e0, e1, -⟩ := blockIndex3 t
  funext a; apply Fin.ext
  match a with
  | ⟨0, _⟩ => show win3_3.index t (0 : Fin 2) * 1 + 1 * u.val = u.val; rw [e0]; omega
  | ⟨1, _⟩ => show win3_3.index t (1 : Fin 2) * 50 + 1 * q.val = q.val; rw [e1]; omega

/-- The block of Wi at any point is the whole of Wi. -/
theorem emb3_4 (t : Fin cfg3.N) (k : Fin 80) (q : Fin 50) :
    ((cfg3.win 4).blk t).view.emb (ix2 k q) = ix2 k q := by
  obtain ⟨-, -, -, -, -, -, -, -, e0, e1, -⟩ := blockIndex3 t
  funext a; apply Fin.ext
  match a with
  | ⟨0, _⟩ => show win3_4.index t (0 : Fin 2) * 80 + 1 * k.val = k.val; rw [e0]; omega
  | ⟨1, _⟩ => show win3_4.index t (1 : Fin 2) * 50 + 1 * q.val = q.val; rw [e1]; omega

/-- The block of bi at any point is the whole of bi. -/
theorem emb3_5 (t : Fin cfg3.N) (u : Fin 1) (q : Fin 50) :
    ((cfg3.win 5).blk t).view.emb (ix2 u q) = ix2 u q := by
  obtain ⟨-, -, -, -, -, -, -, -, -, -, e0, e1, -⟩ := blockIndex3 t
  funext a; apply Fin.ext
  match a with
  | ⟨0, _⟩ => show win3_5.index t (0 : Fin 2) * 1 + 1 * u.val = u.val; rw [e0]; omega
  | ⟨1, _⟩ => show win3_5.index t (1 : Fin 2) * 50 + 1 * q.val = q.val; rw [e1]; omega

/-- Entry `(p, q)` of the output block at point `t` is entry `(1000·t + p, q)` of the output array. -/
theorem emb3_6 (t : Fin cfg3.N) (p : Fin 1000) (q : Fin 50) :
    ((cfg3.win 6).blk t).view.emb (ix2 p q) = ix2 (rowOf3 t p) q := by
  obtain ⟨-, -, -, -, -, -, -, -, -, -, -, -, e0, e1⟩ := blockIndex3 t
  funext a; apply Fin.ext
  match a with
  | ⟨0, _⟩ => show win3_6.index t (0 : Fin 2) * 1000 + 1 * p.val = t.val * 1000 + p.val; rw [e0]; omega
  | ⟨1, _⟩ => show win3_6.index t (1 : Fin 2) * 50 + 1 * q.val = q.val; rw [e1]; omega

section
variable (V : (c : Dev nD) → (b : Ref sig .tc) → Buf (Elt Ideal) ((c : Thread nD τ).loc b)) (c : Dev nD)

/-! ## The blocks the body holds, as entries of the arrays they were fetched from -/

theorem iblk3_0_apply (t : Fin cfg3.N) (p : Fin 1000) (k : Fin 80) :
    iblk3 V c 0 t (ix2 p k) = V c main_v45_1 (ix2 (rowOf3 t p) k) := by
  show V c main_v45_1 (((cfg3.win 0).blk t).view.emb (ix2 p k)) = _
  rw [emb3_0]

theorem iblk3_1_apply (t : Fin cfg3.N) (p : Fin 1000) (k : Fin 80) :
    iblk3 V c 1 t (ix2 p k) = V c main_v58 (ix2 (rowOf3 t p) k) := by
  show V c main_v58 (((cfg3.win 1).blk t).view.emb (ix2 p k)) = _
  rw [emb3_1]

theorem iblk3_2_apply (t : Fin cfg3.N) (k : Fin 80) (q : Fin 50) :
    iblk3 V c 2 t (ix2 k q) = V c main_arg11 (ix2 k q) := by
  show V c main_arg11 (((cfg3.win 2).blk t).view.emb (ix2 k q)) = _
  rw [emb3_2]

theorem iblk3_3_apply (t : Fin cfg3.N) (u : Fin 1) (q : Fin 50) :
    iblk3 V c 3 t (ix2 u q) = V c main_v59 (ix2 u q) := by
  show V c main_v59 (((cfg3.win 3).blk t).view.emb (ix2 u q)) = _
  rw [emb3_3]

theorem iblk3_4_apply (t : Fin cfg3.N) (k : Fin 80) (q : Fin 50) :
    iblk3 V c 4 t (ix2 k q) = V c main_arg13 (ix2 k q) := by
  show V c main_arg13 (((cfg3.win 4).blk t).view.emb (ix2 k q)) = _
  rw [emb3_4]

theorem iblk3_5_apply (t : Fin cfg3.N) (u : Fin 1) (q : Fin 50) :
    iblk3 V c 5 t (ix2 u q) = V c main_v60 (ix2 u q) := by
  show V c main_v60 (((cfg3.win 5).blk t).view.emb (ix2 u q)) = _
  rw [emb3_5]

/-! ## From the blocks to the array -/

/-- What point `t` writes back is block `t` of the whole-array dense stage of the arrays the region found. -/
theorem flushed3_eq (t : Fin cfg3.N) :
    (dat3 (F := Ideal) V c).flushed 6 t = ((cfg3.win 6).blk t).view.read (Elt Ideal)
      (Cert.Hand.Spec.dense50 (F := Ideal) (V c main_v45_1) (V c main_v58) (V c main_arg11) (V c main_v59) (V c main_arg13) (V c main_v60)) := by
  show (cfg3.win 6).cut (grid3.coords t) ((dat3 (F := Ideal) V c).after 6 t) = _
  rw [after3_6]
  funext j
  obtain ⟨p, q, rfl⟩ : ∃ (p : Fin 1000) (q : Fin 50), j = ix2 p q := ⟨j 0, j 1, eq_ix2 j⟩
  show out3_6 (iblk3 V c 0 t) (iblk3 V c 1 t) (iblk3 V c 2 t) (iblk3 V c 3 t) (iblk3 V c 4 t) (iblk3 V c 5 t) (ix2 p q)
    = Cert.Hand.Spec.dense50 (F := Ideal) (V c main_v45_1) (V c main_v58) (V c main_arg11) (V c main_v59) (V c main_arg13) (V c main_v60)
        (((cfg3.win 6).blk t).view.emb (ix2 p q))
  rw [emb3_6]
  refine (out3_6_apply (iblk3 V c 0 t) (iblk3 V c 1 t) (iblk3 V c 2 t) (iblk3 V c 3 t) (iblk3 V c 4 t) (iblk3 V c 5 t) p q).trans ?_
  refine Eq.trans ?_ (dense50_apply (V c main_v45_1) (V c main_v58) (V c main_arg11) (V c main_v59) (V c main_arg13) (V c main_v60) (rowOf3 t p) q).symm
  simp only [iblk3_0_apply V c t, iblk3_1_apply V c t, iblk3_2_apply V c t, iblk3_3_apply V c t,
    iblk3_4_apply V c t, iblk3_5_apply V c t]

end

/-- An entry of the output array lies in point `t`'s block iff each coordinate lies in the block's range on its axis. -/
theorem mem_blk3 (t : Fin cfg3.N) (i : S150000x50.Idx) :
    i ∈ ((cfg3.win 6).blk t).view.set ↔ ∀ a : Fin 2, win3_6.index t a * S1000x50.size a ≤ (i a).val
      ∧ (i a).val < win3_6.index t a * S1000x50.size a + S1000x50.size a := by
  show i ∈ ((View.whole main_v61).slice (win3_6.rect t)).set ↔ _
  rw [View.set_slice_whole, Rect.mem_set_unit]
  exact Iff.rfl

/-- Every entry lies in the block of the point numbered by its row divided by 1000, and every point writes back. -/
theorem cover3 (i : S150000x50.Idx) :
    ∃ t : Fin cfg3.N, (cfg3.win 6).flush t = true ∧ i ∈ ((cfg3.win 6).blk t).view.set := by
  have hi0 : (i 0).val < 150000 := (i 0).isLt
  have hi1 : (i 1).val < 50 := (i 1).isLt
  have hN : cfg3.N = 150 := N_3
  obtain ⟨t, ht⟩ : ∃ t : Fin cfg3.N, t.val = (i 0).val / 1000 := ⟨⟨(i 0).val / 1000, by omega⟩, rfl⟩
  refine ⟨t, flush3_6 t, ?_⟩
  rw [mem_blk3]
  obtain ⟨-, -, -, -, -, -, -, -, -, -, -, -, e0, e1⟩ := blockIndex3 t
  intro a
  match a with
  | ⟨0, _⟩ =>
    show win3_6.index t (0 : Fin 2) * 1000 ≤ (i 0).val ∧ (i 0).val < win3_6.index t (0 : Fin 2) * 1000 + 1000
    rw [e0]; omega
  | ⟨1, _⟩ =>
    show win3_6.index t (1 : Fin 2) * 50 ≤ (i 1).val ∧ (i 1).val < win3_6.index t (1 : Fin 2) * 50 + 50
    rw [e1]; omega

/-- After the region its output array is the whole-array dense stage of the arrays the region found: 80 features to 50. -/
theorem dense3_value (V : (c : Dev nD) → (b : Ref sig .tc) → Buf (Elt Ideal) ((c : Thread nD τ).loc b)) (c : Dev nD) :
    (dat3 (F := Ideal) V c).arrAt 6 cfg3.N
      = Cert.Hand.Spec.dense50 (F := Ideal) (V c main_v45_1) (V c main_v58) (V c main_arg11) (V c main_v59) (V c main_arg13) (V c main_v60) :=
  (dat3 (F := Ideal) V c).arrAt_eq_of_cover 6 _ (fun t _ => flushed3_eq V c t) cover3

end Cert.KernelIdeal.Hand.Dense3

end
-- ==== Proof.HeadAux.lean ====
/-
  One affine layer of a small network on a batch of rows, and the rows of a batch.

  A layer sends a batch `A` (one row per example) to `A·W + b`, the bias `b` being one row repeated down the batch:
  at `(r, j)` it is `∑ c, A (r, c) · W (c, j) + b (0, j)`. Row `r` of the result depends on row `r` of `A` only. So the
  layer applied to a block of consecutive rows of a batch is the same block of rows of the layer applied to the whole
  batch, and the same holds for `max(·, z)` taken entry by entry, and for any chain of such maps. On the extended reals
  a matrix unit accumulating into a zero tile and the host's product are both that sum (there is no rounding and no
  order of accumulation to tell them apart), so both compute this layer.
-/
import proofs.«133995_j16355235463443_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.HeadAux

open Idealize.ShloMosaic Idealize.ShloMosaic.ValueIdx

/-- The affine layer `A·W + b` on a batch of `n` rows, the bias a one-row matrix repeated down the rows. -/
def affine {n k m : ℕ} (A : (⟨2, ![n, k]⟩ : Shape).Idx → EReal) (W : (⟨2, ![k, m]⟩ : Shape).Idx → EReal)
    (b : (⟨2, ![1, m]⟩ : Shape).Idx → EReal) : (⟨2, ![n, m]⟩ : Shape).Idx → EReal :=
  fun i => (∑ c : Fin k, A (ix2 (i 0) c) * W (ix2 c (i 1))) + b (ix2 (0 : Fin 1) (i 1))

/-- `max(·, z)` entry by entry. -/
def clampBelow {n m : ℕ} (z : EReal) (A : (⟨2, ![n, m]⟩ : Shape).Idx → EReal) : (⟨2, ![n, m]⟩ : Shape).Idx → EReal :=
  fun i => max (A i) z

/-- `A'` is the block of rows `off, off + 1, …` of `A`. -/
def RowsOf {n' n k : ℕ} (off : ℕ) (A' : (⟨2, ![n', k]⟩ : Shape).Idx → EReal) (A : (⟨2, ![n, k]⟩ : Shape).Idx → EReal) : Prop :=
  ∀ (p : Fin n') (r : Fin n), r.val = off + p.val → ∀ c : Fin k, A' (ix2 p c) = A (ix2 r c)

/-- Read at indices rather than coordinates: entry `j` of the block is entry `i` of the batch when `i` is `j` moved
    down by `off` rows. -/
theorem RowsOf.apply {n' n k : ℕ} {off : ℕ} {A' : (⟨2, ![n', k]⟩ : Shape).Idx → EReal} {A : (⟨2, ![n, k]⟩ : Shape).Idx → EReal}
    (h : RowsOf off A' A) (j : (⟨2, ![n', k]⟩ : Shape).Idx) (i : (⟨2, ![n, k]⟩ : Shape).Idx)
    (h0 : (i 0).val = off + (j 0).val) (h1 : (i 1).val = (j 1).val) : A' j = A i := by
  have e1 : i 1 = j 1 := Fin.ext h1
  calc A' j = A' (ix2 (j 0) (j 1)) := congrArg A' (eq_ix2 j)
    _ = A (ix2 (i 0) (j 1)) := h (j 0) (i 0) h0 (j 1)
    _ = A (ix2 (i 0) (i 1)) := by rw [e1]
    _ = A i := congrArg A (eq_ix2 i).symm

/-- The layer of a block of rows is that block of rows of the layer. -/
theorem affine_rows {n' n k m : ℕ} {off : ℕ} {A' : (⟨2, ![n', k]⟩ : Shape).Idx → EReal} {A : (⟨2, ![n, k]⟩ : Shape).Idx → EReal}
    (W : (⟨2, ![k, m]⟩ : Shape).Idx → EReal) (b : (⟨2, ![1, m]⟩ : Shape).Idx → EReal) (h : RowsOf off A' A) :
    RowsOf off (affine A' W b) (affine A W b) := fun p r hr c =>
  congrArg (· + b (ix2 (0 : Fin 1) c)) (Finset.sum_congr rfl fun c' _ => congrArg (· * W (ix2 c' c)) (h p r hr c'))

/-- So is the entrywise maximum with a constant. -/
theorem clampBelow_rows {n' n m : ℕ} {off : ℕ} {A' : (⟨2, ![n', m]⟩ : Shape).Idx → EReal} {A : (⟨2, ![n, m]⟩ : Shape).Idx → EReal}
    (z : EReal) (h : RowsOf off A' A) : RowsOf off (clampBelow z A') (clampBelow z A) := fun p r hr c =>
  congrArg (max · z) (h p r hr c)

/-- A matrix unit's plain product into the zero tile, plus the bias row broadcast down the rows, is the layer. -/
theorem matmul_bias_eq_affine {n k m : ℕ} {φ₁ φ₂ : FTy} (d : DotDims ⟨2, ![n, k]⟩ ⟨2, ![k, m]⟩ ⟨2, ![n, m]⟩)
    (hd : d = DotDims.plain n k m) (prec : Option ContractPrecision)
    (A : FVec Ideal ⟨2, ![n, k]⟩ φ₁) (W : FVec Ideal ⟨2, ![k, m]⟩ φ₂) (b : FVec Ideal ⟨2, ![1, m]⟩ .f32)
    (h : (⟨2, ![1, m]⟩ : Shape).Broadcasts ⟨2, ![n, m]⟩) :
    addf (FloatOps.matmul d prec A W (constant (F := Ideal) ⟨2, ![n, m]⟩ .f32 0x00000000#32)) (broadcastTo ⟨2, ![n, m]⟩ b h)
      = affine A W b := by
  subst hd
  funext i
  obtain ⟨p, q, rfl⟩ : ∃ (p : Fin n) (q : Fin m), i = ix2 p q := ⟨i 0, i 1, eq_ix2 i⟩
  show FloatOps.matmul (DotDims.plain n k m) prec A W (constant (F := Ideal) ⟨2, ![n, m]⟩ .f32 0x00000000#32) (ix2 p q)
      + broadcastTo ⟨2, ![n, m]⟩ b h (ix2 p q) = _
  rw [Cert.LibPlainDot.matmul_plain_zero_apply, broadcastTo_1b_ab_apply]
  rfl

/-- The host's plain product, plus the bias row broadcast down the rows, is the layer. -/
theorem dot_bias_eq_affine {n k m : ℕ} {φ₁ φ₂ : FTy} (d : DotDims ⟨2, ![n, k]⟩ ⟨2, ![k, m]⟩ ⟨2, ![n, m]⟩)
    (hd : d = DotDims.plain n k m) (prec : Option ContractPrecision)
    (A : FVec Ideal ⟨2, ![n, k]⟩ φ₁) (W : FVec Ideal ⟨2, ![k, m]⟩ φ₂) (b : FVec Ideal ⟨2, ![1, m]⟩ .f32)
    (h : (⟨2, ![1, m]⟩ : Shape).BroadcastsInDim ⟨2, ![n, m]⟩ ![0, 1]) :
    addf (Host.dotGeneral (F := Ideal) d prec A W) (broadcastInDim ⟨2, ![n, m]⟩ ![0, 1] h b) = affine A W b := by
  subst hd
  funext i
  obtain ⟨p, q, rfl⟩ : ∃ (p : Fin n) (q : Fin m), i = ix2 p q := ⟨i 0, i 1, eq_ix2 i⟩
  show Host.dotGeneral (F := Ideal) (DotDims.plain n k m) prec A W (ix2 p q)
      + broadcastInDim ⟨2, ![n, m]⟩ ![0, 1] h b (ix2 p q) = _
  rw [StackMember.dotGeneral_plain_apply,
    broadcastInDim_apply ![0, 1] h b (ix2 p q) (ix2 (0 : Fin 1) q) (fun a => match a with
      | ⟨0, _⟩ => by show 0 = if (1 : ℕ) = 1 then 0 else p.val; rw [if_pos rfl]
      | ⟨1, _⟩ => by
        show q.val = if m = 1 then 0 else q.val
        split
        · have := q.isLt; omega
        · rfl)]
  rfl

end Cert.KernelIdeal.Hand.HeadAux

end
-- ==== Proof.Head.lean ====
/-
  The scoring head: what one launch of the kernel leaves in its output array.

  The kernel walks the batch of 4096 embeddings in 8 blocks of 512 rows; the three weight matrices and the three bias
  rows are whole at every point. On a block it computes ((max(0, X·W1 + b1))·W2 + b2)·W3 + b3 with its matrix unit,
  three affine layers with one max between them. Every layer maps row r of its input to row r of its output, so the
  value on block t is rows 512·t … 512·t + 511 of the same three layers applied to the whole batch, which is what the
  host's operations compute. The 8 blocks tile the 4096 rows: row r lies in block r / 512.
-/
import proofs.«133995_j16355235463443_1_alg».proof.Proof.Gen.KernelIdeal.Frame
import proofs.«133995_j16355235463443_1_alg».proof.Proof.Spec
import proofs.«133995_j16355235463443_1_alg».proof.Proof.LibPlainDot
import proofs.«133995_j16355235463443_1_alg».proof.Proof.HeadAux
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Head

open Cert.KernelIdeal Cert.KernelIdeal.Gen Idealize.ShloMosaic Idealize.ShloMosaic.TcCoe Idealize.SL.Sem
open Idealize.ShloMosaic.ValueIdx Cert.KernelIdeal.Hand.HeadAux
open Idealize.ShloMosaic.Pipeline (Dat)

/-- The word of 0.0, the constant of both programs' max. -/
abbrev zeroWord : EReal := Ideal.ofBits .f32 0x00000000#32

/-- The three layers with the max after the first, on a batch of any number of rows. -/
abbrev headOn {n : ℕ} (e : (⟨2, ![n, 460]⟩ : Shape).Idx → EReal) (w1 : (⟨2, ![460, 64]⟩ : Shape).Idx → EReal)
    (b1 : (⟨2, ![1, 64]⟩ : Shape).Idx → EReal) (w2 : (⟨2, ![64, 32]⟩ : Shape).Idx → EReal)
    (b2 : (⟨2, ![1, 32]⟩ : Shape).Idx → EReal) (w3 : (⟨2, ![32, 1]⟩ : Shape).Idx → EReal)
    (b3 : (⟨2, ![1, 1]⟩ : Shape).Idx → EReal) : (⟨2, ![n, 1]⟩ : Shape).Idx → EReal :=
  affine (affine (clampBelow zeroWord (affine e w1 b1)) w2 b2) w3 b3

/-- A block of rows of the batch gives that block of rows of the result. -/
theorem headOn_rows {n' n : ℕ} {off : ℕ} {e' : (⟨2, ![n', 460]⟩ : Shape).Idx → EReal} {e : (⟨2, ![n, 460]⟩ : Shape).Idx → EReal}
    (w1 : (⟨2, ![460, 64]⟩ : Shape).Idx → EReal) (b1 : (⟨2, ![1, 64]⟩ : Shape).Idx → EReal)
    (w2 : (⟨2, ![64, 32]⟩ : Shape).Idx → EReal) (b2 : (⟨2, ![1, 32]⟩ : Shape).Idx → EReal)
    (w3 : (⟨2, ![32, 1]⟩ : Shape).Idx → EReal) (b3 : (⟨2, ![1, 1]⟩ : Shape).Idx → EReal) (h : RowsOf off e' e) :
    RowsOf off (headOn e' w1 b1 w2 b2 w3 b3) (headOn e w1 b1 w2 b2 w3 b3) :=
  affine_rows w3 b3 (affine_rows w2 b2 (clampBelow_rows zeroWord (affine_rows w1 b1 h)))

/-! ## The kernel's arithmetic on a block, and the host's on the batch -/

theorem d1_plain : dot_S512x460_S460x64_S512x64_1_0_0_1_n_n = DotDims.plain 512 460 64 := rfl
theorem d2_plain : dot_S512x64_S64x32_S512x32_1_0_0_1_n_n = DotDims.plain 512 64 32 := rfl
theorem d3_plain : dot_S512x32_S32x1_S512x1_1_0_0_1_n_n = DotDims.plain 512 32 1 := rfl

/-- The body's one store, from the blocks it loads: the three layers on the block's 512 rows. -/
theorem pay_eq (x0 : Vec Ideal S512x460 .f32) (x1 : Vec Ideal S460x64 .f32) (x2 : Vec Ideal S1x64 .f32)
    (x3 : Vec Ideal S64x32 .f32) (x4 : Vec Ideal S1x32 .f32) (x5 : Vec Ideal S32x1 .f32) (x6 : Vec Ideal S1x1 .f32) :
    k4_pay1 x0 x1 x2 x3 x4 x5 x6 = headOn x0 x1 x2 x3 x4 x5 x6 := by
  unfold k4_pay1
  simp only [shapeCast_self]
  rw [matmul_bias_eq_affine dot_S512x460_S460x64_S512x64_1_0_0_1_n_n d1_plain,
    matmul_bias_eq_affine dot_S512x64_S64x32_S512x32_1_0_0_1_n_n d2_plain,
    matmul_bias_eq_affine dot_S512x32_S32x1_S512x1_1_0_0_1_n_n d3_plain]
  rfl

theorem r1_plain : Cert.ReferenceIdeal.dot_S4096x460_S460x64_S4096x64_1_0_0_1_n_n = DotDims.plain 4096 460 64 := rfl
theorem r2_plain : Cert.ReferenceIdeal.dot_S4096x64_S64x32_S4096x32_1_0_0_1_n_n = DotDims.plain 4096 64 32 := rfl
theorem r3_plain : Cert.ReferenceIdeal.dot_S4096x32_S32x1_S4096x1_1_0_0_1_n_n = DotDims.plain 4096 32 1 := rfl

/-- The host's scoring head is the three layers on the batch's 4096 rows. -/
theorem head_eq (e : (⟨2, ![4096, 460]⟩ : Shape).Idx → EReal) (w1 : (⟨2, ![460, 64]⟩ : Shape).Idx → EReal)
    (b1 : (⟨2, ![1, 64]⟩ : Shape).Idx → EReal) (w2 : (⟨2, ![64, 32]⟩ : Shape).Idx → EReal)
    (b2 : (⟨2, ![1, 32]⟩ : Shape).Idx → EReal) (w3 : (⟨2, ![32, 1]⟩ : Shape).Idx → EReal)
    (b3 : (⟨2, ![1, 1]⟩ : Shape).Idx → EReal) :
    Cert.Hand.Spec.head (F := Ideal) e w1 b1 w2 b2 w3 b3 = headOn e w1 b1 w2 b2 w3 b3 := by
  unfold Cert.Hand.Spec.head
  rw [dot_bias_eq_affine Cert.ReferenceIdeal.dot_S4096x460_S460x64_S4096x64_1_0_0_1_n_n r1_plain,
    dot_bias_eq_affine Cert.ReferenceIdeal.dot_S4096x64_S64x32_S4096x32_1_0_0_1_n_n r2_plain,
    dot_bias_eq_affine Cert.ReferenceIdeal.dot_S4096x32_S32x1_S4096x1_1_0_0_1_n_n r3_plain]
  rfl

/-! ## The blocks the kernel reads at a point -/

theorem hz : (![0, 0] : Fin 2 → Nat) = fun _ => 0 := funext fun a => by fin_cases a <;> rfl

/-- The index maps over the grid: the batch and the result move one block of rows per point, every other operand
    stays at block (0, 0). -/
theorem idx_facts : ∀ t : Fin cfg4.N,
    (win4_0.index t (0 : Fin 2) = t.val ∧ win4_0.index t (1 : Fin 2) = 0)
    ∧ (win4_7.index t (0 : Fin 2) = t.val ∧ win4_7.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

section Blocks
variable (V : (c : Dev nD) → (b : Ref sig .tc) → Buf (Elt Ideal) ((c : Thread nD τ).loc b))

/-- The batch's block at point `t` is its rows `512·t … 512·t + 511`. -/
theorem iblk_batch (c : Dev nD) (t : Fin cfg4.N) :
    RowsOf (512 * t.val) (iblk4 V c 0 t : Vec Ideal S512x460 .f32) (V c main_v77) := by
  intro p r hr k
  obtain ⟨⟨e0, e1⟩, -⟩ := idx_facts t
  unfold iblk4
  rw [View.read_apply]
  show V c main_v77 _ = V c main_v77 (ix2 r k)
  congr 1
  funext a
  apply Fin.ext
  match a with
  | ⟨0, _⟩ => show win4_0.index t (0 : Fin 2) * 512 + 1 * p.val = r.val; rw [e0, hr]; omega
  | ⟨1, _⟩ => show win4_0.index t (1 : Fin 2) * 460 + 1 * k.val = k.val; rw [e1]; omega

/-- The first weight matrix's block is the matrix, at every point. -/
theorem iblk_w1 (c : Dev nD) (t : Fin cfg4.N) : (iblk4 V c 1 t : Vec Ideal S460x64 .f32) = V c main_arg15 := by
  obtain ⟨-, -, ⟨e0, e1⟩, -⟩ := idx_facts t
  funext y
  unfold iblk4
  rw [View.read_apply]
  show V c main_arg15 _ = V c main_arg15 y
  congr 1
  funext a
  apply Fin.ext
  match a with
  | ⟨0, _⟩ => show win4_1.index t (0 : Fin 2) * 460 + 1 * (y 0).val = (y 0).val; rw [e0]; omega
  | ⟨1, _⟩ => show win4_1.index t (1 : Fin 2) * 64 + 1 * (y 1).val = (y 1).val; rw [e1]; omega

/-- The first bias row's block is the row. -/
theorem iblk_b1 (c : Dev nD) (t : Fin cfg4.N) : (iblk4 V c 2 t : Vec Ideal S1x64 .f32) = V c main_v78 := by
  obtain ⟨-, -, -, ⟨e0, e1⟩, -⟩ := idx_facts t
  funext y
  unfold iblk4
  rw [View.read_apply]
  show V c main_v78 _ = V c main_v78 y
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

/-- The second weight matrix's block is the matrix. -/
theorem iblk_w2 (c : Dev nD) (t : Fin cfg4.N) : (iblk4 V c 3 t : Vec Ideal S64x32 .f32) = V c main_arg17 := by
  obtain ⟨-, -, -, -, ⟨e0, e1⟩, -⟩ := idx_facts t
  funext y
  unfold iblk4
  rw [View.read_apply]
  show V c main_arg17 _ = V c main_arg17 y
  congr 1
  funext a
  apply Fin.ext
  match a with
  | ⟨0, _⟩ => show win4_3.index t (0 : Fin 2) * 64 + 1 * (y 0).val = (y 0).val; rw [e0]; omega
  | ⟨1, _⟩ => show win4_3.index t (1 : Fin 2) * 32 + 1 * (y 1).val = (y 1).val; rw [e1]; omega

/-- The second bias row's block is the row. -/
theorem iblk_b2 (c : Dev nD) (t : Fin cfg4.N) : (iblk4 V c 4 t : Vec Ideal S1x32 .f32) = V c main_v79 := by
  obtain ⟨-, -, -, -, -, ⟨e0, e1⟩, -⟩ := idx_facts t
  funext y
  unfold iblk4
  rw [View.read_apply]
  show V c main_v79 _ = V c main_v79 y
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 32 + 1 * (y 1).val = (y 1).val; rw [e1]; omega

/-- The third weight matrix's block is the matrix. -/
theorem iblk_w3 (c : Dev nD) (t : Fin cfg4.N) : (iblk4 V c 5 t : Vec Ideal S32x1 .f32) = V c main_arg19 := by
  obtain ⟨-, -, -, -, -, -, ⟨e0, e1⟩, -⟩ := idx_facts t
  funext y
  unfold iblk4
  rw [View.read_apply]
  show V c main_arg19 _ = V c main_arg19 y
  congr 1
  funext a
  apply Fin.ext
  match a with
  | ⟨0, _⟩ => show win4_5.index t (0 : Fin 2) * 32 + 1 * (y 0).val = (y 0).val; rw [e0]; omega
  | ⟨1, _⟩ => show win4_5.index t (1 : Fin 2) * 1 + 1 * (y 1).val = (y 1).val; rw [e1]; omega

/-- The third bias's block is the bias. -/
theorem iblk_b3 (c : Dev nD) (t : Fin cfg4.N) : (iblk4 V c 6 t : Vec Ideal S1x1 .f32) = V c main_v80 := by
  obtain ⟨-, -, -, -, -, -, -, ⟨e0, e1⟩⟩ := idx_facts t
  funext y
  unfold iblk4
  rw [View.read_apply]
  show V c main_v80 _ = V c main_v80 y
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 1 + 1 * (y 1).val = (y 1).val; rw [e1]; omega

/-! ## From the blocks to the array -/

/-- The result as one function of the arrays the launch finds. -/
abbrev headOf (c : Dev nD) : (⟨2, ![4096, 1]⟩ : Shape).Idx → EReal :=
  headOn (V c main_v77) (V c main_arg15) (V c main_v78) (V c main_arg17) (V c main_v79) (V c main_arg19) (V c main_v80)

/-- What point `t` writes back is block `t` of the three layers of the whole batch. -/
theorem flushed_eq (c : Dev nD) (t : Fin cfg4.N) :
    (dat4 (F := Ideal) V c).flushed 7 t = ((cfg4.win 7).blk t).view.read (Elt Ideal) (headOf V c) := by
  show (cfg4.win 7).cut (grid4.coords t) ((dat4 (F := Ideal) V c).after 7 t) = _
  rw [after4_7]
  unfold out4_7
  rw [View.canon_unit_zero hz]
  simp only [View.ld_unit_zero (S := S512x460) hz, View.ld_unit_zero (S := S460x64) hz, View.ld_unit_zero (S := S1x64) hz,
    View.ld_unit_zero (S := S64x32) hz, View.ld_unit_zero (S := S1x32) hz, View.ld_unit_zero (S := S32x1) hz,
    View.ld_unit_zero (S := S1x1) hz]
  rw [pay_eq, iblk_w1, iblk_b1, iblk_w2, iblk_b2, iblk_w3, iblk_b3]
  obtain ⟨-, ⟨e0, e1⟩, -⟩ := idx_facts t
  funext j
  show headOn (iblk4 V c 0 t) (V c main_arg15) (V c main_v78) (V c main_arg17) (V c main_v79) (V c main_arg19) (V c main_v80) j
    = headOf V c (((cfg4.win 7).blk t).view.emb j)
  refine (headOn_rows (V c main_arg15) (V c main_v78) (V c main_arg17) (V c main_v79) (V c main_arg19) (V c main_v80)
    (iblk_batch V c t)).apply j (((cfg4.win 7).blk t).view.emb j) ?_ ?_
  · show win4_7.index t (0 : Fin 2) * 512 + 1 * (j 0).val = 512 * t.val + (j 0).val
    rw [e0]; omega
  · show win4_7.index t (1 : Fin 2) * 1 + 1 * (j 1).val = (j 1).val
    rw [e1]; omega

/-- Row `r` of the result lies in the block of point `r / 512`. -/
theorem covered (i : S4096x1.Idx) :
    ∃ t : Fin cfg4.N, (cfg4.win 7).flush t = true ∧ i ∈ ((cfg4.win 7).blk t).view.set := by
  have hi0 : (i 0).val < 4096 := (i 0).isLt
  have hi1 : (i 1).val < 1 := (i 1).isLt
  have h8 : grid4.N = 8 := N_4
  obtain ⟨t, ht⟩ : ∃ t : Fin cfg4.N, t.val = (i 0).val / 512 :=
    ⟨⟨(i 0).val / 512, by show (i 0).val / 512 < grid4.N; omega⟩, rfl⟩
  obtain ⟨-, ⟨e0, e1⟩, -⟩ := idx_facts t
  refine ⟨t, flush4_7 t, ?_⟩
  show i ∈ ((View.whole main_v81).slice (win4_7.rect t)).set
  rw [View.set_slice_whole, Rect.mem_set_unit]
  intro a
  match a with
  | ⟨0, _⟩ =>
    show win4_7.index t (0 : Fin 2) * 512 ≤ (i 0).val ∧ (i 0).val < win4_7.index t (0 : Fin 2) * 512 + 512
    rw [e0]; omega
  | ⟨1, _⟩ =>
    show win4_7.index t (1 : Fin 2) * 1 ≤ (i 1).val ∧ (i 1).val < win4_7.index t (1 : Fin 2) * 1 + 1
    rw [e1]; omega

end Blocks

/-- After the launch the result array is the host's scoring head of the arrays the launch found, for any contents. -/
theorem head_value (V : (c : Dev nD) → (b : Ref sig .tc) → Buf (Elt Ideal) ((c : Thread nD τ).loc b)) (c : Dev nD) :
    (dat4 (F := Ideal) V c).arrAt 7 cfg4.N
      = Cert.Hand.Spec.head (F := Ideal) (V c main_v77) (V c main_arg15) (V c main_v78) (V c main_arg17)
          (V c main_v79) (V c main_arg19) (V c main_v80) := by
  rw [head_eq]
  exact (dat4 (F := Ideal) V c).arrAt_eq_of_cover 7 (headOf V c) (fun t _ => flushed_eq V c t) covered

end Cert.KernelIdeal.Hand.Head

end
-- ==== Proof.Chain.lean ====
/-
  The kernel program's buffers, boundary by boundary, are the reference's stages.

  The program alternates stretches of host operations with kernel regions. Walking from the launch to the return, each
  buffer a later step reads is shown to hold a named stage of the reference computation, as a function of the argument
  arrays: the host stretches are the reference's own operations on the same stages; an elementwise region leaves the
  entrywise product and sum; a dense region leaves max(0, (S·W + b) + (X·Wi + bi)); the last region leaves the scoring
  head's output; the result is its recast to a vector.
-/
import proofs.«133995_j16355235463443_1_alg».proof.Proof.Gen.KernelIdeal.Frame
import proofs.«133995_j16355235463443_1_alg».proof.Proof.RefStages
import proofs.«133995_j16355235463443_1_alg».proof.Proof.Spec
import proofs.«133995_j16355235463443_1_alg».proof.Proof.Keep
import proofs.«133995_j16355235463443_1_alg».proof.Proof.Rows
import proofs.«133995_j16355235463443_1_alg».proof.Proof.EwCombine
import proofs.«133995_j16355235463443_1_alg».proof.Proof.Dense1
import proofs.«133995_j16355235463443_1_alg».proof.Proof.Dense3
import proofs.«133995_j16355235463443_1_alg».proof.Proof.Head
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-! ## Layer 1: propagation, the elementwise stage -/

/-- The stacked user and item embeddings. -/
theorem feats_1 : W1 m ρ c (Proc.devRef .tc main_v0) = Cert.ReferenceIdeal.Stages.val_main_v0 (F := Ideal) (m ((c : Thread nD τ).loc main_arg5)) (m ((c : Thread nD τ).loc main_arg6)) := by
  show StableHlo.after hostOps0 (W0 m ρ c) (Proc.devRef .tc main_v0) = _
  after_results
  rfl

/-- The propagated embeddings. -/
theorem prop_1 : W1 m ρ c (Proc.devRef .tc main_v13) = Cert.ReferenceIdeal.Stages.val_main_v13 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps0 (W0 m ρ c) (Proc.devRef .tc main_v13) = _
  after_results_simp
  rfl

theorem prod_2 : W2 m ρ c (Proc.devRef .tc main_v14_0) = Cert.ReferenceIdeal.Stages.val_main_v14 (F := Ideal) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 2).trans ((prod_value0 (V1 m ρ) c).trans (by
    show mulf (F := Ideal) (s := S150000x100) (φ := .f32) (W1 m ρ c (Proc.devRef .tc main_v13)) (W1 m ρ c (Proc.devRef .tc main_v0)) = _
    rw [prop_1 m ρ c, feats_1 m ρ c]; rfl))

theorem sum_2 : W2 m ρ c (Proc.devRef .tc main_v14_1) = Cert.ReferenceIdeal.Stages.val_main_v15 (F := Ideal) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 3).trans ((sum_value0 (V1 m ρ) c).trans (by
    show addf (F := Ideal) (s := S150000x100) (φ := .f32) (W1 m ρ c (Proc.devRef .tc main_v13)) (W1 m ρ c (Proc.devRef .tc main_v0)) = _
    rw [prop_1 m ρ c, feats_1 m ρ c]; rfl))

/-- The embeddings pass through the first region unchanged: it only reads them. -/
theorem feats_2 : W2 m ρ c (Proc.devRef .tc main_v0) = Cert.ReferenceIdeal.Stages.val_main_v0 (F := Ideal) (m ((c : Thread nD τ).loc main_arg5)) (m ((c : Thread nD τ).loc main_arg6)) :=
  (W2_arr m ρ c 1).trans (((dat0 (V1 m ρ) c).arrAt_in 1 rfl _).trans ((A_eq0 (V1 m ρ) c 1).trans (feats_1 m ρ c)))

/-! ## Layer 1: the second propagation, the dense stage -/

theorem prop2_3 : W3 m ρ c (Proc.devRef .tc main_v27) = Cert.ReferenceIdeal.Stages.val_main_v32 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v27) = _
  after_results_simp
  rw [prod_2 m ρ c, at2 m ρ c main_arg2 (by decide) (by decide), at2 m ρ c main_arg3 (by decide) (by decide), at2 m ρ c main_arg4 (by decide) (by decide)]
  rfl

theorem bias_3 : W3 m ρ c (Proc.devRef .tc main_v28) = Cert.ReferenceIdeal.Stages.val_main_v17 (F := Ideal) (m ((c : Thread nD τ).loc main_arg8)) := by
  show StableHlo.after hostOps1 (W2 m ρ c) (Proc.devRef .tc main_v28) = _
  after_results
  rw [at2 m ρ c main_arg8 (by decide) (by decide)]
  exact Cert.Hand.Rows.cast_eq_repeat _ _ _

theorem biasi_3 : W3 m ρ c (Proc.devRef .tc main_v29) = Cert.ReferenceIdeal.Stages.val_main_v34 (F := Ideal) (m ((c : Thread nD τ).loc main_arg10)) := by
  show StableHlo.after hostOps1 (W2 m ρ c) (Proc.devRef .tc main_v29) = _
  after_results
  rw [at2 m ρ c main_arg10 (by decide) (by decide)]
  exact Cert.Hand.Rows.cast_eq_repeat _ _ _

theorem sum_3 : W3 m ρ c (Proc.devRef .tc main_v14_1) = Cert.ReferenceIdeal.Stages.val_main_v15 (F := Ideal) (m ((c : Thread nD τ).loc main_arg2)) (m ((c : Thread nD τ).loc main_arg3)) (m ((c : Thread nD τ).loc main_arg4)) (m ((c : Thread nD τ).loc main_arg5)) (m ((c : Thread nD τ).loc main_arg6)) :=
  (host1_keep _ main_v14_1 (by decide)).trans (sum_2 m ρ c)

theorem out1_4 : W4 m ρ c (Proc.devRef .tc main_v30) = Cert.ReferenceIdeal.Stages.val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans ((Dense1.dense1_value (V3 m ρ) c).trans (by
    show Cert.Hand.Spec.dense80 (F := Ideal) (W3 m ρ c (Proc.devRef .tc main_v14_1)) (W3 m ρ c (Proc.devRef .tc main_v27)) (W3 m ρ c (Proc.devRef .tc main_arg7))
      (W3 m ρ c (Proc.devRef .tc main_v28)) (W3 m ρ c (Proc.devRef .tc main_arg9)) (W3 m ρ c (Proc.devRef .tc main_v29)) = _
    rw [sum_3 m ρ c, prop2_3 m ρ c, at3 m ρ c main_arg7 (by decide) (by decide) (by decide), bias_3 m ρ c, at3 m ρ c main_arg9 (by decide) (by decide) (by decide), biasi_3 m ρ c]
    rfl))

/-! ## Layer 2 -/

theorem feats_4 : W4 m ρ c (Proc.devRef .tc main_v0) = Cert.ReferenceIdeal.Stages.val_main_v0 (F := Ideal) (m ((c : Thread nD τ).loc main_arg5)) (m ((c : Thread nD τ).loc main_arg6)) :=
  (W4_of_ne m ρ c main_v0 (by decide)).trans ((host1_keep _ main_v0 (by decide)).trans (feats_2 m ρ c))

theorem cat1_5 : W5 m ρ c (Proc.devRef .tc main_v31) = Cert.ReferenceIdeal.Stages.val_main_v39 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v31) = _
  after_results
  rw [feats_4 m ρ c, out1_4 m ρ c]
  rfl

theorem prop_5 : W5 m ρ c (Proc.devRef .tc main_v44) = Cert.ReferenceIdeal.Stages.val_main_v52 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v44) = _
  after_results_simp
  rw [out1_4 m ρ c, at4 m ρ c main_arg2 (by decide) (by decide) (by decide) (by decide), at4 m ρ c main_arg3 (by decide) (by decide) (by decide) (by decide), at4 m ρ c main_arg4 (by decide) (by decide) (by decide) (by decide)]
  rfl

theorem out1_5 : W5 m ρ c (Proc.devRef .tc main_v30) = Cert.ReferenceIdeal.Stages.val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (host2_keep _ main_v30 (by decide)).trans (out1_4 m ρ c)

theorem prod_6 : W6 m ρ c (Proc.devRef .tc main_v45_0) = Cert.ReferenceIdeal.Stages.val_main_v53 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 2).trans ((prod_value2 (V5 m ρ) c).trans (by
    show mulf (F := Ideal) (s := S150000x80) (φ := .f32) (W5 m ρ c (Proc.devRef .tc main_v44)) (W5 m ρ c (Proc.devRef .tc main_v30)) = _
    rw [prop_5 m ρ c, out1_5 m ρ c]; rfl))

theorem sum_6 : W6 m ρ c (Proc.devRef .tc main_v45_1) = Cert.ReferenceIdeal.Stages.val_main_v54 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 3).trans ((sum_value2 (V5 m ρ) c).trans (by
    show addf (F := Ideal) (s := S150000x80) (φ := .f32) (W5 m ρ c (Proc.devRef .tc main_v44)) (W5 m ρ c (Proc.devRef .tc main_v30)) = _
    rw [prop_5 m ρ c, out1_5 m ρ c]; rfl))

theorem prop2_7 : W7 m ρ c (Proc.devRef .tc main_v58) = Cert.ReferenceIdeal.Stages.val_main_v71 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v58) = _
  after_results_simp
  rw [prod_6 m ρ c, at6 m ρ c main_arg2 (by decide) (by decide) (by decide) (by decide) (by decide) (by decide), at6 m ρ c main_arg3 (by decide) (by decide) (by decide) (by decide) (by decide) (by decide), at6 m ρ c main_arg4 (by decide) (by decide) (by decide) (by decide) (by decide) (by decide)]
  rfl

theorem bias_7 : W7 m ρ c (Proc.devRef .tc main_v59) = Cert.ReferenceIdeal.Stages.val_main_v56 (F := Ideal) (m ((c : Thread nD τ).loc main_arg12)) := by
  show StableHlo.after hostOps3 (W6 m ρ c) (Proc.devRef .tc main_v59) = _
  after_results
  rw [at6 m ρ c main_arg12 (by decide) (by decide) (by decide) (by decide) (by decide) (by decide)]
  exact Cert.Hand.Rows.cast_eq_repeat _ _ _

theorem biasi_7 : W7 m ρ c (Proc.devRef .tc main_v60) = Cert.ReferenceIdeal.Stages.val_main_v73 (F := Ideal) (m ((c : Thread nD τ).loc main_arg14)) := by
  show StableHlo.after hostOps3 (W6 m ρ c) (Proc.devRef .tc main_v60) = _
  after_results
  rw [at6 m ρ c main_arg14 (by decide) (by decide) (by decide) (by decide) (by decide) (by decide)]
  exact Cert.Hand.Rows.cast_eq_repeat _ _ _

theorem sum_7 : W7 m ρ c (Proc.devRef .tc main_v45_1) = Cert.ReferenceIdeal.Stages.val_main_v54 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (host3_keep _ main_v45_1 (by decide)).trans (sum_6 m ρ c)

theorem out2_8 : W8 m ρ c (Proc.devRef .tc main_v61) = Cert.ReferenceIdeal.Stages.val_main_v77 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_arr m ρ c 6).trans ((Dense3.dense3_value (V7 m ρ) c).trans (by
    show Cert.Hand.Spec.dense50 (F := Ideal) (W7 m ρ c (Proc.devRef .tc main_v45_1)) (W7 m ρ c (Proc.devRef .tc main_v58)) (W7 m ρ c (Proc.devRef .tc main_arg11))
      (W7 m ρ c (Proc.devRef .tc main_v59)) (W7 m ρ c (Proc.devRef .tc main_arg13)) (W7 m ρ c (Proc.devRef .tc main_v60)) = _
    rw [sum_7 m ρ c, prop2_7 m ρ c, at7 m ρ c main_arg11 (by decide) (by decide) (by decide) (by decide) (by decide) (by decide) (by decide), bias_7 m ρ c, at7 m ρ c main_arg13 (by decide) (by decide) (by decide) (by decide) (by decide) (by decide) (by decide), biasi_7 m ρ c]
    rfl))

/-! ## The batch's embeddings and the scoring head -/

theorem cat1_8 : W8 m ρ c (Proc.devRef .tc main_v31) = Cert.ReferenceIdeal.Stages.val_main_v39 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_of_ne m ρ c main_v31 (by decide)).trans ((host3_keep _ main_v31 (by decide)).trans
    ((W6_of_ne m ρ c main_v31 (by decide)).trans (cat1_5 m ρ c)))

/-- The batch's embeddings after the last host stretch, from whatever the stretch finds in the buffers it reads. -/
theorem batch_of (W : Valuation τ sig (Elt Ideal)) : StableHlo.after hostOps4 W (Proc.devRef .tc main_v77)
      = concatenate S4096x460 1
          [⟨S4096x230, Host.gather gather_S150000x230_S4096x1_S4096x230_1_0_n_n_0_1_1230
              (concatenate S150000x230 1 [⟨S150000x180, W (Proc.devRef .tc main_v31)⟩, ⟨S150000x50, W (Proc.devRef .tc main_v61)⟩]
                concatenates_S150000x180_S150000x50_S150000x230_d1)
              (Cert.ReferenceIdeal.Stages.val_main_v84 (F := Ideal) (W (Proc.devRef .tc main_arg0)))⟩,
           ⟨S4096x230, Host.gather gather_S150000x230_S4096x1_S4096x230_1_0_n_n_0_1_1230
              (concatenate S150000x230 1 [⟨S150000x180, W (Proc.devRef .tc main_v31)⟩, ⟨S150000x50, W (Proc.devRef .tc main_v61)⟩]
                concatenates_S150000x180_S150000x50_S150000x230_d1)
              (Cert.ReferenceIdeal.Stages.val_main_v91 (F := Ideal) (W (Proc.devRef .tc main_arg1)))⟩]
          concatenates_S4096x230_S4096x230_S4096x460_d1 := by
  after_results_simp <;> rfl

theorem batch_9 : W9 m ρ c (Proc.devRef .tc main_v77) = Cert.ReferenceIdeal.Stages.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps4 (W8 m ρ c) (Proc.devRef .tc main_v77) = _
  rw [batch_of (W8 m ρ c), cat1_8 m ρ c, out2_8 m ρ c, at8 m ρ c main_arg0 (by decide) (by decide) (by decide) (by decide) (by decide) (by decide) (by decide) (by decide), at8 m ρ c main_arg1 (by decide) (by decide) (by decide) (by decide) (by decide) (by decide) (by decide) (by decide)]
  rfl

theorem hb1_9 : W9 m ρ c (Proc.devRef .tc main_v78) = Cert.ReferenceIdeal.Stages.val_main_v95 (F := Ideal) (m ((c : Thread nD τ).loc main_arg16)) := by
  show StableHlo.after hostOps4 (W8 m ρ c) (Proc.devRef .tc main_v78) = _
  after_results
  rw [at8 m ρ c main_arg16 (by decide) (by decide) (by decide) (by decide) (by decide) (by decide) (by decide) (by decide)]
  exact Cert.Hand.Rows.cast_eq_repeat _ _ _

theorem hb2_9 : W9 m ρ c (Proc.devRef .tc main_v79) = Cert.ReferenceIdeal.Stages.val_main_v100 (F := Ideal) (m ((c : Thread nD τ).loc main_arg18)) := by
  show StableHlo.after hostOps4 (W8 m ρ c) (Proc.devRef .tc main_v79) = _
  after_results
  rw [at8 m ρ c main_arg18 (by decide) (by decide) (by decide) (by decide) (by decide) (by decide) (by decide) (by decide)]
  exact Cert.Hand.Rows.cast_eq_repeat _ _ _

theorem hb3_9 : W9 m ρ c (Proc.devRef .tc main_v80) = Cert.ReferenceIdeal.Stages.val_main_v104 (F := Ideal) (m ((c : Thread nD τ).loc main_arg20)) := by
  show StableHlo.after hostOps4 (W8 m ρ c) (Proc.devRef .tc main_v80) = _
  after_results
  rw [at8 m ρ c main_arg20 (by decide) (by decide) (by decide) (by decide) (by decide) (by decide) (by decide) (by decide)]
  exact Cert.Hand.Rows.cast_eq_repeat _ _ _

theorem score_10 : W10 m ρ c (Proc.devRef .tc main_v81) = Cert.ReferenceIdeal.Stages.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (W10_arr m ρ c 7).trans ((Head.head_value (V9 m ρ) c).trans (by
    show Cert.Hand.Spec.head (F := Ideal) (W9 m ρ c (Proc.devRef .tc main_v77)) (W9 m ρ c (Proc.devRef .tc main_arg15)) (W9 m ρ c (Proc.devRef .tc main_v78))
      (W9 m ρ c (Proc.devRef .tc main_arg17)) (W9 m ρ c (Proc.devRef .tc main_v79)) (W9 m ρ c (Proc.devRef .tc main_arg19)) (W9 m ρ c (Proc.devRef .tc main_v80)) = _
    rw [batch_9 m ρ c, at9 m ρ c main_arg15 (by decide) (by decide) (by decide) (by decide) (by decide) (by decide) (by decide) (by decide) (by decide), hb1_9 m ρ c, at9 m ρ c main_arg17 (by decide) (by decide) (by decide) (by decide) (by decide) (by decide) (by decide) (by decide) (by decide), hb2_9 m ρ c, at9 m ρ c main_arg19 (by decide) (by decide) (by decide) (by decide) (by decide) (by decide) (by decide) (by decide) (by decide), hb3_9 m ρ c]
    rfl))

/-- The result buffer at the return is the reference's result as a function of the arguments. -/
theorem result_11 : W11 m ρ c (Proc.devRef .tc main_v82) = Cert.ReferenceIdeal.Stages.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps5 (W10 m ρ c) (Proc.devRef .tc main_v82) = _
  after_results
  rw [score_10 m ρ c]
  rfl

end Cert.KernelIdeal.Hand

end
-- ==== Proof.lean ====
/-
  The certificate of an NGCF-style graph network scored on a batch: a kernel program against its reference.

  Both programs stack the user and item embeddings into X₀ : [150000, 100], run two message-passing layers
      L = A·X (a sparse product: gather the rows by column index, scale by the edge values, add up by row index),
      X' = max(0, ((L + X)·W + b) + ((A·(L ⊙ X))·Wi + bi)),
  concatenate X₀, X₁, X₂ along the features, gather the batch's user rows and item rows side by side, and apply the
  scoring head ((max(0, E·W₁ + b₁))·W₂ + b₂)·W₃ + b₃.
  The reference does everything with host operations. The kernel program keeps the sparse products, concatenations
  and gathers on the host, in the same operations, and computes the elementwise stage (L ⊙ X, L + X), the dense stage
  and the scoring head in five kernel regions tiled over the rows. On the extended reals a change of float format is
  the identity and a matrix unit's product into a zero tile is the plain sum over the contracted axis, so each region
  leaves exactly the array the reference's operations produce, and the two results are one function of the arguments,
  entry by entry, with no use of finiteness.
-/
import proofs.«133995_j16355235463443_1_alg».proof.Defs
import proofs.«133995_j16355235463443_1_alg».proof.Proof.Gen.Kernel
import proofs.«133995_j16355235463443_1_alg».proof.Proof.Gen.Kernel.Frame
import proofs.«133995_j16355235463443_1_alg».proof.Proof.Gen.KernelIdeal
import proofs.«133995_j16355235463443_1_alg».proof.Proof.Gen.KernelIdeal.Frame
import proofs.«133995_j16355235463443_1_alg».proof.Proof.Gen.ReferenceIdeal
import proofs.«133995_j16355235463443_1_alg».proof.Proof.Gen.Pre_finite_inputs
import proofs.«133995_j16355235463443_1_alg».proof.Proof.RefOps
import proofs.«133995_j16355235463443_1_alg».proof.Proof.RefChain
import proofs.«133995_j16355235463443_1_alg».proof.Proof.KernelRun
import proofs.«133995_j16355235463443_1_alg».proof.Proof.Chain
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Hand.arg0_kept m c),
     (h c Cert.ReferenceIdeal.main_arg1).trans (Cert.ReferenceIdeal.Hand.arg1_kept m c),
     (h c Cert.ReferenceIdeal.main_arg2).trans (Cert.ReferenceIdeal.Hand.arg2_kept m c),
     (h c Cert.ReferenceIdeal.main_arg3).trans (Cert.ReferenceIdeal.Hand.arg3_kept m c),
     (h c Cert.ReferenceIdeal.main_arg4).trans (Cert.ReferenceIdeal.Hand.arg4_kept m c),
     (h c Cert.ReferenceIdeal.main_arg5).trans (Cert.ReferenceIdeal.Hand.arg5_kept m c),
     (h c Cert.ReferenceIdeal.main_arg6).trans (Cert.ReferenceIdeal.Hand.arg6_kept m c),
     (h c Cert.ReferenceIdeal.main_arg7).trans (Cert.ReferenceIdeal.Hand.arg7_kept m c),
     (h c Cert.ReferenceIdeal.main_arg8).trans (Cert.ReferenceIdeal.Hand.arg8_kept m c),
     (h c Cert.ReferenceIdeal.main_arg9).trans (Cert.ReferenceIdeal.Hand.arg9_kept m c),
     (h c Cert.ReferenceIdeal.main_arg10).trans (Cert.ReferenceIdeal.Hand.arg10_kept m c),
     (h c Cert.ReferenceIdeal.main_arg11).trans (Cert.ReferenceIdeal.Hand.arg11_kept m c),
     (h c Cert.ReferenceIdeal.main_arg12).trans (Cert.ReferenceIdeal.Hand.arg12_kept m c),
     (h c Cert.ReferenceIdeal.main_arg13).trans (Cert.ReferenceIdeal.Hand.arg13_kept m c),
     (h c Cert.ReferenceIdeal.main_arg14).trans (Cert.ReferenceIdeal.Hand.arg14_kept m c),
     (h c Cert.ReferenceIdeal.main_arg15).trans (Cert.ReferenceIdeal.Hand.arg15_kept m c),
     (h c Cert.ReferenceIdeal.main_arg16).trans (Cert.ReferenceIdeal.Hand.arg16_kept m c),
     (h c Cert.ReferenceIdeal.main_arg17).trans (Cert.ReferenceIdeal.Hand.arg17_kept m c),
     (h c Cert.ReferenceIdeal.main_arg18).trans (Cert.ReferenceIdeal.Hand.arg18_kept m c),
     (h c Cert.ReferenceIdeal.main_arg19).trans (Cert.ReferenceIdeal.Hand.arg19_kept m c),
     (h c Cert.ReferenceIdeal.main_arg20).trans (Cert.ReferenceIdeal.Hand.arg20_kept m c)⟩)
    (Cert.ReferenceIdeal.Hand.run_after (F := Ideal) m ρ)

/-- From memories that agree on the arguments both programs end with the same result: the kernel program's result
    buffer holds the reference's last stage as a function of its own arguments, and so does the reference's. -/
theorem algebraic : Cert.algebraic_KernelIdeal_ReferenceIdeal := by
  intro m ρ m' ρ' _ hagree
  refine ⟨fun c => Cert.KernelIdeal.Gen.W11 m ρ c (Proc.devRef .tc Cert.KernelIdeal.main_v82),
    Cert.KernelIdeal.Hand.run_result (F := Ideal) m ρ, ?_⟩
  refine (θ_run Cert.ReferenceIdeal.defs _ _).mono (fun _ h c =>
    ⟨(h c Cert.ReferenceIdeal.main_v107).trans ?_,
     (h c Cert.ReferenceIdeal.main_arg0).trans (Cert.ReferenceIdeal.Hand.arg0_kept m' c),
     (h c Cert.ReferenceIdeal.main_arg1).trans (Cert.ReferenceIdeal.Hand.arg1_kept m' c),
     (h c Cert.ReferenceIdeal.main_arg2).trans (Cert.ReferenceIdeal.Hand.arg2_kept m' c),
     (h c Cert.ReferenceIdeal.main_arg3).trans (Cert.ReferenceIdeal.Hand.arg3_kept m' c),
     (h c Cert.ReferenceIdeal.main_arg4).trans (Cert.ReferenceIdeal.Hand.arg4_kept m' c),
     (h c Cert.ReferenceIdeal.main_arg5).trans (Cert.ReferenceIdeal.Hand.arg5_kept m' c),
     (h c Cert.ReferenceIdeal.main_arg6).trans (Cert.ReferenceIdeal.Hand.arg6_kept m' c),
     (h c Cert.ReferenceIdeal.main_arg7).trans (Cert.ReferenceIdeal.Hand.arg7_kept m' c),
     (h c Cert.ReferenceIdeal.main_arg8).trans (Cert.ReferenceIdeal.Hand.arg8_kept m' c),
     (h c Cert.ReferenceIdeal.main_arg9).trans (Cert.ReferenceIdeal.Hand.arg9_kept m' c),
     (h c Cert.ReferenceIdeal.main_arg10).trans (Cert.ReferenceIdeal.Hand.arg10_kept m' c),
     (h c Cert.ReferenceIdeal.main_arg11).trans (Cert.ReferenceIdeal.Hand.arg11_kept m' c),
     (h c Cert.ReferenceIdeal.main_arg12).trans (Cert.ReferenceIdeal.Hand.arg12_kept m' c),
     (h c Cert.ReferenceIdeal.main_arg13).trans (Cert.ReferenceIdeal.Hand.arg13_kept m' c),
     (h c Cert.ReferenceIdeal.main_arg14).trans (Cert.ReferenceIdeal.Hand.arg14_kept m' c),
     (h c Cert.ReferenceIdeal.main_arg15).trans (Cert.ReferenceIdeal.Hand.arg15_kept m' c),
     (h c Cert.ReferenceIdeal.main_arg16).trans (Cert.ReferenceIdeal.Hand.arg16_kept m' c),
     (h c Cert.ReferenceIdeal.main_arg17).trans (Cert.ReferenceIdeal.Hand.arg17_kept m' c),
     (h c Cert.ReferenceIdeal.main_arg18).trans (Cert.ReferenceIdeal.Hand.arg18_kept m' c),
     (h c Cert.ReferenceIdeal.main_arg19).trans (Cert.ReferenceIdeal.Hand.arg19_kept m' c),
     (h c Cert.ReferenceIdeal.main_arg20).trans (Cert.ReferenceIdeal.Hand.arg20_kept m' c)⟩)
    (Cert.ReferenceIdeal.Hand.run_after (F := Ideal) m' ρ')
  obtain ⟨a0, a1, a2, a3, a4, a5, a6, a7, a8, a9, a10, a11, a12, a13, a14, a15, a16, a17, a18, a19, a20⟩ := hagree c
  rw [Cert.ReferenceIdeal.Hand.result_at m' c, a0, a1, a2, a3, a4, a5, a6, a7, a8, a9, a10, a11, a12, a13, a14, a15, a16, a17, a18, a19, a20]
  exact (Cert.KernelIdeal.Hand.result_11 m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
